-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x8x64x16 : Shape := ⟨4, ![2000, 8, 64, 16]⟩
abbrev S16x2000x2000 : Shape := ⟨3, ![16, 2000, 2000]⟩
abbrev S16x16 : Shape := ⟨2, ![16, 16]⟩
abbrev S16 : Shape := ⟨1, ![16]⟩
abbrev S200 : Shape := ⟨1, ![200]⟩
abbrev S600 : Shape := ⟨1, ![600]⟩
abbrev S1800 : Shape := ⟨1, ![1800]⟩
abbrev S5400 : Shape := ⟨1, ![5400]⟩
abbrev S_ : Shape := ⟨0, ![]⟩

class Facts : Prop where
  bcast_S_S2000x8x64x16 : S_.BroadcastsInDim S2000x8x64x16 (![] : Fin 0 → Fin S2000x8x64x16.rank)
  reducesTo_S2000x8x64x16_S_d0_1_2_3 : S2000x8x64x16.ReducesTo [0, 1, 2, 3] S_
  h_S_ : 0 < S_.numel
  bcast_S_S16x2000x2000 : S_.BroadcastsInDim S16x2000x2000 (![] : Fin 0 → Fin S16x2000x2000.rank)
  reducesTo_S16x2000x2000_S_d0_1_2 : S16x2000x2000.ReducesTo [0, 1, 2] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S2000x8x64x16 .f32) (main_arg1 : FVec F S16x2000x2000 .f32) (main_arg2 : FVec F S16x16 .f32) (main_arg3 : FVec F S16 .f32) (main_arg4 : IVec S200 32) (main_arg5 : IVec S600 32) (main_arg6 : IVec S600 32) (main_arg7 : IVec S600 32) (main_arg8 : IVec S1800 32) (main_arg9 : IVec S1800 32) (main_arg10 : IVec S1800 32) (main_arg11 : IVec S5400 32) (main_arg12 : IVec S5400 32) (main_arg13 : IVec S5400 32) : IVec S_ 1 :=
  let main_v0 : FVec F S2000x8x64x16 .f32 := Host.absf main_arg0
  let main_cst : FVec F S_ .f32 := constant S_ .f32 0x7F800000#32
  let main_v1 : FVec F S2000x8x64x16 .f32 := broadcastInDim S2000x8x64x16 ![] bcast_S_S2000x8x64x16 main_cst
  let main_v2 : IVec S2000x8x64x16 1 := cmpf .olt main_v0 main_v1
  let main_c : IVec S_ 1 := constantI S_ 1 1#1
  let main_v3 : IVec S_ 1 := (fun x v => Host.reduce IntOp.andi x v reducesTo_S2000x8x64x16_S_d0_1_2_3 h_S_) main_v2 main_c
  let main_v4 : FVec F S16x2000x2000 .f32 := Host.absf main_arg1
  let main_cst_0 : FVec F S_ .f32 := constant S_ .f32 0x7F800000#32
  let main_v5 : FVec F S16x2000x2000 .f32 := broadcastInDim S16x2000x2000 ![] bcast_S_S16x2000x2000 main_cst_0
  let main_v6 : IVec S16x2000x2000 1 := cmpf .olt main_v4 main_v5
  let main_c_1 : IVec S_ 1 := constantI S_ 1 1#1
  let main_v7 : IVec S_ 1 := (fun x v => Host.reduce IntOp.andi x v reducesTo_S16x2000x2000_S_d0_1_2 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S2000x8x64x16 : Shape := ⟨4, ![2000, 8, 64, 16]⟩
abbrev S16x2000x2000 : Shape := ⟨3, ![16, 2000, 2000]⟩
abbrev S16x16 : Shape := ⟨2, ![16, 16]⟩
abbrev S16 : Shape := ⟨1, ![16]⟩
abbrev S200 : Shape := ⟨1, ![200]⟩
abbrev S600 : Shape := ⟨1, ![600]⟩
abbrev S1800 : Shape := ⟨1, ![1800]⟩
abbrev S5400 : Shape := ⟨1, ![5400]⟩
abbrev S1x16 : Shape := ⟨2, ![1, 16]⟩
abbrev S_ : Shape := ⟨0, ![]⟩
abbrev S200x1 : Shape := ⟨2, ![200, 1]⟩
abbrev S200x8x64x16 : Shape := ⟨4, ![200, 8, 64, 16]⟩
abbrev S20x8x64x16 : Shape := ⟨4, ![20, 8, 64, 16]⟩
abbrev S10240x16 : Shape := ⟨2, ![10240, 16]⟩
abbrev S600x1 : Shape := ⟨2, ![600, 1]⟩
abbrev S600x8x64x16 : Shape := ⟨4, ![600, 8, 64, 16]⟩
abbrev S600x2 : Shape := ⟨2, ![600, 2]⟩
abbrev S16x600 : Shape := ⟨2, ![16, 600]⟩
abbrev S600x16 : Shape := ⟨2, ![600, 16]⟩
abbrev S600x1x1x16 : Shape := ⟨4, ![600, 1, 1, 16]⟩
abbrev S20x1x1x16 : Shape := ⟨4, ![20, 1, 1, 16]⟩
abbrev S1800x1 : Shape := ⟨2, ![1800, 1]⟩
abbrev S1800x8x64x16 : Shape := ⟨4, ![1800, 8, 64, 16]⟩
abbrev S1800x2 : Shape := ⟨2, ![1800, 2]⟩
abbrev S16x1800 : Shape := ⟨2, ![16, 1800]⟩
abbrev S1800x16 : Shape := ⟨2, ![1800, 16]⟩
abbrev S1800x1x1x16 : Shape := ⟨4, ![1800, 1, 1, 16]⟩
abbrev S5400x1 : Shape := ⟨2, ![5400, 1]⟩
abbrev S5400x8x64x16 : Shape := ⟨4, ![5400, 8, 64, 16]⟩
abbrev S5400x2 : Shape := ⟨2, ![5400, 2]⟩
abbrev S16x5400 : Shape := ⟨2, ![16, 5400]⟩
abbrev S5400x16 : Shape := ⟨2, ![5400, 16]⟩
abbrev S5400x1x1x16 : Shape := ⟨4, ![5400, 1, 1, 16]⟩
abbrev S2000 : Shape := ⟨1, ![2000]⟩
abbrev S2000x1x1x1 : Shape := ⟨4, ![2000, 1, 1, 1]⟩
abbrev S20x1x1x1 : Shape := ⟨4, ![20, 1, 1, 1]⟩

abbrev nBuf : Space → Nat
  | .hbm => 156
  | .vmem => 50
  | .smem => 0
  | _ => 0

abbrev hbmTy0_0 (i : Nat) : BufTy := match i % 128 with
  | 0 => ⟨S2000x8x64x16, .f32⟩
  | 1 => ⟨S16x2000x2000, .f32⟩
  | 2 => ⟨S16x16, .f32⟩
  | 3 => ⟨S16, .f32⟩
  | 4 => ⟨S200, .i32⟩
  | 5 => ⟨S600, .i32⟩
  | 6 => ⟨S600, .i32⟩
  | 7 => ⟨S600, .i32⟩
  | 8 => ⟨S1800, .i32⟩
  | 9 => ⟨S1800, .i32⟩
  | 10 => ⟨S1800, .i32⟩
  | 11 => ⟨S5400, .i32⟩
  | 12 => ⟨S5400, .i32⟩
  | 13 => ⟨S5400, .i32⟩
  | 14 => ⟨S1x16, .f32⟩
  | 15 => ⟨S_, .i32⟩
  | 16 => ⟨S200, .i32⟩
  | 17 => ⟨S200, .i1⟩
  | 18 => ⟨S_, .i32⟩
  | 19 => ⟨S200, .i32⟩
  | 20 => ⟨S200, .i32⟩
  | 21 => ⟨S200, .i32⟩
  | 22 => ⟨S200x1, .i32⟩
  | 23 => ⟨S200x8x64x16, .f32⟩
  | 24 => ⟨S200x8x64x16, .f32⟩
  | 25 => ⟨S_, .i32⟩
  | 26 => ⟨S600, .i32⟩
  | 27 => ⟨S600, .i1⟩
  | 28 => ⟨S_, .i32⟩
  | 29 => ⟨S600, .i32⟩
  | 30 => ⟨S600, .i32⟩
  | 31 => ⟨S600, .i32⟩
  | 32 => ⟨S600x1, .i32⟩
  | 33 => ⟨S600x8x64x16, .f32⟩
  | 34 => ⟨S_, .i32⟩
  | 35 => ⟨S600, .i32⟩
  | 36 => ⟨S600, .i1⟩
  | 37 => ⟨S_, .i32⟩
  | 38 => ⟨S600, .i32⟩
  | 39 => ⟨S600, .i32⟩
  | 40 => ⟨S600, .i32⟩
  | 41 => ⟨S_, .i32⟩
  | 42 => ⟨S600, .i32⟩
  | 43 => ⟨S600, .i1⟩
  | 44 => ⟨S_, .i32⟩
  | 45 => ⟨S600, .i32⟩
  | 46 => ⟨S600, .i32⟩
  | 47 => ⟨S600, .i32⟩
  | 48 => ⟨S600x1, .i32⟩
  | 49 => ⟨S600x1, .i32⟩
  | 50 => ⟨S600x2, .i32⟩
  | 51 => ⟨S16x600, .f32⟩
  | 52 => ⟨S600x16, .f32⟩
  | 53 => ⟨S600x1x1x16, .f32⟩
  | 54 => ⟨S_, .i32⟩
  | 55 => ⟨S600, .i32⟩
  | 56 => ⟨S600, .i1⟩
  | 57 => ⟨S_, .i32⟩
  | 58 => ⟨S600, .i32⟩
  | 59 => ⟨S600, .i32⟩
  | 60 => ⟨S600, .i32⟩
  | 61 => ⟨S600x1, .i32⟩
  | 62 => ⟨S600x8x64x16, .f32⟩
  | 63 => ⟨S600x8x64x16, .f32⟩
  | 64 => ⟨S600x8x64x16, .f32⟩
  | 65 => ⟨S_, .i32⟩
  | 66 => ⟨S1800, .i32⟩
  | 67 => ⟨S1800, .i1⟩
  | 68 => ⟨S_, .i32⟩
  | 69 => ⟨S1800, .i32⟩
  | 70 => ⟨S1800, .i32⟩
  | 71 => ⟨S1800, .i32⟩
  | 72 => ⟨S1800x1, .i32⟩
  | 73 => ⟨S1800x8x64x16, .f32⟩
  | 74 => ⟨S_, .i32⟩
  | 75 => ⟨S1800, .i32⟩
  | 76 => ⟨S1800, .i1⟩
  | 77 => ⟨S_, .i32⟩
  | 78 => ⟨S1800, .i32⟩
  | 79 => ⟨S1800, .i32⟩
  | 80 => ⟨S1800, .i32⟩
  | 81 => ⟨S_, .i32⟩
  | 82 => ⟨S1800, .i32⟩
  | 83 => ⟨S1800, .i1⟩
  | 84 => ⟨S_, .i32⟩
  | 85 => ⟨S1800, .i32⟩
  | 86 => ⟨S1800, .i32⟩
  | 87 => ⟨S1800, .i32⟩
  | 88 => ⟨S1800x1, .i32⟩
  | 89 => ⟨S1800x1, .i32⟩
  | 90 => ⟨S1800x2, .i32⟩
  | 91 => ⟨S16x1800, .f32⟩
  | 92 => ⟨S1800x16, .f32⟩
  | 93 => ⟨S1800x1x1x16, .f32⟩
  | 94 => ⟨S_, .i32⟩
  | 95 => ⟨S1800, .i32⟩
  | 96 => ⟨S1800, .i1⟩
  | 97 => ⟨S_, .i32⟩
  | 98 => ⟨S1800, .i32⟩
  | 99 => ⟨S1800, .i32⟩
  | 100 => ⟨S1800, .i32⟩
  | 101 => ⟨S1800x1, .i32⟩
  | 102 => ⟨S1800x8x64x16, .f32⟩
  | 103 => ⟨S1800x8x64x16, .f32⟩
  | 104 => ⟨S1800x8x64x16, .f32⟩
  | 105 => ⟨S_, .i32⟩
  | 106 => ⟨S5400, .i32⟩
  | 107 => ⟨S5400, .i1⟩
  | 108 => ⟨S_, .i32⟩
  | 109 => ⟨S5400, .i32⟩
  | 110 => ⟨S5400, .i32⟩
  | 111 => ⟨S5400, .i32⟩
  | 112 => ⟨S5400x1, .i32⟩
  | 113 => ⟨S5400x8x64x16, .f32⟩
  | 114 => ⟨S_, .i32⟩
  | 115 => ⟨S5400, .i32⟩
  | 116 => ⟨S5400, .i1⟩
  | 117 => ⟨S_, .i32⟩
  | 118 => ⟨S5400, .i32⟩
  | 119 => ⟨S5400, .i32⟩
  | 120 => ⟨S5400, .i32⟩
  | 121 => ⟨S_, .i32⟩
  | 122 => ⟨S5400, .i32⟩
  | 123 => ⟨S5400, .i1⟩
  | 124 => ⟨S_, .i32⟩
  | 125 => ⟨S5400, .i32⟩
  | 126 => ⟨S5400, .i32⟩
  | 127 => ⟨S5400, .i32⟩
  | _ => ⟨S2000x8x64x16, .f32⟩

abbrev hbmTy0_1 (i : Nat) : BufTy := match i % 128 with
  | 0 => ⟨S5400x1, .i32⟩
  | 1 => ⟨S5400x1, .i32⟩
  | 2 => ⟨S5400x2, .i32⟩
  | 3 => ⟨S16x5400, .f32⟩
  | 4 => ⟨S5400x16, .f32⟩
  | 5 => ⟨S5400x1x1x16, .f32⟩
  | 6 => ⟨S_, .i32⟩
  | 7 => ⟨S5400, .i32⟩
  | 8 => ⟨S5400, .i1⟩
  | 9 => ⟨S_, .i32⟩
  | 10 => ⟨S5400, .i32⟩
  | 11 => ⟨S5400, .i32⟩
  | 12 => ⟨S5400, .i32⟩
  | 13 => ⟨S5400x1, .i32⟩
  | 14 => ⟨S5400x8x64x16, .f32⟩
  | 15 => ⟨S5400x8x64x16, .f32⟩
  | 16 => ⟨S_, .f32⟩
  | 17 => ⟨S2000x8x64x16, .f32⟩
  | 18 => ⟨S5400x1, .i32⟩
  | 19 => ⟨S2000x8x64x16, .f32⟩
  | 20 => ⟨S_, .f32⟩
  | 21 => ⟨S5400, .f32⟩
  | 22 => ⟨S_, .f32⟩
  | 23 => ⟨S2000, .f32⟩
  | 24 => ⟨S5400x1, .i32⟩
  | 25 => ⟨S2000, .f32⟩
  | 26 => ⟨S2000x1x1x1, .f32⟩
  | 27 => ⟨S2000x8x64x16, .f32⟩
  | _ => ⟨S2000x8x64x16, .f32⟩

abbrev hbmTy (i : Nat) : BufTy := match i / 128 with
  | 0 => hbmTy0_0 i
  | 1 => hbmTy0_1 i
  | _ => ⟨S2000x8x64x16, .f32⟩

abbrev bufTy : (tb : Table) → Fin (tcTables nBuf tb) → BufTy
  | .hbm, ⟨i, _⟩ => hbmTy i
  | .local _ .vmem, ⟨0, _⟩ => ⟨S20x8x64x16, .f32⟩
  | .local _ .vmem, ⟨1, _⟩ => ⟨S20x8x64x16, .f32⟩
  | .local _ .vmem, ⟨2, _⟩ => ⟨S16x16, .f32⟩
  | .local _ .vmem, ⟨3, _⟩ => ⟨S1x16, .f32⟩
  | .local _ .vmem, ⟨4, _⟩ => ⟨S20x8x64x16, .f32⟩
  | .local _ .vmem, ⟨5, _⟩ => ⟨S20x8x64x16, .f32⟩
  | .local _ .vmem, ⟨6, _⟩ => ⟨S20x8x64x16, .f32⟩
  | .local _ .vmem, ⟨7, _⟩ => ⟨S20x8x64x16, .f32⟩
  | .local _ .vmem, ⟨8, _⟩ => ⟨S20x8x64x16, .f32⟩
  | .local _ .vmem, ⟨9, _⟩ => ⟨S20x8x64x16, .f32⟩
  | .local _ .vmem, ⟨10, _⟩ => ⟨S20x1x1x16, .f32⟩
  | .local _ .vmem, ⟨11, _⟩ => ⟨S20x1x1x16, .f32⟩
  | .local _ .vmem, ⟨12, _⟩ => ⟨S20x8x64x16, .f32⟩
  | .local _ .vmem, ⟨13, _⟩ => ⟨S20x8x64x16, .f32⟩
  | .local _ .vmem, ⟨14, _⟩ => ⟨S20x8x64x16, .f32⟩
  | .local _ .vmem, ⟨15, _⟩ => ⟨S20x8x64x16, .f32⟩
  | .local _ .vmem, ⟨16, _⟩ => ⟨S16x16, .f32⟩
  | .local _ .vmem, ⟨17, _⟩ => ⟨S1x16, .f32⟩
  | .local _ .vmem, ⟨18, _⟩ => ⟨S20x8x64x16, .f32⟩
  | .local _ .vmem, ⟨19, _⟩ => ⟨S20x8x64x16, .f32⟩
  | .local _ .vmem, ⟨20, _⟩ => ⟨S20x8x64x16, .f32⟩
  | .local _ .vmem, ⟨21, _⟩ => ⟨S20x8x64x16, .f32⟩
  | .local _ .vmem, ⟨22, _⟩ => ⟨S20x8x64x16, .f32⟩
  | .local _ .vmem, ⟨23, _⟩ => ⟨S20x8x64x16, .f32⟩
  | .local _ .vmem, ⟨24, _⟩ => ⟨S20x1x1x16, .f32⟩
  | .local _ .vmem, ⟨25, _⟩ => ⟨S20x1x1x16, .f32⟩
  | .local _ .vmem, ⟨26, _⟩ => ⟨S20x8x64x16, .f32⟩
  | .local _ .vmem, ⟨27, _⟩ => ⟨S20x8x64x16, .f32⟩
  | .local _ .vmem, ⟨28, _⟩ => ⟨S20x8x64x16, .f32⟩
  | .local _ .vmem, ⟨29, _⟩ => ⟨S20x8x64x16, .f32⟩
  | .local _ .vmem, ⟨30, _⟩ => ⟨S16x16, .f32⟩
  | .local _ .vmem, ⟨31, _⟩ => ⟨S1x16, .f32⟩
  | .local _ .vmem, ⟨32, _⟩ => ⟨S20x8x64x16, .f32⟩
  | .local _ .vmem, ⟨33, _⟩ => ⟨S20x8x64x16, .f32⟩
  | .local _ .vmem, ⟨34, _⟩ => ⟨S20x8x64x16, .f32⟩
  | .local _ .vmem, ⟨35, _⟩ => ⟨S20x8x64x16, .f32⟩
  | .local _ .vmem, ⟨36, _⟩ => ⟨S20x8x64x16, .f32⟩
  | .local _ .vmem, ⟨37, _⟩ => ⟨S20x8x64x16, .f32⟩
  | .local _ .vmem, ⟨38, _⟩ => ⟨S20x1x1x16, .f32⟩
  | .local _ .vmem, ⟨39, _⟩ => ⟨S20x1x1x16, .f32⟩
  | .local _ .vmem, ⟨40, _⟩ => ⟨S20x8x64x16, .f32⟩
  | .local _ .vmem, ⟨41, _⟩ => ⟨S20x8x64x16, .f32⟩
  | .local _ .vmem, ⟨42, _⟩ => ⟨S20x8x64x16, .f32⟩
  | .local _ .vmem, ⟨43, _⟩ => ⟨S20x8x64x16, .f32⟩
  | .local _ .vmem, ⟨44, _⟩ => ⟨S20x1x1x1, .f32⟩
  | .local _ .vmem, ⟨45, _⟩ => ⟨S20x1x1x1, .f32⟩
  | .local _ .vmem, ⟨46, _⟩ => ⟨S20x8x64x16, .f32⟩
  | .local _ .vmem, ⟨47, _⟩ => ⟨S20x8x64x16, .f32⟩
  | .local _ .vmem, ⟨48, _⟩ => ⟨S20x8x64x16, .f32⟩
  | .local _ .vmem, ⟨49, _⟩ => ⟨S20x8x64x16, .f32⟩
  | _, _ => ⟨S2000x8x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_19 : Ref sig .tc := ⟨.hbm, 114, rfl⟩
abbrev main_v80 : Ref sig .tc := ⟨.hbm, 115, rfl⟩
abbrev main_v81 : Ref sig .tc := ⟨.hbm, 116, rfl⟩
abbrev main_c_20 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_21 : Ref sig .tc := ⟨.hbm, 121, rfl⟩
abbrev main_v85 : Ref sig .tc := ⟨.hbm, 122, rfl⟩
abbrev main_v86 : Ref sig .tc := ⟨.hbm, 123, rfl⟩
abbrev main_c_22 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_23 : Ref sig .tc := ⟨.hbm, 134, rfl⟩
abbrev main_v96 : Ref sig .tc := ⟨.hbm, 135, rfl⟩
abbrev main_v97 : Ref sig .tc := ⟨.hbm, 136, rfl⟩
abbrev main_c_24 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_25 : Ref sig .tc := ⟨.hbm, 148, rfl⟩
abbrev main_v107 : Ref sig .tc := ⟨.hbm, 149, rfl⟩
abbrev main_cst_26 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem3_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S20x8x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20x8x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S20x8x64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20x8x64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20x1x1x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S20x8x64x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S20x8x64x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20x8x64x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![90], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S20x8x64x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20x8x64x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S20x1x1x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S20x8x64x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![90], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S20x8x64x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S20x8x64x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![270], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_2 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_3 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage5_0 : Fin 2 → Memref sig .tc .vmem S20x8x64x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S20x8x64x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S20x1x1x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S20x8x64x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![100], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_2 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_3 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage6_0 : Fin 2 → Memref sig .tc .vmem S20x8x64x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S20x1x1x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S20x8x64x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S20x8x64x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  shapeCasts_S16_S1x16 : S16.ShapeCasts S1x16
  bcast_S_S200 : S_.BroadcastsInDim S200 (![] : Fin 0 → Fin S200.rank)
  bcast_S200_S200x1_0 : S200.BroadcastsInDim S200x1 (![0] : Fin 1 → Fin S200x1.rank)
  inb_S20x8x64x16_S20x8x64x16_0_0_0_0 : ∀ a, (![0, 0, 0, 0] : Fin 4 → Nat) a + S20x8x64x16.size a ≤ S20x8x64x16.size a
  h_S20x8x64x16 : 0 < S20x8x64x16.numel
  shapeCasts_S20x8x64x16_S20x8x64x16 : S20x8x64x16.ShapeCasts S20x8x64x16
  shapeCasts_S20x8x64x16_S10240x16 : S20x8x64x16.ShapeCasts S10240x16
  inb_S16x16_S16x16_0_0 : ∀ a, (![0, 0] : Fin 2 → Nat) a + S16x16.size a ≤ S16x16.size a
  h_S16x16 : 0 < S16x16.numel
  bitsLt_bf16_f32 : FTy.bits .bf16 < FTy.bits .f32
  transposes_S16x16_p1_0_S16x16 : S16x16.Transposes [1, 0] S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10240x16 : S1x16.Broadcasts S10240x16
  shapeCasts_S10240x16_S20x8x64x16 : S10240x16.ShapeCasts S20x8x64x16
  bcast_S_S600 : S_.BroadcastsInDim S600 (![] : Fin 0 → Fin S600.rank)
  bcast_S600_S600x1_0 : S600.BroadcastsInDim S600x1 (![0] : Fin 1 → Fin S600x1.rank)
  concatenates_S600x1_S600x1_S600x2_d1 : Shape.Concatenates [S600x1, S600x1] S600x2 1
  transposes_S16x600_S600x16_1_0 : S16x600.Transposes [1, 0] S600x16
  bcast_S600x16_S600x1x1x16_0_3 : S600x16.BroadcastsInDim S600x1x1x16 (![0, 3] : Fin 2 → Fin S600x1x1x16.rank)
  inb_S20x1x1x16_S20x1x1x16_0_0_0_0 : ∀ a, (![0, 0, 0, 0] : Fin 4 → Nat) a + S20x1x1x16.size a ≤ S20x1x1x16.size a
  h_S20x1x1x16 : 0 < S20x1x1x16.numel
  shapeCasts_S20x1x1x16_S20x1x1x16 : S20x1x1x16.ShapeCasts S20x1x1x16
  broadcasts_S20x1x1x16_S20x8x64x16 : S20x1x1x16.Broadcasts S20x8x64x16
  bcast_S_S1800 : S_.BroadcastsInDim S1800 (![] : Fin 0 → Fin S1800.rank)
  bcast_S1800_S1800x1_0 : S1800.BroadcastsInDim S1800x1 (![0] : Fin 1 → Fin S1800x1.rank)
  concatenates_S1800x1_S1800x1_S1800x2_d1 : Shape.Concatenates [S1800x1, S1800x1] S1800x2 1
  transposes_S16x1800_S1800x16_1_0 : S16x1800.Transposes [1, 0] S1800x16
  bcast_S1800x16_S1800x1x1x16_0_3 : S1800x16.BroadcastsInDim S1800x1x1x16 (![0, 3] : Fin 2 → Fin S1800x1x1x16.rank)
  bcast_S_S5400 : S_.BroadcastsInDim S5400 (![] : Fin 0 → Fin S5400.rank)
  bcast_S5400_S5400x1_0 : S5400.BroadcastsInDim S5400x1 (![0] : Fin 1 → Fin S5400x1.rank)
  concatenates_S5400x1_S5400x1_S5400x2_d1 : Shape.Concatenates [S5400x1, S5400x1] S5400x2 1
  transposes_S16x5400_S5400x16_1_0 : S16x5400.Transposes [1, 0] S5400x16
  bcast_S5400x16_S5400x1x1x16_0_3 : S5400x16.BroadcastsInDim S5400x1x1x16 (![0, 3] : Fin 2 → Fin S5400x1x1x16.rank)
  bcast_S_S2000x8x64x16 : S_.BroadcastsInDim S2000x8x64x16 (![] : Fin 0 → Fin S2000x8x64x16.rank)
  bcast_S_S2000 : S_.BroadcastsInDim S2000 (![] : Fin 0 → Fin S2000.rank)
  shapeCasts_S2000_S2000x1x1x1 : S2000.ShapeCasts S2000x1x1x1
  inb_S20x1x1x1_S20x1x1x1_0_0_0_0 : ∀ a, (![0, 0, 0, 0] : Fin 4 → Nat) a + S20x1x1x1.size a ≤ S20x1x1x1.size a
  h_S20x1x1x1 : 0 < S20x1x1x1.numel
  shapeCasts_S20x1x1x1_S20x1x1x1 : S20x1x1x1.ShapeCasts S20x1x1x1
  broadcasts_S20x1x1x1_S20x8x64x16 : S20x1x1x1.Broadcasts S20x8x64x16
  gather_S2000x8x64x16_S200x1_S200x8x64x16_123_0_n_n_0_1_186416_wf : GatherDims.WF S2000x8x64x16 S200x1 S200x8x64x16 [1, 2, 3] [0] [] [0] [] 1 ![1, 8, 64, 16]
  dot_S10240x16_S16x16_S10240x16_1_0_0_1_n_n_wf : DotDims.WF S10240x16 S16x16 S10240x16 [1] [0] [0] [1] [] []
  gather_S200x8x64x16_S600x1_S600x8x64x16_123_0_n_n_0_1_186416_wf : GatherDims.WF S200x8x64x16 S600x1 S600x8x64x16 [1, 2, 3] [0] [] [0] [] 1 ![1, 8, 64, 16]
  gather_S16x2000x2000_S600x2_S16x600_0_12_n_n_12_1_1611_wf : GatherDims.WF S16x2000x2000 S600x2 S16x600 [0] [1, 2] [] [1, 2] [] 1 ![16, 1, 1]
  gather_S2000x8x64x16_S600x1_S600x8x64x16_123_0_n_n_0_1_186416_wf : GatherDims.WF S2000x8x64x16 S600x1 S600x8x64x16 [1, 2, 3] [0] [] [0] [] 1 ![1, 8, 64, 16]
  gather_S600x8x64x16_S1800x1_S1800x8x64x16_123_0_n_n_0_1_186416_wf : GatherDims.WF S600x8x64x16 S1800x1 S1800x8x64x16 [1, 2, 3] [0] [] [0] [] 1 ![1, 8, 64, 16]
  gather_S16x2000x2000_S1800x2_S16x1800_0_12_n_n_12_1_1611_wf : GatherDims.WF S16x2000x2000 S1800x2 S16x1800 [0] [1, 2] [] [1, 2] [] 1 ![16, 1, 1]
  gather_S2000x8x64x16_S1800x1_S1800x8x64x16_123_0_n_n_0_1_186416_wf : GatherDims.WF S2000x8x64x16 S1800x1 S1800x8x64x16 [1, 2, 3] [0] [] [0] [] 1 ![1, 8, 64, 16]
  gather_S1800x8x64x16_S5400x1_S5400x8x64x16_123_0_n_n_0_1_186416_wf : GatherDims.WF S1800x8x64x16 S5400x1 S5400x8x64x16 [1, 2, 3] [0] [] [0] [] 1 ![1, 8, 64, 16]
  gather_S16x2000x2000_S5400x2_S16x5400_0_12_n_n_12_1_1611_wf : GatherDims.WF S16x2000x2000 S5400x2 S16x5400 [0] [1, 2] [] [1, 2] [] 1 ![16, 1, 1]
  gather_S2000x8x64x16_S5400x1_S5400x8x64x16_123_0_n_n_0_1_186416_wf : GatherDims.WF S2000x8x64x16 S5400x1 S5400x8x64x16 [1, 2, 3] [0] [] [0] [] 1 ![1, 8, 64, 16]
  scatter_S2000x8x64x16_S5400x1_S5400x8x64x16_123_0_0_1_wf : ScatterDims.WF S2000x8x64x16 S5400x1 S5400x8x64x16 [1, 2, 3] [0] [0] 1
  scatter_S2000_S5400x1_S5400_n_0_0_1_wf : ScatterDims.WF S2000 S5400x1 S5400 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20x8x64x16.size a ≤ S200x8x64x16.size a
  hwx0_0 : ∀ i : grid0.Coords, EltTy.bits .f32 = 32 ∨ (Rect.block (s := S200x8x64x16) S20x8x64x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20x8x64x16.size a ≤ S200x8x64x16.size a
  hwx0_3 : ∀ i : grid0.Coords, EltTy.bits .f32 = 32 ∨ (Rect.block (s := S200x8x64x16) S20x8x64x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20x8x64x16.size a ≤ S600x8x64x16.size a
  hwx1_0 : ∀ i : grid1.Coords, EltTy.bits .f32 = 32 ∨ (Rect.block (s := S600x8x64x16) S20x8x64x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20x8x64x16.size a ≤ S600x8x64x16.size a
  hwx1_1 : ∀ i : grid1.Coords, EltTy.bits .f32 = 32 ∨ (Rect.block (s := S600x8x64x16) S20x8x64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20x1x1x16.size a ≤ S600x1x1x16.size a
  hwx1_2 : ∀ i : grid1.Coords, EltTy.bits .f32 = 32 ∨ (Rect.block (s := S600x1x1x16) S20x1x1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20x8x64x16.size a ≤ S600x8x64x16.size a
  hwx1_3 : ∀ i : grid1.Coords, EltTy.bits .f32 = 32 ∨ (Rect.block (s := S600x8x64x16) S20x8x64x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20x8x64x16.size a ≤ S600x8x64x16.size a
  hwx2_0 : ∀ i : grid2.Coords, EltTy.bits .f32 = 32 ∨ (Rect.block (s := S600x8x64x16) S20x8x64x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20x8x64x16.size a ≤ S600x8x64x16.size a
  hwx2_3 : ∀ i : grid2.Coords, EltTy.bits .f32 = 32 ∨ (Rect.block (s := S600x8x64x16) S20x8x64x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20x8x64x16.size a ≤ S1800x8x64x16.size a
  hwx3_0 : ∀ i : grid3.Coords, EltTy.bits .f32 = 32 ∨ (Rect.block (s := S1800x8x64x16) S20x8x64x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20x8x64x16.size a ≤ S1800x8x64x16.size a
  hwx3_1 : ∀ i : grid3.Coords, EltTy.bits .f32 = 32 ∨ (Rect.block (s := S1800x8x64x16) S20x8x64x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20x1x1x16.size a ≤ S1800x1x1x16.size a
  hwx3_2 : ∀ i : grid3.Coords, EltTy.bits .f32 = 32 ∨ (Rect.block (s := S1800x1x1x16) S20x1x1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S20x8x64x16.size a ≤ S1800x8x64x16.size a
  hwx3_3 : ∀ i : grid3.Coords, EltTy.bits .f32 = 32 ∨ (Rect.block (s := S1800x8x64x16) S20x8x64x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20x8x64x16.size a ≤ S1800x8x64x16.size a
  hwx4_0 : ∀ i : grid4.Coords, EltTy.bits .f32 = 32 ∨ (Rect.block (s := S1800x8x64x16) S20x8x64x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x16.size a ≤ S16x16.size a
  hwx4_1 : ∀ i : grid4.Coords, EltTy.bits .f32 = 32 ∨ (Rect.block (s := S16x16) S16x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S20x8x64x16.size a ≤ S1800x8x64x16.size a
  hwx4_3 : ∀ i : grid4.Coords, EltTy.bits .f32 = 32 ∨ (Rect.block (s := S1800x8x64x16) S20x8x64x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20x8x64x16.size a ≤ S5400x8x64x16.size a
  hwx5_0 : ∀ i : grid5.Coords, EltTy.bits .f32 = 32 ∨ (Rect.block (s := S5400x8x64x16) S20x8x64x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S20x8x64x16.size a ≤ S5400x8x64x16.size a
  hwx5_1 : ∀ i : grid5.Coords, EltTy.bits .f32 = 32 ∨ (Rect.block (s := S5400x8x64x16) S20x8x64x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20x1x1x16.size a ≤ S5400x1x1x16.size a
  hwx5_2 : ∀ i : grid5.Coords, EltTy.bits .f32 = 32 ∨ (Rect.block (s := S5400x1x1x16) S20x1x1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S20x8x64x16.size a ≤ S5400x8x64x16.size a
  hwx5_3 : ∀ i : grid5.Coords, EltTy.bits .f32 = 32 ∨ (Rect.block (s := S5400x8x64x16) S20x8x64x16.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20x8x64x16.size a ≤ S2000x8x64x16.size a
  hwx6_0 : ∀ i : grid6.Coords, EltTy.bits .f32 = 32 ∨ (Rect.block (s := S2000x8x64x16) S20x8x64x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S20x1x1x1.size a ≤ S2000x1x1x1.size a
  hwx6_1 : ∀ i : grid6.Coords, EltTy.bits .f32 = 32 ∨ (Rect.block (s := S2000x1x1x1) S20x1x1x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S20x8x64x16.size a ≤ S2000x8x64x16.size a
  hwx6_2 : ∀ i : grid6.Coords, EltTy.bits .f32 = 32 ∨ (Rect.block (s := S2000x8x64x16) S20x8x64x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S20x8x64x16.size a ≤ S2000x8x64x16.size a
  hwx6_3 : ∀ i : grid6.Coords, EltTy.bits .f32 = 32 ∨ (Rect.block (s := S2000x8x64x16) S20x8x64x16.size (cc6_transform_3 i) (hinb6_3 i)).WholeWords (EltTy.packing .f32)

variable [Facts₀]

def gather_S2000x8x64x16_S200x1_S200x8x64x16_123_0_n_n_0_1_186416 : GatherDims S2000x8x64x16 S200x1 S200x8x64x16 where
  offsetDims := [1, 2, 3]
  collapsedSliceDims := [0]
  operandBatchingDims := []
  startIndicesBatchingDims := []
  startIndexMap := [0]
  indexVectorDim := 1
  sliceSizes := ![1, 8, 64, 16]
  wf := gather_S2000x8x64x16_S200x1_S200x8x64x16_123_0_n_n_0_1_186416_wf
def dot_S10240x16_S16x16_S10240x16_1_0_0_1_n_n : DotDims S10240x16 S16x16 S10240x16 where
  lhsContracting := [1]
  rhsContracting := [0]
  lhsNonContracting := [0]
  rhsNonContracting := [1]
  lhsBatch := []
  rhsBatch := []
  wf := dot_S10240x16_S16x16_S10240x16_1_0_0_1_n_n_wf
def gather_S200x8x64x16_S600x1_S600x8x64x16_123_0_n_n_0_1_186416 : GatherDims S200x8x64x16 S600x1 S600x8x64x16 where
  offsetDims := [1, 2, 3]
  collapsedSliceDims := [0]
  operandBatchingDims := []
  startIndicesBatchingDims := []
  startIndexMap := [0]
  indexVectorDim := 1
  sliceSizes := ![1, 8, 64, 16]
  wf := gather_S200x8x64x16_S600x1_S600x8x64x16_123_0_n_n_0_1_186416_wf
def gather_S16x2000x2000_S600x2_S16x600_0_12_n_n_12_1_1611 : GatherDims S16x2000x2000 S600x2 S16x600 where
  offsetDims := [0]
  collapsedSliceDims := [1, 2]
  operandBatchingDims := []
  startIndicesBatchingDims := []
  startIndexMap := [1, 2]
  indexVectorDim := 1
  sliceSizes := ![16, 1, 1]
  wf := gather_S16x2000x2000_S600x2_S16x600_0_12_n_n_12_1_1611_wf
def gather_S2000x8x64x16_S600x1_S600x8x64x16_123_0_n_n_0_1_186416 : GatherDims S2000x8x64x16 S600x1 S600x8x64x16 where
  offsetDims := [1, 2, 3]
  collapsedSliceDims := [0]
  operandBatchingDims := []
  startIndicesBatchingDims := []
  startIndexMap := [0]
  indexVectorDim := 1
  sliceSizes := ![1, 8, 64, 16]
  wf := gather_S2000x8x64x16_S600x1_S600x8x64x16_123_0_n_n_0_1_186416_wf
def gather_S600x8x64x16_S1800x1_S1800x8x64x16_123_0_n_n_0_1_186416 : GatherDims S600x8x64x16 S1800x1 S1800x8x64x16 where
  offsetDims := [1, 2, 3]
  collapsedSliceDims := [0]
  operandBatchingDims := []
  startIndicesBatchingDims := []
  startIndexMap := [0]
  indexVectorDim := 1
  sliceSizes := ![1, 8, 64, 16]
  wf := gather_S600x8x64x16_S1800x1_S1800x8x64x16_123_0_n_n_0_1_186416_wf
def gather_S16x2000x2000_S1800x2_S16x1800_0_12_n_n_12_1_1611 : GatherDims S16x2000x2000 S1800x2 S16x1800 where
  offsetDims := [0]
  collapsedSliceDims := [1, 2]
  operandBatchingDims := []
  startIndicesBatchingDims := []
  startIndexMap := [1, 2]
  indexVectorDim := 1
  sliceSizes := ![16, 1, 1]
  wf := gather_S16x2000x2000_S1800x2_S16x1800_0_12_n_n_12_1_1611_wf
def gather_S2000x8x64x16_S1800x1_S1800x8x64x16_123_0_n_n_0_1_186416 : GatherDims S2000x8x64x16 S1800x1 S1800x8x64x16 where
  offsetDims := [1, 2, 3]
  collapsedSliceDims := [0]
  operandBatchingDims := []
  startIndicesBatchingDims := []
  startIndexMap := [0]
  indexVectorDim := 1
  sliceSizes := ![1, 8, 64, 16]
  wf := gather_S2000x8x64x16_S1800x1_S1800x8x64x16_123_0_n_n_0_1_186416_wf
def gather_S1800x8x64x16_S5400x1_S5400x8x64x16_123_0_n_n_0_1_186416 : GatherDims S1800x8x64x16 S5400x1 S5400x8x64x16 where
  offsetDims := [1, 2, 3]
  collapsedSliceDims := [0]
  operandBatchingDims := []
  startIndicesBatchingDims := []
  startIndexMap := [0]
  indexVectorDim := 1
  sliceSizes := ![1, 8, 64, 16]
  wf := gather_S1800x8x64x16_S5400x1_S5400x8x64x16_123_0_n_n_0_1_186416_wf
def gather_S16x2000x2000_S5400x2_S16x5400_0_12_n_n_12_1_1611 : GatherDims S16x2000x2000 S5400x2 S16x5400 where
  offsetDims := [0]
  collapsedSliceDims := [1, 2]
  operandBatchingDims := []
  startIndicesBatchingDims := []
  startIndexMap := [1, 2]
  indexVectorDim := 1
  sliceSizes := ![16, 1, 1]
  wf := gather_S16x2000x2000_S5400x2_S16x5400_0_12_n_n_12_1_1611_wf
def gather_S2000x8x64x16_S5400x1_S5400x8x64x16_123_0_n_n_0_1_186416 : GatherDims S2000x8x64x16 S5400x1 S5400x8x64x16 where
  offsetDims := [1, 2, 3]
  collapsedSliceDims := [0]
  operandBatchingDims := []
  startIndicesBatchingDims := []
  startIndexMap := [0]
  indexVectorDim := 1
  sliceSizes := ![1, 8, 64, 16]
  wf := gather_S2000x8x64x16_S5400x1_S5400x8x64x16_123_0_n_n_0_1_186416_wf
def scatter_S2000x8x64x16_S5400x1_S5400x8x64x16_123_0_0_1 : ScatterDims S2000x8x64x16 S5400x1 S5400x8x64x16 where
  updateWindowDims := [1, 2, 3]
  insertedWindowDims := [0]
  scatterDimsToOperandDims := [0]
  indexVectorDim := 1
  wf := scatter_S2000x8x64x16_S5400x1_S5400x8x64x16_123_0_0_1_wf
def scatter_S2000_S5400x1_S5400_n_0_0_1 : ScatterDims S2000 S5400x1 S5400 where
  updateWindowDims := []
  insertedWindowDims := [0]
  scatterDimsToOperandDims := [0]
  indexVectorDim := 1
  wf := scatter_S2000_S5400x1_S5400_n_0_0_1_wf

abbrev win0_0 : Pipeline.Window sig grid0 :=
  Pipeline.Window.ofSpec (Memref.whole main_v7) S20x8x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S20x8x64x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S20x8x64x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S20x8x64x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S20x1x1x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S20x8x64x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S20x8x64x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S20x8x64x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S20x8x64x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S20x8x64x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S20x1x1x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v71) S20x8x64x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S20x8x64x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S16x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v0) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S20x8x64x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v79) S20x8x64x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S20x8x64x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v95) S20x1x1x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v103) S20x8x64x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v106) S20x8x64x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S20x1x1x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg0) S20x8x64x16.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v112) S20x8x64x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S2000x8x64x16 : Shape := ⟨4, ![2000, 8, 64, 16]⟩
abbrev S16x2000x2000 : Shape := ⟨3, ![16, 2000, 2000]⟩
abbrev S16x16 : Shape := ⟨2, ![16, 16]⟩
abbrev S16 : Shape := ⟨1, ![16]⟩
abbrev S200 : Shape := ⟨1, ![200]⟩
abbrev S600 : Shape := ⟨1, ![600]⟩
abbrev S1800 : Shape := ⟨1, ![1800]⟩
abbrev S5400 : Shape := ⟨1, ![5400]⟩
abbrev S_ : Shape := ⟨0, ![]⟩
abbrev S200x1 : Shape := ⟨2, ![200, 1]⟩
abbrev S200x8x64x16 : Shape := ⟨4, ![200, 8, 64, 16]⟩
abbrev S600x1 : Shape := ⟨2, ![600, 1]⟩
abbrev S600x2 : Shape := ⟨2, ![600, 2]⟩
abbrev S16x600 : Shape := ⟨2, ![16, 600]⟩
abbrev S600x16 : Shape := ⟨2, ![600, 16]⟩
abbrev S1x1x1x16 : Shape := ⟨4, ![1, 1, 1, 16]⟩
abbrev S600x8x64x16 : Shape := ⟨4, ![600, 8, 64, 16]⟩
abbrev S600x1x1x16 : Shape := ⟨4, ![600, 1, 1, 16]⟩
abbrev S1800x1 : Shape := ⟨2, ![1800, 1]⟩
abbrev S1800x2 : Shape := ⟨2, ![1800, 2]⟩
abbrev S16x1800 : Shape := ⟨2, ![16, 1800]⟩
abbrev S1800x16 : Shape := ⟨2, ![1800, 16]⟩
abbrev S1800x8x64x16 : Shape := ⟨4, ![1800, 8, 64, 16]⟩
abbrev S1800x1x1x16 : Shape := ⟨4, ![1800, 1, 1, 16]⟩
abbrev S5400x1 : Shape := ⟨2, ![5400, 1]⟩
abbrev S5400x2 : Shape := ⟨2, ![5400, 2]⟩
abbrev S16x5400 : Shape := ⟨2, ![16, 5400]⟩
abbrev S5400x16 : Shape := ⟨2, ![5400, 16]⟩
abbrev S5400x8x64x16 : Shape := ⟨4, ![5400, 8, 64, 16]⟩
abbrev S5400x1x1x16 : Shape := ⟨4, ![5400, 1, 1, 16]⟩
abbrev S2000 : Shape := ⟨1, ![2000]⟩
abbrev S2000x1x1x1 : Shape := ⟨4, ![2000, 1, 1, 1]⟩

abbrev nBuf : Space → Nat
  | .hbm => 179
  | .vmem => 0
  | .smem => 0
  | _ => 0

abbrev hbmTy0_0 (i : Nat) : BufTy := match i % 128 with
  | 0 => ⟨S2000x8x64x16, .f32⟩
  | 1 => ⟨S16x2000x2000, .f32⟩
  | 2 => ⟨S16x16, .f32⟩
  | 3 => ⟨S16, .f32⟩
  | 4 => ⟨S200, .i32⟩
  | 5 => ⟨S600, .i32⟩
  | 6 => ⟨S600, .i32⟩
  | 7 => ⟨S600, .i32⟩
  | 8 => ⟨S1800, .i32⟩
  | 9 => ⟨S1800, .i32⟩
  | 10 => ⟨S1800, .i32⟩
  | 11 => ⟨S5400, .i32⟩
  | 12 => ⟨S5400, .i32⟩
  | 13 => ⟨S5400, .i32⟩
  | 14 => ⟨S_, .i32⟩
  | 15 => ⟨S200, .i32⟩
  | 16 => ⟨S200, .i1⟩
  | 17 => ⟨S_, .i32⟩
  | 18 => ⟨S200, .i32⟩
  | 19 => ⟨S200, .i32⟩
  | 20 => ⟨S200, .i32⟩
  | 21 => ⟨S200x1, .i32⟩
  | 22 => ⟨S200x8x64x16, .f32⟩
  | 23 => ⟨S_, .i32⟩
  | 24 => ⟨S600, .i32⟩
  | 25 => ⟨S600, .i1⟩
  | 26 => ⟨S_, .i32⟩
  | 27 => ⟨S600, .i32⟩
  | 28 => ⟨S600, .i32⟩
  | 29 => ⟨S600, .i32⟩
  | 30 => ⟨S_, .i32⟩
  | 31 => ⟨S600, .i32⟩
  | 32 => ⟨S600, .i1⟩
  | 33 => ⟨S_, .i32⟩
  | 34 => ⟨S600, .i32⟩
  | 35 => ⟨S600, .i32⟩
  | 36 => ⟨S600, .i32⟩
  | 37 => ⟨S600x1, .i32⟩
  | 38 => ⟨S600x1, .i32⟩
  | 39 => ⟨S600x2, .i32⟩
  | 40 => ⟨S16x600, .f32⟩
  | 41 => ⟨S600x16, .f32⟩
  | 42 => ⟨S200x8x64x16, .f32⟩
  | 43 => ⟨S1x1x1x16, .f32⟩
  | 44 => ⟨S200x8x64x16, .f32⟩
  | 45 => ⟨S200x8x64x16, .f32⟩
  | 46 => ⟨S_, .i32⟩
  | 47 => ⟨S600, .i32⟩
  | 48 => ⟨S600, .i1⟩
  | 49 => ⟨S_, .i32⟩
  | 50 => ⟨S600, .i32⟩
  | 51 => ⟨S600, .i32⟩
  | 52 => ⟨S600, .i32⟩
  | 53 => ⟨S600x1, .i32⟩
  | 54 => ⟨S600x8x64x16, .f32⟩
  | 55 => ⟨S600x1x1x16, .f32⟩
  | 56 => ⟨S600x8x64x16, .f32⟩
  | 57 => ⟨S600x8x64x16, .f32⟩
  | 58 => ⟨S_, .i32⟩
  | 59 => ⟨S600, .i32⟩
  | 60 => ⟨S600, .i1⟩
  | 61 => ⟨S_, .i32⟩
  | 62 => ⟨S600, .i32⟩
  | 63 => ⟨S600, .i32⟩
  | 64 => ⟨S600, .i32⟩
  | 65 => ⟨S600x1, .i32⟩
  | 66 => ⟨S600x8x64x16, .f32⟩
  | 67 => ⟨S600x8x64x16, .f32⟩
  | 68 => ⟨S_, .i32⟩
  | 69 => ⟨S1800, .i32⟩
  | 70 => ⟨S1800, .i1⟩
  | 71 => ⟨S_, .i32⟩
  | 72 => ⟨S1800, .i32⟩
  | 73 => ⟨S1800, .i32⟩
  | 74 => ⟨S1800, .i32⟩
  | 75 => ⟨S_, .i32⟩
  | 76 => ⟨S1800, .i32⟩
  | 77 => ⟨S1800, .i1⟩
  | 78 => ⟨S_, .i32⟩
  | 79 => ⟨S1800, .i32⟩
  | 80 => ⟨S1800, .i32⟩
  | 81 => ⟨S1800, .i32⟩
  | 82 => ⟨S1800x1, .i32⟩
  | 83 => ⟨S1800x1, .i32⟩
  | 84 => ⟨S1800x2, .i32⟩
  | 85 => ⟨S16x1800, .f32⟩
  | 86 => ⟨S1800x16, .f32⟩
  | 87 => ⟨S600x8x64x16, .f32⟩
  | 88 => ⟨S1x1x1x16, .f32⟩
  | 89 => ⟨S600x8x64x16, .f32⟩
  | 90 => ⟨S600x8x64x16, .f32⟩
  | 91 => ⟨S_, .i32⟩
  | 92 => ⟨S1800, .i32⟩
  | 93 => ⟨S1800, .i1⟩
  | 94 => ⟨S_, .i32⟩
  | 95 => ⟨S1800, .i32⟩
  | 96 => ⟨S1800, .i32⟩
  | 97 => ⟨S1800, .i32⟩
  | 98 => ⟨S1800x1, .i32⟩
  | 99 => ⟨S1800x8x64x16, .f32⟩
  | 100 => ⟨S1800x1x1x16, .f32⟩
  | 101 => ⟨S1800x8x64x16, .f32⟩
  | 102 => ⟨S1800x8x64x16, .f32⟩
  | 103 => ⟨S_, .i32⟩
  | 104 => ⟨S1800, .i32⟩
  | 105 => ⟨S1800, .i1⟩
  | 106 => ⟨S_, .i32⟩
  | 107 => ⟨S1800, .i32⟩
  | 108 => ⟨S1800, .i32⟩
  | 109 => ⟨S1800, .i32⟩
  | 110 => ⟨S1800x1, .i32⟩
  | 111 => ⟨S1800x8x64x16, .f32⟩
  | 112 => ⟨S1800x8x64x16, .f32⟩
  | 113 => ⟨S_, .i32⟩
  | 114 => ⟨S5400, .i32⟩
  | 115 => ⟨S5400, .i1⟩
  | 116 => ⟨S_, .i32⟩
  | 117 => ⟨S5400, .i32⟩
  | 118 => ⟨S5400, .i32⟩
  | 119 => ⟨S5400, .i32⟩
  | 120 => ⟨S_, .i32⟩
  | 121 => ⟨S5400, .i32⟩
  | 122 => ⟨S5400, .i1⟩
  | 123 => ⟨S_, .i32⟩
  | 124 => ⟨S5400, .i32⟩
  | 125 => ⟨S5400, .i32⟩
  | 126 => ⟨S5400, .i32⟩
  | 127 => ⟨S5400x1, .i32⟩
  | _ => ⟨S2000x8x64x16, .f32⟩

abbrev hbmTy0_1 (i : Nat) : BufTy := match i % 128 with
  | 0 => ⟨S5400x1, .i32⟩
  | 1 => ⟨S5400x2, .i32⟩
  | 2 => ⟨S16x5400, .f32⟩
  | 3 => ⟨S5400x16, .f32⟩
  | 4 => ⟨S1800x8x64x16, .f32⟩
  | 5 => ⟨S1x1x1x16, .f32⟩
  | 6 => ⟨S1800x8x64x16, .f32⟩
  | 7 => ⟨S1800x8x64x16, .f32⟩
  | 8 => ⟨S_, .i32⟩
  | 9 => ⟨S5400, .i32⟩
  | 10 => ⟨S5400, .i1⟩
  | 11 => ⟨S_, .i32⟩
  | 12 => ⟨S5400, .i32⟩
  | 13 => ⟨S5400, .i32⟩
  | 14 => ⟨S5400, .i32⟩
  | 15 => ⟨S5400x1, .i32⟩
  | 16 => ⟨S5400x8x64x16, .f32⟩
  | 17 => ⟨S5400x1x1x16, .f32⟩
  | 18 => ⟨S5400x8x64x16, .f32⟩
  | 19 => ⟨S5400x8x64x16, .f32⟩
  | 20 => ⟨S_, .i32⟩
  | 21 => ⟨S5400, .i32⟩
  | 22 => ⟨S5400, .i1⟩
  | 23 => ⟨S_, .i32⟩
  | 24 => ⟨S5400, .i32⟩
  | 25 => ⟨S5400, .i32⟩
  | 26 => ⟨S5400, .i32⟩
  | 27 => ⟨S5400x1, .i32⟩
  | 28 => ⟨S5400x8x64x16, .f32⟩
  | 29 => ⟨S5400x8x64x16, .f32⟩
  | 30 => ⟨S_, .f32⟩
  | 31 => ⟨S2000x8x64x16, .f32⟩
  | 32 => ⟨S5400x1, .i32⟩
  | 33 => ⟨S2000x8x64x16, .f32⟩
  | 34 => ⟨S_, .f32⟩
  | 35 => ⟨S5400, .f32⟩
  | 36 => ⟨S_, .f32⟩
  | 37 => ⟨S2000, .f32⟩
  | 38 => ⟨S5400x1, .i32⟩
  | 39 => ⟨S2000, .f32⟩
  | 40 => ⟨S2000x1x1x1, .f32⟩
  | 41 => ⟨S_, .f32⟩
  | 42 => ⟨S2000x1x1x1, .f32⟩
  | 43 => ⟨S2000x1x1x1, .i1⟩
  | 44 => ⟨S_, .f32⟩
  | 45 => ⟨S2000x1x1x1, .f32⟩
  | 46 => ⟨S2000x1x1x1, .f32⟩
  | 47 => ⟨S2000x8x64x16, .f32⟩
  | 48 => ⟨S2000x8x64x16, .f32⟩
  | 49 => ⟨S2000x8x64x16, .i1⟩
  | 50 => ⟨S2000x8x64x16, .f32⟩
  | _ => ⟨S2000x8x64x16, .f32⟩

abbrev hbmTy (i : Nat) : BufTy := match i / 128 with
  | 0 => hbmTy0_0 i
  | 1 => hbmTy0_1 i
  | _ => ⟨S2000x8x64x16, .f32⟩

abbrev bufTy : (tb : Table) → Fin (tcTables nBuf tb) → BufTy
  | .hbm, ⟨i, _⟩ => hbmTy i
  | _, _ => ⟨S2000x8x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_3 : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_17 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_c_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_21 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_23 : Ref sig .tc := ⟨.hbm, 148, rfl⟩
abbrev main_v110 : Ref sig .tc := ⟨.hbm, 149, rfl⟩
abbrev main_v111 : Ref sig .tc := ⟨.hbm, 150, rfl⟩
abbrev main_c_24 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_25 : Ref sig .tc := ⟨.hbm, 162, rfl⟩
abbrev main_v121 : Ref sig .tc := ⟨.hbm, 163, rfl⟩
abbrev main_cst_26 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_27 : Ref sig .tc := ⟨.hbm, 169, rfl⟩
abbrev main_v126 : Ref sig .tc := ⟨.hbm, 170, rfl⟩
abbrev main_v127 : Ref sig .tc := ⟨.hbm, 171, rfl⟩
abbrev main_cst_28 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_call0_v0 : Ref sig .tc := ⟨.hbm, 177, rfl⟩
abbrev main_v132 : Ref sig .tc := ⟨.hbm, 178, rfl⟩

abbrev nD : Nat := 1
abbrev τ : Topo := Topo.v7x

variable {F : FTy → Type} [FloatOps F]

class Facts₀ : Prop where
  bcast_S_S200 : S_.BroadcastsInDim S200 (![] : Fin 0 → Fin S200.rank)
  bcast_S200_S200x1_0 : S200.BroadcastsInDim S200x1 (![0] : Fin 1 → Fin S200x1.rank)
  bcast_S_S600 : S_.BroadcastsInDim S600 (![] : Fin 0 → Fin S600.rank)
  bcast_S600_S600x1_0 : S600.BroadcastsInDim S600x1 (![0] : Fin 1 → Fin S600x1.rank)
  concatenates_S600x1_S600x1_S600x2_d1 : Shape.Concatenates [S600x1, S600x1] S600x2 1
  transposes_S16x600_S600x16_1_0 : S16x600.Transposes [1, 0] S600x16
  bcast_S16_S1x1x1x16_3 : S16.BroadcastsInDim S1x1x1x16 (![3] : Fin 1 → Fin S1x1x1x16.rank)
  bcast_S1x1x1x16_S200x8x64x16_0_1_2_3 : S1x1x1x16.BroadcastsInDim S200x8x64x16 (![0, 1, 2, 3] : Fin 4 → Fin S200x8x64x16.rank)
  bcast_S600x16_S600x1x1x16_0_3 : S600x16.BroadcastsInDim S600x1x1x16 (![0, 3] : Fin 2 → Fin S600x1x1x16.rank)
  bcast_S600x1x1x16_S600x8x64x16_0_1_2_3 : S600x1x1x16.BroadcastsInDim S600x8x64x16 (![0, 1, 2, 3] : Fin 4 → Fin S600x8x64x16.rank)
  bcast_S_S1800 : S_.BroadcastsInDim S1800 (![] : Fin 0 → Fin S1800.rank)
  bcast_S1800_S1800x1_0 : S1800.BroadcastsInDim S1800x1 (![0] : Fin 1 → Fin S1800x1.rank)
  concatenates_S1800x1_S1800x1_S1800x2_d1 : Shape.Concatenates [S1800x1, S1800x1] S1800x2 1
  transposes_S16x1800_S1800x16_1_0 : S16x1800.Transposes [1, 0] S1800x16
  bcast_S1x1x1x16_S600x8x64x16_0_1_2_3 : S1x1x1x16.BroadcastsInDim S600x8x64x16 (![0, 1, 2, 3] : Fin 4 → Fin S600x8x64x16.rank)
  bcast_S1800x16_S1800x1x1x16_0_3 : S1800x16.BroadcastsInDim S1800x1x1x16 (![0, 3] : Fin 2 → Fin S1800x1x1x16.rank)
  bcast_S1800x1x1x16_S1800x8x64x16_0_1_2_3 : S1800x1x1x16.BroadcastsInDim S1800x8x64x16 (![0, 1, 2, 3] : Fin 4 → Fin S1800x8x64x16.rank)
  bcast_S_S5400 : S_.BroadcastsInDim S5400 (![] : Fin 0 → Fin S5400.rank)
  bcast_S5400_S5400x1_0 : S5400.BroadcastsInDim S5400x1 (![0] : Fin 1 → Fin S5400x1.rank)
  concatenates_S5400x1_S5400x1_S5400x2_d1 : Shape.Concatenates [S5400x1, S5400x1] S5400x2 1
  transposes_S16x5400_S5400x16_1_0 : S16x5400.Transposes [1, 0] S5400x16
  bcast_S1x1x1x16_S1800x8x64x16_0_1_2_3 : S1x1x1x16.BroadcastsInDim S1800x8x64x16 (![0, 1, 2, 3] : Fin 4 → Fin S1800x8x64x16.rank)
  bcast_S5400x16_S5400x1x1x16_0_3 : S5400x16.BroadcastsInDim S5400x1x1x16 (![0, 3] : Fin 2 → Fin S5400x1x1x16.rank)
  bcast_S5400x1x1x16_S5400x8x64x16_0_1_2_3 : S5400x1x1x16.BroadcastsInDim S5400x8x64x16 (![0, 1, 2, 3] : Fin 4 → Fin S5400x8x64x16.rank)
  bcast_S_S2000x8x64x16 : S_.BroadcastsInDim S2000x8x64x16 (![] : Fin 0 → Fin S2000x8x64x16.rank)
  bcast_S_S2000 : S_.BroadcastsInDim S2000 (![] : Fin 0 → Fin S2000.rank)
  bcast_S2000_S2000x1x1x1_0 : S2000.BroadcastsInDim S2000x1x1x1 (![0] : Fin 1 → Fin S2000x1x1x1.rank)
  bcast_S_S2000x1x1x1 : S_.BroadcastsInDim S2000x1x1x1 (![] : Fin 0 → Fin S2000x1x1x1.rank)
  bcast_S2000x1x1x1_S2000x8x64x16_0_1_2_3 : S2000x1x1x1.BroadcastsInDim S2000x8x64x16 (![0, 1, 2, 3] : Fin 4 → Fin S2000x8x64x16.rank)
  gather_S2000x8x64x16_S200x1_S200x8x64x16_123_0_n_n_0_1_186416_wf : GatherDims.WF S2000x8x64x16 S200x1 S200x8x64x16 [1, 2, 3] [0] [] [0] [] 1 ![1, 8, 64, 16]
  gather_S16x2000x2000_S600x2_S16x600_0_12_n_n_12_1_1611_wf : GatherDims.WF S16x2000x2000 S600x2 S16x600 [0] [1, 2] [] [1, 2] [] 1 ![16, 1, 1]
  dot_S200x8x64x16_S16x16_S200x8x64x16_3_1_012_0_n_n_wf : DotDims.WF S200x8x64x16 S16x16 S200x8x64x16 [3] [1] [0, 1, 2] [0] [] []
  gather_S200x8x64x16_S600x1_S600x8x64x16_123_0_n_n_0_1_186416_wf : GatherDims.WF S200x8x64x16 S600x1 S600x8x64x16 [1, 2, 3] [0] [] [0] [] 1 ![1, 8, 64, 16]
  gather_S2000x8x64x16_S600x1_S600x8x64x16_123_0_n_n_0_1_186416_wf : GatherDims.WF S2000x8x64x16 S600x1 S600x8x64x16 [1, 2, 3] [0] [] [0] [] 1 ![1, 8, 64, 16]
  gather_S16x2000x2000_S1800x2_S16x1800_0_12_n_n_12_1_1611_wf : GatherDims.WF S16x2000x2000 S1800x2 S16x1800 [0] [1, 2] [] [1, 2] [] 1 ![16, 1, 1]
  dot_S600x8x64x16_S16x16_S600x8x64x16_3_1_012_0_n_n_wf : DotDims.WF S600x8x64x16 S16x16 S600x8x64x16 [3] [1] [0, 1, 2] [0] [] []
  gather_S600x8x64x16_S1800x1_S1800x8x64x16_123_0_n_n_0_1_186416_wf : GatherDims.WF S600x8x64x16 S1800x1 S1800x8x64x16 [1, 2, 3] [0] [] [0] [] 1 ![1, 8, 64, 16]
  gather_S2000x8x64x16_S1800x1_S1800x8x64x16_123_0_n_n_0_1_186416_wf : GatherDims.WF S2000x8x64x16 S1800x1 S1800x8x64x16 [1, 2, 3] [0] [] [0] [] 1 ![1, 8, 64, 16]
  gather_S16x2000x2000_S5400x2_S16x5400_0_12_n_n_12_1_1611_wf : GatherDims.WF S16x2000x2000 S5400x2 S16x5400 [0] [1, 2] [] [1, 2] [] 1 ![16, 1, 1]
  dot_S1800x8x64x16_S16x16_S1800x8x64x16_3_1_012_0_n_n_wf : DotDims.WF S1800x8x64x16 S16x16 S1800x8x64x16 [3] [1] [0, 1, 2] [0] [] []
  gather_S1800x8x64x16_S5400x1_S5400x8x64x16_123_0_n_n_0_1_186416_wf : GatherDims.WF S1800x8x64x16 S5400x1 S5400x8x64x16 [1, 2, 3] [0] [] [0] [] 1 ![1, 8, 64, 16]
  gather_S2000x8x64x16_S5400x1_S5400x8x64x16_123_0_n_n_0_1_186416_wf : GatherDims.WF S2000x8x64x16 S5400x1 S5400x8x64x16 [1, 2, 3] [0] [] [0] [] 1 ![1, 8, 64, 16]
  scatter_S2000x8x64x16_S5400x1_S5400x8x64x16_123_0_0_1_wf : ScatterDims.WF S2000x8x64x16 S5400x1 S5400x8x64x16 [1, 2, 3] [0] [0] 1
  scatter_S2000_S5400x1_S5400_n_0_0_1_wf : ScatterDims.WF S2000 S5400x1 S5400 [] [0] [0] 1

variable [Facts₀]

def gather_S2000x8x64x16_S200x1_S200x8x64x16_123_0_n_n_0_1_186416 : GatherDims S2000x8x64x16 S200x1 S200x8x64x16 where
  offsetDims := [1, 2, 3]
  collapsedSliceDims := [0]
  operandBatchingDims := []
  startIndicesBatchingDims := []
  startIndexMap := [0]
  indexVectorDim := 1
  sliceSizes := ![1, 8, 64, 16]
  wf := gather_S2000x8x64x16_S200x1_S200x8x64x16_123_0_n_n_0_1_186416_wf
def gather_S16x2000x2000_S600x2_S16x600_0_12_n_n_12_1_1611 : GatherDims S16x2000x2000 S600x2 S16x600 where
  offsetDims := [0]
  collapsedSliceDims := [1, 2]
  operandBatchingDims := []
  startIndicesBatchingDims := []
  startIndexMap := [1, 2]
  indexVectorDim := 1
  sliceSizes := ![16, 1, 1]
  wf := gather_S16x2000x2000_S600x2_S16x600_0_12_n_n_12_1_1611_wf
def dot_S200x8x64x16_S16x16_S200x8x64x16_3_1_012_0_n_n : DotDims S200x8x64x16 S16x16 S200x8x64x16 where
  lhsContracting := [3]
  rhsContracting := [1]
  lhsNonContracting := [0, 1, 2]
  rhsNonContracting := [0]
  lhsBatch := []
  rhsBatch := []
  wf := dot_S200x8x64x16_S16x16_S200x8x64x16_3_1_012_0_n_n_wf
def gather_S200x8x64x16_S600x1_S600x8x64x16_123_0_n_n_0_1_186416 : GatherDims S200x8x64x16 S600x1 S600x8x64x16 where
  offsetDims := [1, 2, 3]
  collapsedSliceDims := [0]
  operandBatchingDims := []
  startIndicesBatchingDims := []
  startIndexMap := [0]
  indexVectorDim := 1
  sliceSizes := ![1, 8, 64, 16]
  wf := gather_S200x8x64x16_S600x1_S600x8x64x16_123_0_n_n_0_1_186416_wf
def gather_S2000x8x64x16_S600x1_S600x8x64x16_123_0_n_n_0_1_186416 : GatherDims S2000x8x64x16 S600x1 S600x8x64x16 where
  offsetDims := [1, 2, 3]
  collapsedSliceDims := [0]
  operandBatchingDims := []
  startIndicesBatchingDims := []
  startIndexMap := [0]
  indexVectorDim := 1
  sliceSizes := ![1, 8, 64, 16]
  wf := gather_S2000x8x64x16_S600x1_S600x8x64x16_123_0_n_n_0_1_186416_wf
def gather_S16x2000x2000_S1800x2_S16x1800_0_12_n_n_12_1_1611 : GatherDims S16x2000x2000 S1800x2 S16x1800 where
  offsetDims := [0]
  collapsedSliceDims := [1, 2]
  operandBatchingDims := []
  startIndicesBatchingDims := []
  startIndexMap := [1, 2]
  indexVectorDim := 1
  sliceSizes := ![16, 1, 1]
  wf := gather_S16x2000x2000_S1800x2_S16x1800_0_12_n_n_12_1_1611_wf
def dot_S600x8x64x16_S16x16_S600x8x64x16_3_1_012_0_n_n : DotDims S600x8x64x16 S16x16 S600x8x64x16 where
  lhsContracting := [3]
  rhsContracting := [1]
  lhsNonContracting := [0, 1, 2]
  rhsNonContracting := [0]
  lhsBatch := []
  rhsBatch := []
  wf := dot_S600x8x64x16_S16x16_S600x8x64x16_3_1_012_0_n_n_wf
def gather_S600x8x64x16_S1800x1_S1800x8x64x16_123_0_n_n_0_1_186416 : GatherDims S600x8x64x16 S1800x1 S1800x8x64x16 where
  offsetDims := [1, 2, 3]
  collapsedSliceDims := [0]
  operandBatchingDims := []
  startIndicesBatchingDims := []
  startIndexMap := [0]
  indexVectorDim := 1
  sliceSizes := ![1, 8, 64, 16]
  wf := gather_S600x8x64x16_S1800x1_S1800x8x64x16_123_0_n_n_0_1_186416_wf
def gather_S2000x8x64x16_S1800x1_S1800x8x64x16_123_0_n_n_0_1_186416 : GatherDims S2000x8x64x16 S1800x1 S1800x8x64x16 where
  offsetDims := [1, 2, 3]
  collapsedSliceDims := [0]
  operandBatchingDims := []
  startIndicesBatchingDims := []
  startIndexMap := [0]
  indexVectorDim := 1
  sliceSizes := ![1, 8, 64, 16]
  wf := gather_S2000x8x64x16_S1800x1_S1800x8x64x16_123_0_n_n_0_1_186416_wf
def gather_S16x2000x2000_S5400x2_S16x5400_0_12_n_n_12_1_1611 : GatherDims S16x2000x2000 S5400x2 S16x5400 where
  offsetDims := [0]
  collapsedSliceDims := [1, 2]
  operandBatchingDims := []
  startIndicesBatchingDims := []
  startIndexMap := [1, 2]
  indexVectorDim := 1
  sliceSizes := ![16, 1, 1]
  wf := gather_S16x2000x2000_S5400x2_S16x5400_0_12_n_n_12_1_1611_wf
def dot_S1800x8x64x16_S16x16_S1800x8x64x16_3_1_012_0_n_n : DotDims S1800x8x64x16 S16x16 S1800x8x64x16 where
  lhsContracting := [3]
  rhsContracting := [1]
  lhsNonContracting := [0, 1, 2]
  rhsNonContracting := [0]
  lhsBatch := []
  rhsBatch := []
  wf := dot_S1800x8x64x16_S16x16_S1800x8x64x16_3_1_012_0_n_n_wf
def gather_S1800x8x64x16_S5400x1_S5400x8x64x16_123_0_n_n_0_1_186416 : GatherDims S1800x8x64x16 S5400x1 S5400x8x64x16 where
  offsetDims := [1, 2, 3]
  collapsedSliceDims := [0]
  operandBatchingDims := []
  startIndicesBatchingDims := []
  startIndexMap := [0]
  indexVectorDim := 1
  sliceSizes := ![1, 8, 64, 16]
  wf := gather_S1800x8x64x16_S5400x1_S5400x8x64x16_123_0_n_n_0_1_186416_wf
def gather_S2000x8x64x16_S5400x1_S5400x8x64x16_123_0_n_n_0_1_186416 : GatherDims S2000x8x64x16 S5400x1 S5400x8x64x16 where
  offsetDims := [1, 2, 3]
  collapsedSliceDims := [0]
  operandBatchingDims := []
  startIndicesBatchingDims := []
  startIndexMap := [0]
  indexVectorDim := 1
  sliceSizes := ![1, 8, 64, 16]
  wf := gather_S2000x8x64x16_S5400x1_S5400x8x64x16_123_0_n_n_0_1_186416_wf
def scatter_S2000x8x64x16_S5400x1_S5400x8x64x16_123_0_0_1 : ScatterDims S2000x8x64x16 S5400x1 S5400x8x64x16 where
  updateWindowDims := [1, 2, 3]
  insertedWindowDims := [0]
  scatterDimsToOperandDims := [0]
  indexVectorDim := 1
  wf := scatter_S2000x8x64x16_S5400x1_S5400x8x64x16_123_0_0_1_wf
def scatter_S2000_S5400x1_S5400_n_0_0_1 : ScatterDims S2000 S5400x1 S5400 where
  updateWindowDims := []
  insertedWindowDims := [0]
  scatterDimsToOperandDims := [0]
  indexVectorDim := 1
  wf := scatter_S2000_S5400x1_S5400_n_0_0_1_wf

class Facts : Prop extends Facts₀ where

variable [Facts]
-- ==== Proof.KernelRun.lean ====
/-
  The whole program's run with its result named.

  The program is seven pipelined regions among stretches of host operations.  Every weakly fair execution
  terminates without a fault; at the end the result buffer holds what the fold of the buffer contents through the
  twelve segments leaves there (the last region's output array after its write-backs), and every argument array holds
  what it was launched with.
-/
import proofs.«131250_j59665685676269_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's contents, the arguments as launched. -/
theorem run_result : θ_run defs (onTc (τ := τ) (main (F := F))) ⟨m, fun _ => 0, ρ⟩ (fun r => ∀ c : Dev nD,
      r.2.mem ((c.tc : Thread nD τ).loc main_v112) = W12 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v112 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)

end Cert.KernelIdeal.RunValue

end
-- ==== Proof.Levels.lean ====
/-
  The argument arrays, and the reshaped bias row, at the boundaries between the program's segments.

  No host operation and no region writes an argument array: a host stretch leaves every buffer it does not write as it
  was, a region leaves every buffer that is not one of its arrays as it was, and an array a region only reads through an
  input window ends as it was entered.  So at every boundary an argument array holds its launch contents, and the
  bias row reshaped once by the first stretch stays what it was written.
-/
import proofs.«131250_j59665685676269_2_alg».proof.Proof.Gen.KernelIdeal.Frame
import Idealize.ShloMosaic.Lib.StableHlo.Run
import Idealize.ShloMosaic.PureOps.Ideal

set_option maxRecDepth 16384

noncomputable section

namespace Cert.KernelIdeal.Levels

open Idealize.ShloMosaic Idealize.ShloMosaic.TcCoe Idealize.SL.Sem Cert.KernelIdeal Cert.KernelIdeal.Gen
open Idealize.ShloMosaic.Pipeline (Dat)

/-- A buffer no operation of a host stretch writes is unchanged by the stretch. -/
macro "untouched_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## Argument 0 -/
theorem main_arg0_W0 : W0 m ρ c (Proc.devRef .tc main_arg0) = m ((c : Thread nD τ).loc main_arg0) := rfl
theorem main_arg0_W1 : W1 m ρ c (Proc.devRef .tc main_arg0) = m ((c : Thread nD τ).loc main_arg0) :=
  (by untouched_by hostOps0 : W1 m ρ c (Proc.devRef .tc main_arg0) = W0 m ρ c (Proc.devRef .tc main_arg0)).trans (main_arg0_W0 m ρ c)
theorem main_arg0_W2 : W2 m ρ c (Proc.devRef .tc main_arg0) = m ((c : Thread nD τ).loc main_arg0) :=
  (W2_of_ne m ρ c main_arg0 (by decide)).trans (main_arg0_W1 m ρ c)
theorem main_arg0_W3 : W3 m ρ c (Proc.devRef .tc main_arg0) = m ((c : Thread nD τ).loc main_arg0) :=
  (by untouched_by hostOps1 : W3 m ρ c (Proc.devRef .tc main_arg0) = W2 m ρ c (Proc.devRef .tc main_arg0)).trans (main_arg0_W2 m ρ c)
theorem main_arg0_W4 : W4 m ρ c (Proc.devRef .tc main_arg0) = m ((c : Thread nD τ).loc main_arg0) :=
  (W4_of_ne m ρ c main_arg0 (by decide)).trans (main_arg0_W3 m ρ c)
theorem main_arg0_W5 : W5 m ρ c (Proc.devRef .tc main_arg0) = m ((c : Thread nD τ).loc main_arg0) :=
  (W5_of_ne m ρ c main_arg0 (by decide)).trans (main_arg0_W4 m ρ c)
theorem main_arg0_W6 : W6 m ρ c (Proc.devRef .tc main_arg0) = m ((c : Thread nD τ).loc main_arg0) :=
  (by untouched_by hostOps3 : W6 m ρ c (Proc.devRef .tc main_arg0) = W5 m ρ c (Proc.devRef .tc main_arg0)).trans (main_arg0_W5 m ρ c)
theorem main_arg0_W7 : W7 m ρ c (Proc.devRef .tc main_arg0) = m ((c : Thread nD τ).loc main_arg0) :=
  (W7_of_ne m ρ c main_arg0 (by decide)).trans (main_arg0_W6 m ρ c)
theorem main_arg0_W8 : W8 m ρ c (Proc.devRef .tc main_arg0) = m ((c : Thread nD τ).loc main_arg0) :=
  (W8_of_ne m ρ c main_arg0 (by decide)).trans (main_arg0_W7 m ρ c)
theorem main_arg0_W9 : W9 m ρ c (Proc.devRef .tc main_arg0) = m ((c : Thread nD τ).loc main_arg0) :=
  (by untouched_by hostOps5 : W9 m ρ c (Proc.devRef .tc main_arg0) = W8 m ρ c (Proc.devRef .tc main_arg0)).trans (main_arg0_W8 m ρ c)
theorem main_arg0_W10 : W10 m ρ c (Proc.devRef .tc main_arg0) = m ((c : Thread nD τ).loc main_arg0) :=
  (W10_of_ne m ρ c main_arg0 (by decide)).trans (main_arg0_W9 m ρ c)
theorem main_arg0_W11 : W11 m ρ c (Proc.devRef .tc main_arg0) = m ((c : Thread nD τ).loc main_arg0) :=
  (by untouched_by hostOps6 : W11 m ρ c (Proc.devRef .tc main_arg0) = W10 m ρ c (Proc.devRef .tc main_arg0)).trans (main_arg0_W10 m ρ c)

/-! ## Argument 1 -/
theorem main_arg1_W0 : W0 m ρ c (Proc.devRef .tc main_arg1) = m ((c : Thread nD τ).loc main_arg1) := rfl
theorem main_arg1_W1 : W1 m ρ c (Proc.devRef .tc main_arg1) = m ((c : Thread nD τ).loc main_arg1) :=
  (by untouched_by hostOps0 : W1 m ρ c (Proc.devRef .tc main_arg1) = W0 m ρ c (Proc.devRef .tc main_arg1)).trans (main_arg1_W0 m ρ c)
theorem main_arg1_W2 : W2 m ρ c (Proc.devRef .tc main_arg1) = m ((c : Thread nD τ).loc main_arg1) :=
  (W2_of_ne m ρ c main_arg1 (by decide)).trans (main_arg1_W1 m ρ c)
theorem main_arg1_W3 : W3 m ρ c (Proc.devRef .tc main_arg1) = m ((c : Thread nD τ).loc main_arg1) :=
  (by untouched_by hostOps1 : W3 m ρ c (Proc.devRef .tc main_arg1) = W2 m ρ c (Proc.devRef .tc main_arg1)).trans (main_arg1_W2 m ρ c)
theorem main_arg1_W4 : W4 m ρ c (Proc.devRef .tc main_arg1) = m ((c : Thread nD τ).loc main_arg1) :=
  (W4_of_ne m ρ c main_arg1 (by decide)).trans (main_arg1_W3 m ρ c)
theorem main_arg1_W5 : W5 m ρ c (Proc.devRef .tc main_arg1) = m ((c : Thread nD τ).loc main_arg1) :=
  (W5_of_ne m ρ c main_arg1 (by decide)).trans (main_arg1_W4 m ρ c)
theorem main_arg1_W6 : W6 m ρ c (Proc.devRef .tc main_arg1) = m ((c : Thread nD τ).loc main_arg1) :=
  (by untouched_by hostOps3 : W6 m ρ c (Proc.devRef .tc main_arg1) = W5 m ρ c (Proc.devRef .tc main_arg1)).trans (main_arg1_W5 m ρ c)
theorem main_arg1_W7 : W7 m ρ c (Proc.devRef .tc main_arg1) = m ((c : Thread nD τ).loc main_arg1) :=
  (W7_of_ne m ρ c main_arg1 (by decide)).trans (main_arg1_W6 m ρ c)
theorem main_arg1_W8 : W8 m ρ c (Proc.devRef .tc main_arg1) = m ((c : Thread nD τ).loc main_arg1) :=
  (W8_of_ne m ρ c main_arg1 (by decide)).trans (main_arg1_W7 m ρ c)

/-! ## Argument 2 -/
theorem main_arg2_W0 : W0 m ρ c (Proc.devRef .tc main_arg2) = m ((c : Thread nD τ).loc main_arg2) := rfl
theorem main_arg2_W1 : W1 m ρ c (Proc.devRef .tc main_arg2) = m ((c : Thread nD τ).loc main_arg2) :=
  (by untouched_by hostOps0 : W1 m ρ c (Proc.devRef .tc main_arg2) = W0 m ρ c (Proc.devRef .tc main_arg2)).trans (main_arg2_W0 m ρ c)
theorem main_arg2_W2 : W2 m ρ c (Proc.devRef .tc main_arg2) = m ((c : Thread nD τ).loc main_arg2) :=
  ((W2_arr m ρ c 1).trans (((dat0 (V1 m ρ) c).arrAt_in 1 rfl _).trans (A_eq0 (V1 m ρ) c 1))).trans (main_arg2_W1 m ρ c)
theorem main_arg2_W3 : W3 m ρ c (Proc.devRef .tc main_arg2) = m ((c : Thread nD τ).loc main_arg2) :=
  (by untouched_by hostOps1 : W3 m ρ c (Proc.devRef .tc main_arg2) = W2 m ρ c (Proc.devRef .tc main_arg2)).trans (main_arg2_W2 m ρ c)
theorem main_arg2_W4 : W4 m ρ c (Proc.devRef .tc main_arg2) = m ((c : Thread nD τ).loc main_arg2) :=
  (W4_of_ne m ρ c main_arg2 (by decide)).trans (main_arg2_W3 m ρ c)
theorem main_arg2_W5 : W5 m ρ c (Proc.devRef .tc main_arg2) = m ((c : Thread nD τ).loc main_arg2) :=
  ((W5_arr m ρ c 1).trans (((dat2 (V4 m ρ) c).arrAt_in 1 rfl _).trans (A_eq2 (V4 m ρ) c 1))).trans (main_arg2_W4 m ρ c)
theorem main_arg2_W6 : W6 m ρ c (Proc.devRef .tc main_arg2) = m ((c : Thread nD τ).loc main_arg2) :=
  (by untouched_by hostOps3 : W6 m ρ c (Proc.devRef .tc main_arg2) = W5 m ρ c (Proc.devRef .tc main_arg2)).trans (main_arg2_W5 m ρ c)
theorem main_arg2_W7 : W7 m ρ c (Proc.devRef .tc main_arg2) = m ((c : Thread nD τ).loc main_arg2) :=
  (W7_of_ne m ρ c main_arg2 (by decide)).trans (main_arg2_W6 m ρ c)

/-! ## Argument 5 -/
theorem main_arg5_W0 : W0 m ρ c (Proc.devRef .tc main_arg5) = m ((c : Thread nD τ).loc main_arg5) := rfl
theorem main_arg5_W1 : W1 m ρ c (Proc.devRef .tc main_arg5) = m ((c : Thread nD τ).loc main_arg5) :=
  (by untouched_by hostOps0 : W1 m ρ c (Proc.devRef .tc main_arg5) = W0 m ρ c (Proc.devRef .tc main_arg5)).trans (main_arg5_W0 m ρ c)
theorem main_arg5_W2 : W2 m ρ c (Proc.devRef .tc main_arg5) = m ((c : Thread nD τ).loc main_arg5) :=
  (W2_of_ne m ρ c main_arg5 (by decide)).trans (main_arg5_W1 m ρ c)

/-! ## Argument 6 -/
theorem main_arg6_W0 : W0 m ρ c (Proc.devRef .tc main_arg6) = m ((c : Thread nD τ).loc main_arg6) := rfl
theorem main_arg6_W1 : W1 m ρ c (Proc.devRef .tc main_arg6) = m ((c : Thread nD τ).loc main_arg6) :=
  (by untouched_by hostOps0 : W1 m ρ c (Proc.devRef .tc main_arg6) = W0 m ρ c (Proc.devRef .tc main_arg6)).trans (main_arg6_W0 m ρ c)
theorem main_arg6_W2 : W2 m ρ c (Proc.devRef .tc main_arg6) = m ((c : Thread nD τ).loc main_arg6) :=
  (W2_of_ne m ρ c main_arg6 (by decide)).trans (main_arg6_W1 m ρ c)

/-! ## Argument 7 -/
theorem main_arg7_W0 : W0 m ρ c (Proc.devRef .tc main_arg7) = m ((c : Thread nD τ).loc main_arg7) := rfl
theorem main_arg7_W1 : W1 m ρ c (Proc.devRef .tc main_arg7) = m ((c : Thread nD τ).loc main_arg7) :=
  (by untouched_by hostOps0 : W1 m ρ c (Proc.devRef .tc main_arg7) = W0 m ρ c (Proc.devRef .tc main_arg7)).trans (main_arg7_W0 m ρ c)
theorem main_arg7_W2 : W2 m ρ c (Proc.devRef .tc main_arg7) = m ((c : Thread nD τ).loc main_arg7) :=
  (W2_of_ne m ρ c main_arg7 (by decide)).trans (main_arg7_W1 m ρ c)

/-! ## Argument 8 -/
theorem main_arg8_W0 : W0 m ρ c (Proc.devRef .tc main_arg8) = m ((c : Thread nD τ).loc main_arg8) := rfl
theorem main_arg8_W1 : W1 m ρ c (Proc.devRef .tc main_arg8) = m ((c : Thread nD τ).loc main_arg8) :=
  (by untouched_by hostOps0 : W1 m ρ c (Proc.devRef .tc main_arg8) = W0 m ρ c (Proc.devRef .tc main_arg8)).trans (main_arg8_W0 m ρ c)
theorem main_arg8_W2 : W2 m ρ c (Proc.devRef .tc main_arg8) = m ((c : Thread nD τ).loc main_arg8) :=
  (W2_of_ne m ρ c main_arg8 (by decide)).trans (main_arg8_W1 m ρ c)
theorem main_arg8_W3 : W3 m ρ c (Proc.devRef .tc main_arg8) = m ((c : Thread nD τ).loc main_arg8) :=
  (by untouched_by hostOps1 : W3 m ρ c (Proc.devRef .tc main_arg8) = W2 m ρ c (Proc.devRef .tc main_arg8)).trans (main_arg8_W2 m ρ c)
theorem main_arg8_W4 : W4 m ρ c (Proc.devRef .tc main_arg8) = m ((c : Thread nD τ).loc main_arg8) :=
  (W4_of_ne m ρ c main_arg8 (by decide)).trans (main_arg8_W3 m ρ c)
theorem main_arg8_W5 : W5 m ρ c (Proc.devRef .tc main_arg8) = m ((c : Thread nD τ).loc main_arg8) :=
  (W5_of_ne m ρ c main_arg8 (by decide)).trans (main_arg8_W4 m ρ c)

/-! ## Argument 9 -/
theorem main_arg9_W0 : W0 m ρ c (Proc.devRef .tc main_arg9) = m ((c : Thread nD τ).loc main_arg9) := rfl
theorem main_arg9_W1 : W1 m ρ c (Proc.devRef .tc main_arg9) = m ((c : Thread nD τ).loc main_arg9) :=
  (by untouched_by hostOps0 : W1 m ρ c (Proc.devRef .tc main_arg9) = W0 m ρ c (Proc.devRef .tc main_arg9)).trans (main_arg9_W0 m ρ c)
theorem main_arg9_W2 : W2 m ρ c (Proc.devRef .tc main_arg9) = m ((c : Thread nD τ).loc main_arg9) :=
  (W2_of_ne m ρ c main_arg9 (by decide)).trans (main_arg9_W1 m ρ c)
theorem main_arg9_W3 : W3 m ρ c (Proc.devRef .tc main_arg9) = m ((c : Thread nD τ).loc main_arg9) :=
  (by untouched_by hostOps1 : W3 m ρ c (Proc.devRef .tc main_arg9) = W2 m ρ c (Proc.devRef .tc main_arg9)).trans (main_arg9_W2 m ρ c)
theorem main_arg9_W4 : W4 m ρ c (Proc.devRef .tc main_arg9) = m ((c : Thread nD τ).loc main_arg9) :=
  (W4_of_ne m ρ c main_arg9 (by decide)).trans (main_arg9_W3 m ρ c)
theorem main_arg9_W5 : W5 m ρ c (Proc.devRef .tc main_arg9) = m ((c : Thread nD τ).loc main_arg9) :=
  (W5_of_ne m ρ c main_arg9 (by decide)).trans (main_arg9_W4 m ρ c)

/-! ## Argument 10 -/
theorem main_arg10_W0 : W0 m ρ c (Proc.devRef .tc main_arg10) = m ((c : Thread nD τ).loc main_arg10) := rfl
theorem main_arg10_W1 : W1 m ρ c (Proc.devRef .tc main_arg10) = m ((c : Thread nD τ).loc main_arg10) :=
  (by untouched_by hostOps0 : W1 m ρ c (Proc.devRef .tc main_arg10) = W0 m ρ c (Proc.devRef .tc main_arg10)).trans (main_arg10_W0 m ρ c)
theorem main_arg10_W2 : W2 m ρ c (Proc.devRef .tc main_arg10) = m ((c : Thread nD τ).loc main_arg10) :=
  (W2_of_ne m ρ c main_arg10 (by decide)).trans (main_arg10_W1 m ρ c)
theorem main_arg10_W3 : W3 m ρ c (Proc.devRef .tc main_arg10) = m ((c : Thread nD τ).loc main_arg10) :=
  (by untouched_by hostOps1 : W3 m ρ c (Proc.devRef .tc main_arg10) = W2 m ρ c (Proc.devRef .tc main_arg10)).trans (main_arg10_W2 m ρ c)
theorem main_arg10_W4 : W4 m ρ c (Proc.devRef .tc main_arg10) = m ((c : Thread nD τ).loc main_arg10) :=
  (W4_of_ne m ρ c main_arg10 (by decide)).trans (main_arg10_W3 m ρ c)
theorem main_arg10_W5 : W5 m ρ c (Proc.devRef .tc main_arg10) = m ((c : Thread nD τ).loc main_arg10) :=
  (W5_of_ne m ρ c main_arg10 (by decide)).trans (main_arg10_W4 m ρ c)

/-! ## Argument 11 -/
theorem main_arg11_W0 : W0 m ρ c (Proc.devRef .tc main_arg11) = m ((c : Thread nD τ).loc main_arg11) := rfl
theorem main_arg11_W1 : W1 m ρ c (Proc.devRef .tc main_arg11) = m ((c : Thread nD τ).loc main_arg11) :=
  (by untouched_by hostOps0 : W1 m ρ c (Proc.devRef .tc main_arg11) = W0 m ρ c (Proc.devRef .tc main_arg11)).trans (main_arg11_W0 m ρ c)
theorem main_arg11_W2 : W2 m ρ c (Proc.devRef .tc main_arg11) = m ((c : Thread nD τ).loc main_arg11) :=
  (W2_of_ne m ρ c main_arg11 (by decide)).trans (main_arg11_W1 m ρ c)
theorem main_arg11_W3 : W3 m ρ c (Proc.devRef .tc main_arg11) = m ((c : Thread nD τ).loc main_arg11) :=
  (by untouched_by hostOps1 : W3 m ρ c (Proc.devRef .tc main_arg11) = W2 m ρ c (Proc.devRef .tc main_arg11)).trans (main_arg11_W2 m ρ c)
theorem main_arg11_W4 : W4 m ρ c (Proc.devRef .tc main_arg11) = m ((c : Thread nD τ).loc main_arg11) :=
  (W4_of_ne m ρ c main_arg11 (by decide)).trans (main_arg11_W3 m ρ c)
theorem main_arg11_W5 : W5 m ρ c (Proc.devRef .tc main_arg11) = m ((c : Thread nD τ).loc main_arg11) :=
  (W5_of_ne m ρ c main_arg11 (by decide)).trans (main_arg11_W4 m ρ c)
theorem main_arg11_W6 : W6 m ρ c (Proc.devRef .tc main_arg11) = m ((c : Thread nD τ).loc main_arg11) :=
  (by untouched_by hostOps3 : W6 m ρ c (Proc.devRef .tc main_arg11) = W5 m ρ c (Proc.devRef .tc main_arg11)).trans (main_arg11_W5 m ρ c)
theorem main_arg11_W7 : W7 m ρ c (Proc.devRef .tc main_arg11) = m ((c : Thread nD τ).loc main_arg11) :=
  (W7_of_ne m ρ c main_arg11 (by decide)).trans (main_arg11_W6 m ρ c)
theorem main_arg11_W8 : W8 m ρ c (Proc.devRef .tc main_arg11) = m ((c : Thread nD τ).loc main_arg11) :=
  (W8_of_ne m ρ c main_arg11 (by decide)).trans (main_arg11_W7 m ρ c)

/-! ## Argument 12 -/
theorem main_arg12_W0 : W0 m ρ c (Proc.devRef .tc main_arg12) = m ((c : Thread nD τ).loc main_arg12) := rfl
theorem main_arg12_W1 : W1 m ρ c (Proc.devRef .tc main_arg12) = m ((c : Thread nD τ).loc main_arg12) :=
  (by untouched_by hostOps0 : W1 m ρ c (Proc.devRef .tc main_arg12) = W0 m ρ c (Proc.devRef .tc main_arg12)).trans (main_arg12_W0 m ρ c)
theorem main_arg12_W2 : W2 m ρ c (Proc.devRef .tc main_arg12) = m ((c : Thread nD τ).loc main_arg12) :=
  (W2_of_ne m ρ c main_arg12 (by decide)).trans (main_arg12_W1 m ρ c)
theorem main_arg12_W3 : W3 m ρ c (Proc.devRef .tc main_arg12) = m ((c : Thread nD τ).loc main_arg12) :=
  (by untouched_by hostOps1 : W3 m ρ c (Proc.devRef .tc main_arg12) = W2 m ρ c (Proc.devRef .tc main_arg12)).trans (main_arg12_W2 m ρ c)
theorem main_arg12_W4 : W4 m ρ c (Proc.devRef .tc main_arg12) = m ((c : Thread nD τ).loc main_arg12) :=
  (W4_of_ne m ρ c main_arg12 (by decide)).trans (main_arg12_W3 m ρ c)
theorem main_arg12_W5 : W5 m ρ c (Proc.devRef .tc main_arg12) = m ((c : Thread nD τ).loc main_arg12) :=
  (W5_of_ne m ρ c main_arg12 (by decide)).trans (main_arg12_W4 m ρ c)
theorem main_arg12_W6 : W6 m ρ c (Proc.devRef .tc main_arg12) = m ((c : Thread nD τ).loc main_arg12) :=
  (by untouched_by hostOps3 : W6 m ρ c (Proc.devRef .tc main_arg12) = W5 m ρ c (Proc.devRef .tc main_arg12)).trans (main_arg12_W5 m ρ c)
theorem main_arg12_W7 : W7 m ρ c (Proc.devRef .tc main_arg12) = m ((c : Thread nD τ).loc main_arg12) :=
  (W7_of_ne m ρ c main_arg12 (by decide)).trans (main_arg12_W6 m ρ c)
theorem main_arg12_W8 : W8 m ρ c (Proc.devRef .tc main_arg12) = m ((c : Thread nD τ).loc main_arg12) :=
  (W8_of_ne m ρ c main_arg12 (by decide)).trans (main_arg12_W7 m ρ c)

/-! ## Argument 13 -/
theorem main_arg13_W0 : W0 m ρ c (Proc.devRef .tc main_arg13) = m ((c : Thread nD τ).loc main_arg13) := rfl
theorem main_arg13_W1 : W1 m ρ c (Proc.devRef .tc main_arg13) = m ((c : Thread nD τ).loc main_arg13) :=
  (by untouched_by hostOps0 : W1 m ρ c (Proc.devRef .tc main_arg13) = W0 m ρ c (Proc.devRef .tc main_arg13)).trans (main_arg13_W0 m ρ c)
theorem main_arg13_W2 : W2 m ρ c (Proc.devRef .tc main_arg13) = m ((c : Thread nD τ).loc main_arg13) :=
  (W2_of_ne m ρ c main_arg13 (by decide)).trans (main_arg13_W1 m ρ c)
theorem main_arg13_W3 : W3 m ρ c (Proc.devRef .tc main_arg13) = m ((c : Thread nD τ).loc main_arg13) :=
  (by untouched_by hostOps1 : W3 m ρ c (Proc.devRef .tc main_arg13) = W2 m ρ c (Proc.devRef .tc main_arg13)).trans (main_arg13_W2 m ρ c)
theorem main_arg13_W4 : W4 m ρ c (Proc.devRef .tc main_arg13) = m ((c : Thread nD τ).loc main_arg13) :=
  (W4_of_ne m ρ c main_arg13 (by decide)).trans (main_arg13_W3 m ρ c)
theorem main_arg13_W5 : W5 m ρ c (Proc.devRef .tc main_arg13) = m ((c : Thread nD τ).loc main_arg13) :=
  (W5_of_ne m ρ c main_arg13 (by decide)).trans (main_arg13_W4 m ρ c)
theorem main_arg13_W6 : W6 m ρ c (Proc.devRef .tc main_arg13) = m ((c : Thread nD τ).loc main_arg13) :=
  (by untouched_by hostOps3 : W6 m ρ c (Proc.devRef .tc main_arg13) = W5 m ρ c (Proc.devRef .tc main_arg13)).trans (main_arg13_W5 m ρ c)
theorem main_arg13_W7 : W7 m ρ c (Proc.devRef .tc main_arg13) = m ((c : Thread nD τ).loc main_arg13) :=
  (W7_of_ne m ρ c main_arg13 (by decide)).trans (main_arg13_W6 m ρ c)
theorem main_arg13_W8 : W8 m ρ c (Proc.devRef .tc main_arg13) = m ((c : Thread nD τ).loc main_arg13) :=
  (W8_of_ne m ρ c main_arg13 (by decide)).trans (main_arg13_W7 m ρ c)
theorem main_arg13_W9 : W9 m ρ c (Proc.devRef .tc main_arg13) = m ((c : Thread nD τ).loc main_arg13) :=
  (by untouched_by hostOps5 : W9 m ρ c (Proc.devRef .tc main_arg13) = W8 m ρ c (Proc.devRef .tc main_arg13)).trans (main_arg13_W8 m ρ c)
theorem main_arg13_W10 : W10 m ρ c (Proc.devRef .tc main_arg13) = m ((c : Thread nD τ).loc main_arg13) :=
  (W10_of_ne m ρ c main_arg13 (by decide)).trans (main_arg13_W9 m ρ c)

/-! ## The bias row, reshaped to [1,16] by the first stretch -/
theorem main_v0_W1 : W1 m ρ c (Proc.devRef .tc main_v0) = shapeCast S1x16 (m ((c : Thread nD τ).loc main_arg3)) shapeCasts_S16_S1x16 := by
  show StableHlo.after hostOps0 (W0 m ρ c) (Proc.devRef .tc main_v0) = _
  after_results
  rfl
theorem main_v0_W2 : W2 m ρ c (Proc.devRef .tc main_v0) = shapeCast S1x16 (m ((c : Thread nD τ).loc main_arg3)) shapeCasts_S16_S1x16 :=
  ((W2_arr m ρ c 2).trans (((dat0 (V1 m ρ) c).arrAt_in 2 rfl _).trans (A_eq0 (V1 m ρ) c 2))).trans (main_v0_W1 m ρ c)
theorem main_v0_W3 : W3 m ρ c (Proc.devRef .tc main_v0) = shapeCast S1x16 (m ((c : Thread nD τ).loc main_arg3)) shapeCasts_S16_S1x16 :=
  (by untouched_by hostOps1 : W3 m ρ c (Proc.devRef .tc main_v0) = W2 m ρ c (Proc.devRef .tc main_v0)).trans (main_v0_W2 m ρ c)
theorem main_v0_W4 : W4 m ρ c (Proc.devRef .tc main_v0) = shapeCast S1x16 (m ((c : Thread nD τ).loc main_arg3)) shapeCasts_S16_S1x16 :=
  (W4_of_ne m ρ c main_v0 (by decide)).trans (main_v0_W3 m ρ c)
theorem main_v0_W5 : W5 m ρ c (Proc.devRef .tc main_v0) = shapeCast S1x16 (m ((c : Thread nD τ).loc main_arg3)) shapeCasts_S16_S1x16 :=
  ((W5_arr m ρ c 2).trans (((dat2 (V4 m ρ) c).arrAt_in 2 rfl _).trans (A_eq2 (V4 m ρ) c 2))).trans (main_v0_W4 m ρ c)
theorem main_v0_W6 : W6 m ρ c (Proc.devRef .tc main_v0) = shapeCast S1x16 (m ((c : Thread nD τ).loc main_arg3)) shapeCasts_S16_S1x16 :=
  (by untouched_by hostOps3 : W6 m ρ c (Proc.devRef .tc main_v0) = W5 m ρ c (Proc.devRef .tc main_v0)).trans (main_v0_W5 m ρ c)
theorem main_v0_W7 : W7 m ρ c (Proc.devRef .tc main_v0) = shapeCast S1x16 (m ((c : Thread nD τ).loc main_arg3)) shapeCasts_S16_S1x16 :=
  (W7_of_ne m ρ c main_v0 (by decide)).trans (main_v0_W6 m ρ c)

end Cert.KernelIdeal.Levels

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.Blocks.lean ====
/-
  The three block bodies of this program, read at one entry of their result, on the extended reals.

  * The dense layer's block: a [20,8,64,16] block is flattened to 10240 rows of 16, multiplied by the transposed
    16 x 16 weight matrix, a row of 16 biases is added to every row, and the rows are regrouped.  Entry (e,b,t,f) is
    the sum over d of block(e,b,t,d) * W(f,d), plus bias(0,f).
  * The combining block: entry (e,b,t,f) is g(e,b,t,f) * scale(e,0,0,f) + xc(e,b,t,f).
  * The closing block: with c the count of row e, entry (e,b,t,f) is sums(e,b,t,f) / max(c,1) where c > 0 and
    x(e,b,t,f) elsewhere.
-/
import proofs.«131250_j59665685676269_2_alg».proof.Proof.Gen.KernelIdeal.Skeleton
import proofs.«131250_j59665685676269_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Blocks

open Idealize.ShloMosaic Idealize.ShloMosaic.ValueIdx Cert.KernelIdeal Cert.KernelIdeal.Gen

/-- The row of the flattened block that holds the entries (e, b, t, ·): e * 512 + b * 64 + t. -/
def row (e : Fin 20) (b : Fin 8) (t : Fin 64) : Fin 10240 :=
  ⟨(e.val * 8 + b.val) * 64 + t.val, by have := e.isLt; have := b.isLt; have := t.isLt; omega⟩

/-- Regrouping 10240 rows of 16 into [20,8,64,16] reads, at (e,b,t,f), row e*512+b*64+t at column f. -/
theorem regroup_apply (x : FVec Ideal S10240x16 .f32) (e : Fin 20) (b : Fin 8) (t : Fin 64) (f : Fin 16) :
    shapeCast S20x8x64x16 x shapeCasts_S10240x16_S20x8x64x16 (ix4 e b t f) = x (ix2 (row e b t) f) :=
  shapeCast_apply x _ _ _ (by
    rw [Shape.rowMajor_val_two, Shape.rowMajor_val_four]
    rfl)

/-- Flattening [20,8,64,16] into 10240 rows of 16 reads, at row e*512+b*64+t and column d, the entry (e,b,t,d). -/
theorem flatten_apply (x : FVec Ideal S20x8x64x16 .f32) (e : Fin 20) (b : Fin 8) (t : Fin 64) (d : Fin 16) :
    shapeCast S10240x16 x shapeCasts_S20x8x64x16_S10240x16 (ix2 (row e b t) d) = x (ix4 e b t d) :=
  shapeCast_apply x _ _ _ (by
    rw [Shape.rowMajor_val_two, Shape.rowMajor_val_four]
    rfl)

/-- A row of 16 repeated down 10240 rows reads, at (r, f), the row's entry f. -/
theorem bias_rows_apply (x : FVec Ideal S1x16 .f32) (r : Fin 10240) (f : Fin 16) :
    broadcastTo S10240x16 x broadcasts_S1x16_S10240x16 (ix2 r f) = x (ix2 0 f) :=
  broadcastTo_apply x _ _ _ fun a => match a with
    | ⟨0, _⟩ => rfl
    | ⟨1, _⟩ => rfl

/-- The dense layer's block at an entry. -/
theorem fc_block (v0 : FVec Ideal S20x8x64x16 .f32) (v3 : FVec Ideal S16x16 .f32) (v8 : FVec Ideal S1x16 .f32)
    (e : Fin 20) (b : Fin 8) (t : Fin 64) (f : Fin 16) :
    k0_pay1 (F := Ideal) v0 v3 v8 (ix4 e b t f)
      = (∑ d : Fin 16, v0 (ix4 e b t d) * v3 (ix2 f d)) + v8 (ix2 0 f) := by
  unfold k0_pay1
  refine (regroup_apply _ e b t f).trans ?_
  refine (addf_apply _ _ _).trans ?_
  refine congrArg₂ (· + ·) ?_ ?_
  · refine (matmul_plain_zero_apply dot_S10240x16_S16x16_S10240x16_1_0_0_1_n_n.wf none _ _ (row e b t) f).trans ?_
    refine Finset.sum_congr rfl fun d _ => ?_
    refine congrArg₂ (· * ·) ?_ ?_
    · show shapeCast S10240x16 (shapeCast S20x8x64x16 v0 shapeCasts_S20x8x64x16_S20x8x64x16) shapeCasts_S20x8x64x16_S10240x16
          (ix2 (row e b t) d) = v0 (ix4 e b t d)
      rw [shapeCast_self]
      exact flatten_apply v0 e b t d
    · show transpose S16x16 [1, 0] v3 transposes_S16x16_p1_0_S16x16 (ix2 d f) = v3 (ix2 f d)
      exact transpose_ix2_apply v3 _ d f
  · refine (bias_rows_apply _ (row e b t) f).trans ?_
    rw [shapeCast_self]

/-- The other two dense layers run the same block body. -/
theorem k2_eq : @k2_pay1 Ideal _ = @k0_pay1 Ideal _ := rfl
theorem k4_eq : @k4_pay1 Ideal _ = @k0_pay1 Ideal _ := rfl

/-- A [20,1,1,16] block of scales spread over [20,8,64,16] reads, at (e,b,t,f), the scale (e,0,0,f). -/
theorem scale_spread_apply (x : FVec Ideal S20x1x1x16 .f32) (e : Fin 20) (b : Fin 8) (t : Fin 64) (f : Fin 16) :
    broadcastTo S20x8x64x16 x broadcasts_S20x1x1x16_S20x8x64x16 (ix4 e b t f) = x (ix4 e 0 0 f) :=
  broadcastTo_apply x _ _ _ fun a => match a with
    | ⟨0, _⟩ => rfl
    | ⟨1, _⟩ => rfl
    | ⟨2, _⟩ => rfl
    | ⟨3, _⟩ => rfl

/-- The combining block at an entry. -/
theorem combine_block (v0 : FVec Ideal S20x8x64x16 .f32) (v2 : FVec Ideal S20x1x1x16 .f32) (v7 : FVec Ideal S20x8x64x16 .f32)
    (e : Fin 20) (b : Fin 8) (t : Fin 64) (f : Fin 16) :
    k1_pay1 (F := Ideal) v0 v2 v7 (ix4 e b t f) = v0 (ix4 e b t f) * v2 (ix4 e 0 0 f) + v7 (ix4 e b t f) := by
  unfold k1_pay1
  refine (addf_apply _ _ _).trans ?_
  refine congrArg₂ (· + ·) ?_ ?_
  · refine (mulf_apply _ _ _).trans ?_
    refine congrArg₂ (· * ·) ?_ ?_
    · rw [shapeCast_self]
    · refine (scale_spread_apply _ e b t f).trans ?_
      rw [shapeCast_self, shapeCast_self]
  · rw [shapeCast_self]

theorem k3_eq : @k3_pay1 Ideal _ = @k1_pay1 Ideal _ := rfl
theorem k5_eq : @k5_pay1 Ideal _ = @k1_pay1 Ideal _ := rfl

/-- A [20,1,1,1] block of counts spread over [20,8,64,16] reads, at (e,b,t,f), the count of row e. -/
theorem count_spread_apply (x : FVec Ideal S20x1x1x1 .f32) (e : Fin 20) (b : Fin 8) (t : Fin 64) (f : Fin 16) :
    broadcastTo S20x8x64x16 x broadcasts_S20x1x1x1_S20x8x64x16 (ix4 e b t f) = x (ix4 e 0 0 0) :=
  broadcastTo_apply x _ _ _ fun a => match a with
    | ⟨0, _⟩ => rfl
    | ⟨1, _⟩ => rfl
    | ⟨2, _⟩ => rfl
    | ⟨3, _⟩ => rfl

/-- The closing block at an entry. -/
theorem finalize_block (v0 : FVec Ideal S20x8x64x16 .f32) (v2 : FVec Ideal S20x1x1x1 .f32) (v4 : FVec Ideal S20x8x64x16 .f32)
    (e : Fin 20) (b : Fin 8) (t : Fin 64) (f : Fin 16) :
    k6_pay1 (F := Ideal) v0 v2 v4 (ix4 e b t f)
      = Scalar.select (FloatOps.cmpf (F := Ideal) .ogt (v2 (ix4 e 0 0 0)) (Ideal.ofBits .f32 0x00000000#32))
          (Ideal.div (v0 (ix4 e b t f)) (max (v2 (ix4 e 0 0 0)) (Ideal.ofBits .f32 0x3F800000#32)))
          (v4 (ix4 e b t f)) := by
  unfold k6_pay1
  have hc : broadcastTo S20x8x64x16 (shapeCast S20x1x1x1 (shapeCast S20x1x1x1 v2 shapeCasts_S20x1x1x1_S20x1x1x1) shapeCasts_S20x1x1x1_S20x1x1x1)
      broadcasts_S20x1x1x1_S20x8x64x16 (ix4 e b t f) = v2 (ix4 e 0 0 0) := by
    refine (count_spread_apply _ e b t f).trans ?_
    rw [shapeCast_self, shapeCast_self]
  refine (select_apply _ _ _ _).trans ?_
  refine congr (congr (congrArg Scalar.select ?_) ?_) ?_
  · refine (cmpf_apply _ _ _ _).trans ?_
    exact congrArg₂ (FloatOps.cmpf (F := Ideal) .ogt) hc rfl
  · refine (divf_apply _ _ _).trans ?_
    refine congrArg₂ Ideal.div ?_ ?_
    · rw [shapeCast_self]
    · refine (maximumf_apply _ _ _).trans ?_
      exact congrArg₂ max hc rfl
  · rfl

/-! ## The same three facts at an index not yet split into coordinates -/

theorem fc_point (x0 : FVec Ideal S20x8x64x16 .f32) (x1 : FVec Ideal S16x16 .f32) (x2 : FVec Ideal S1x16 .f32) (j : S20x8x64x16.Idx) :
    k0_pay1 (F := Ideal) x0 x1 x2 j
      = (∑ d : Fin 16, x0 (ix4 (j 0) (j 1) (j 2) d) * x1 (ix2 (j 3) d)) + x2 (ix2 0 (j 3)) :=
  (congrArg (k0_pay1 (F := Ideal) x0 x1 x2) (eq_ix4 j)).trans (fc_block x0 x1 x2 (j 0) (j 1) (j 2) (j 3))

theorem combine_point (x0 : FVec Ideal S20x8x64x16 .f32) (x2 : FVec Ideal S20x1x1x16 .f32) (x7 : FVec Ideal S20x8x64x16 .f32) (j : S20x8x64x16.Idx) :
    k1_pay1 (F := Ideal) x0 x2 x7 j = x0 j * x2 (ix4 (j 0) 0 0 (j 3)) + x7 j := by
  refine (congrArg (k1_pay1 (F := Ideal) x0 x2 x7) (eq_ix4 j)).trans ?_
  refine (combine_block x0 x2 x7 (j 0) (j 1) (j 2) (j 3)).trans ?_
  exact congrArg₂ (· + ·) (congrArg₂ (· * ·) (congrArg x0 (eq_ix4 j).symm) rfl) (congrArg x7 (eq_ix4 j).symm)

theorem finalize_point (x0 : FVec Ideal S20x8x64x16 .f32) (x2 : FVec Ideal S20x1x1x1 .f32) (x4 : FVec Ideal S20x8x64x16 .f32) (j : S20x8x64x16.Idx) :
    k6_pay1 (F := Ideal) x0 x2 x4 j
      = Scalar.select (FloatOps.cmpf (F := Ideal) .ogt (x2 (ix4 (j 0) 0 0 0)) (Ideal.ofBits .f32 0x00000000#32))
          (Ideal.div (x0 j) (max (x2 (ix4 (j 0) 0 0 0)) (Ideal.ofBits .f32 0x3F800000#32)))
          (x4 j) := by
  refine (congrArg (k6_pay1 (F := Ideal) x0 x2 x4) (eq_ix4 j)).trans ?_
  refine (finalize_block x0 x2 x4 (j 0) (j 1) (j 2) (j 3)).trans ?_
  exact congr (congr (congrArg Scalar.select rfl) (congrArg₂ Ideal.div (congrArg x0 (eq_ix4 j).symm) rfl)) (congrArg x4 (eq_ix4 j).symm)

end Cert.KernelIdeal.Blocks

end
-- ==== Proof.Region0.lean ====
/-
  Region 0: the dense layer over 200 rows of [8,64,16] entries, 10 blocks of 20 rows.

  Point t of the grid takes rows 20t .. 20t+19 of the input array, the whole weight matrix and the whole bias row, and
  writes rows 20t .. 20t+19 of the output.  So the output array after the region is, entry by entry,
  out(r,b,u,f) = sum over d of in(r,b,u,d) * W(f,d) + bias(0,f): every row r lies in block r / 20.
-/
import proofs.«131250_j59665685676269_2_alg».proof.Proof.Gen.KernelIdeal.Frame
import proofs.«131250_j59665685676269_2_alg».proof.Proof.Blocks

set_option maxRecDepth 16384

noncomputable section

open scoped BigOperators

namespace Cert.KernelIdeal.Region0

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps over the grid: the row windows sit at block t, the weight and bias windows at block 0. -/
theorem idx_facts : ∀ t : Fin cfg0.N,
      win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- What point t writes back is block t of any array G that is the dense layer of the region's entry arrays. -/
theorem flushed_eq (c : Dev nD) (G : S200x8x64x16.Idx → EReal)
    (h : S200x8x64x16.Idx → EReal) (w : S16x16.Idx → EReal) (bb : S1x16.Idx → EReal)
    (hh : V c main_v7 = h) (hw : V c main_arg2 = w) (hb : V c main_v0 = bb)
    (hG : ∀ (r : Fin 200) (b : Fin 8) (u : Fin 64) (f : Fin 16), G (ix4 r b u f)
      = (∑ d : Fin 16, h (ix4 r b u d) * w (ix2 f d)) + bb (ix2 0 f))
    (t : Fin cfg0.N) :
    (dat0 V c).flushed 3 t = ((cfg0.win 3).blk t).view.read (Elt Ideal) G := by
  subst hh hw hb
  show (cfg0.win 3).cut (grid0.coords t) ((dat0 V c).after 3 t) = _
  rw [after0_3]
  unfold out0_3
  rw [View.canon_unit_zero hz4]
  simp only [View.ld_unit_zero (S := S20x8x64x16) hz4, View.ld_unit_zero (S := S16x16) hz2, View.ld_unit_zero (S := S1x16) hz2]
  obtain ⟨a0, a1, a2, a3, b0, b1, c0, c1, o0, o1, o2, o3⟩ := idx_facts t
  have hN : t.val < 10 := t.isLt
  funext j
  have hj0 : (j 0).val < 20 := (j 0).isLt
  have hj1 : (j 1).val < 8 := (j 1).isLt
  have hj2 : (j 2).val < 64 := (j 2).isLt
  have hj3 : (j 3).val < 16 := (j 3).isLt
  have hI : ((cfg0.win 3).blk t).view.emb j
      = ix4 (⟨t.val * 20 + (j 0).val, by omega⟩ : Fin 200) (⟨(j 1).val, hj1⟩ : Fin 8) (⟨(j 2).val, hj2⟩ : Fin 64) (⟨(j 3).val, hj3⟩ : Fin 16) := by
    funext a; apply Fin.ext
    match a with
    | ⟨0, _⟩ => show win0_3.index t (0 : Fin 4) * 20 + 1 * (j 0).val = t.val * 20 + (j 0).val; omega
    | ⟨1, _⟩ => show win0_3.index t (1 : Fin 4) * 8 + 1 * (j 1).val = (j 1).val; omega
    | ⟨2, _⟩ => show win0_3.index t (2 : Fin 4) * 64 + 1 * (j 2).val = (j 2).val; omega
    | ⟨3, _⟩ => show win0_3.index t (3 : Fin 4) * 16 + 1 * (j 3).val = (j 3).val; omega
  have h0 : ∀ d : Fin 16, ((cfg0.win 0).blk t).view.emb (ix4 (j 0) (j 1) (j 2) d)
      = ix4 (⟨t.val * 20 + (j 0).val, by omega⟩ : Fin 200) (⟨(j 1).val, hj1⟩ : Fin 8) (⟨(j 2).val, hj2⟩ : Fin 64) d := by
    intro d; funext a; apply Fin.ext
    match a with
    | ⟨0, _⟩ => show win0_0.index t (0 : Fin 4) * 20 + 1 * (j 0).val = t.val * 20 + (j 0).val; omega
    | ⟨1, _⟩ => show win0_0.index t (1 : Fin 4) * 8 + 1 * (j 1).val = (j 1).val; omega
    | ⟨2, _⟩ => show win0_0.index t (2 : Fin 4) * 64 + 1 * (j 2).val = (j 2).val; omega
    | ⟨3, _⟩ => show win0_0.index t (3 : Fin 4) * 16 + 1 * d.val = d.val; omega
  have h1 : ∀ d : Fin 16, ((cfg0.win 1).blk t).view.emb (ix2 (j 3) d) = ix2 (⟨(j 3).val, hj3⟩ : Fin 16) d := by
    intro d; funext a; apply Fin.ext
    match a with
    | ⟨0, _⟩ => show win0_1.index t (0 : Fin 2) * 16 + 1 * (j 3).val = (j 3).val; omega
    | ⟨1, _⟩ => show win0_1.index t (1 : Fin 2) * 16 + 1 * d.val = d.val; omega
  have h2 : ((cfg0.win 2).blk t).view.emb (ix2 0 (j 3)) = ix2 (0 : Fin 1) (⟨(j 3).val, hj3⟩ : Fin 16) := by
    funext a; apply Fin.ext
    match a with
    | ⟨0, _⟩ => show win0_2.index t (0 : Fin 2) * 1 + 1 * 0 = 0; omega
    | ⟨1, _⟩ => show win0_2.index t (1 : Fin 2) * 16 + 1 * (j 3).val = (j 3).val; omega
  show k0_pay1 (F := Ideal) (fun y => V c main_v7 (((cfg0.win 0).blk t).view.emb y)) (fun y => V c main_arg2 (((cfg0.win 1).blk t).view.emb y))
      (fun y => V c main_v0 (((cfg0.win 2).blk t).view.emb y)) j = G (((cfg0.win 3).blk t).view.emb j)
  rw [hI, hG]
  refine (Blocks.fc_point _ _ _ j).trans ?_
  refine congrArg₂ (· + ·) (Finset.sum_congr rfl fun d _ => congrArg₂ (· * ·) ?_ ?_) ?_
  · exact congrArg (V c main_v7) (h0 d)
  · exact congrArg (V c main_arg2) (h1 d)
  · exact congrArg (V c main_v0) h2

/-- Every row lies in some block: row r in block r / 20. -/
theorem cover (i : S200x8x64x16.Idx) :
    ∃ t : Fin cfg0.N, (cfg0.win 3).flush t = true ∧ i ∈ ((cfg0.win 3).blk t).view.set := by
  have hi0 : (i 0).val < 200 := (i 0).isLt
  have hi1 : (i 1).val < 8 := (i 1).isLt
  have hi2 : (i 2).val < 64 := (i 2).isLt
  have hi3 : (i 3).val < 16 := (i 3).isLt
  have hN : grid0.N = 10 := N_0
  let t : Fin cfg0.N := ⟨(i 0).val / 20, by show (i 0).val / 20 < grid0.N; rw [hN]; omega⟩
  obtain ⟨a0, a1, a2, a3, b0, b1, c0, c1, o0, o1, o2, o3⟩ := idx_facts t
  have ht : t.val = (i 0).val / 20 := rfl
  refine ⟨t, flush0_3 t, ?_⟩
  show i ∈ ((View.whole main_v8).slice (win0_3.rect t)).set
  rw [View.set_slice_whole, Rect.mem_set_unit]
  intro a
  match a with
  | ⟨0, _⟩ => show win0_3.index t (0 : Fin 4) * 20 ≤ (i 0).val ∧ (i 0).val < win0_3.index t (0 : Fin 4) * 20 + 20; omega
  | ⟨1, _⟩ => show win0_3.index t (1 : Fin 4) * 8 ≤ (i 1).val ∧ (i 1).val < win0_3.index t (1 : Fin 4) * 8 + 8; omega
  | ⟨2, _⟩ => show win0_3.index t (2 : Fin 4) * 64 ≤ (i 2).val ∧ (i 2).val < win0_3.index t (2 : Fin 4) * 64 + 64; omega
  | ⟨3, _⟩ => show win0_3.index t (3 : Fin 4) * 16 ≤ (i 3).val ∧ (i 3).val < win0_3.index t (3 : Fin 4) * 16 + 16; omega

/-- The output array after the region. -/
theorem out_eq (c : Dev nD) (G : S200x8x64x16.Idx → EReal)
    (h : S200x8x64x16.Idx → EReal) (w : S16x16.Idx → EReal) (bb : S1x16.Idx → EReal)
    (hh : V c main_v7 = h) (hw : V c main_arg2 = w) (hb : V c main_v0 = bb)
    (hG : ∀ (r : Fin 200) (b : Fin 8) (u : Fin 64) (f : Fin 16), G (ix4 r b u f)
      = (∑ d : Fin 16, h (ix4 r b u d) * w (ix2 f d)) + bb (ix2 0 f)) :
    (dat0 V c).arrAt 3 cfg0.N = G :=
  (dat0 V c).arrAt_eq_of_cover 3 G (fun t _ => flushed_eq V c G h w bb hh hw hb hG t) cover

end Cert.KernelIdeal.Region0

end
-- ==== Proof.Region1.lean ====
/-
  Region 1: the combining step over 600 rows of [8,64,16] entries, 30 blocks of 20 rows.

  Point t of the grid takes rows 20t .. 20t+19 of the gathered array, of the node features and of the per-row scales,
  and writes the same rows of the output: out(r,b,u,f) = g(r,b,u,f) * scale(r,0,0,f) + xc(r,b,u,f).
-/
import proofs.«131250_j59665685676269_2_alg».proof.Proof.Gen.KernelIdeal.Frame
import proofs.«131250_j59665685676269_2_alg».proof.Proof.Blocks

set_option maxRecDepth 16384

noncomputable section

open scoped BigOperators

namespace Cert.KernelIdeal.Region1

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The index maps over the grid: every window sits at block t of its leading axis. -/
theorem idx_facts : ∀ t : Fin cfg1.N,
      win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 4) = t.val ∧ win1_2.index t (1 : Fin 4) = 0 ∧ win1_2.index t (2 : Fin 4) = 0 ∧ win1_2.index t (3 : Fin 4) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

/-- What point t writes back is block t of any array G that is the combination of the region's entry arrays. -/
theorem flushed_eq (c : Dev nD) (G : S600x8x64x16.Idx → EReal)
    (gg : S600x8x64x16.Idx → EReal) (ss : S600x1x1x16.Idx → EReal) (xx : S600x8x64x16.Idx → EReal)
    (hg : V c main_v15 = gg) (hs : V c main_v31 = ss) (hx : V c main_v38 = xx)
    (hG : ∀ (r : Fin 600) (b : Fin 8) (u : Fin 64) (f : Fin 16), G (ix4 r b u f)
      = gg (ix4 r b u f) * ss (ix4 r 0 0 f) + xx (ix4 r b u f))
    (t : Fin cfg1.N) :
    (dat1 V c).flushed 3 t = ((cfg1.win 3).blk t).view.read (Elt Ideal) G := by
  subst hg hs hx
  show (cfg1.win 3).cut (grid1.coords t) ((dat1 V c).after 3 t) = _
  rw [after1_3]
  unfold out1_3
  rw [View.canon_unit_zero hz4]
  simp only [View.ld_unit_zero (S := S20x8x64x16) hz4, View.ld_unit_zero (S := S20x1x1x16) hz4]
  obtain ⟨a0, a1, a2, a3, b0, b1, b2, b3, c0, c1, c2, c3, o0, o1, o2, o3⟩ := idx_facts t
  have hN : t.val < 30 := t.isLt
  funext j
  have hj0 : (j 0).val < 20 := (j 0).isLt
  have hj1 : (j 1).val < 8 := (j 1).isLt
  have hj2 : (j 2).val < 64 := (j 2).isLt
  have hj3 : (j 3).val < 16 := (j 3).isLt
  have hI : ((cfg1.win 3).blk t).view.emb j
      = ix4 (⟨t.val * 20 + (j 0).val, by omega⟩ : Fin 600) (⟨(j 1).val, hj1⟩ : Fin 8) (⟨(j 2).val, hj2⟩ : Fin 64) (⟨(j 3).val, hj3⟩ : Fin 16) := by
    funext a; apply Fin.ext
    match a with
    | ⟨0, _⟩ => show win1_3.index t (0 : Fin 4) * 20 + 1 * (j 0).val = t.val * 20 + (j 0).val; omega
    | ⟨1, _⟩ => show win1_3.index t (1 : Fin 4) * 8 + 1 * (j 1).val = (j 1).val; omega
    | ⟨2, _⟩ => show win1_3.index t (2 : Fin 4) * 64 + 1 * (j 2).val = (j 2).val; omega
    | ⟨3, _⟩ => show win1_3.index t (3 : Fin 4) * 16 + 1 * (j 3).val = (j 3).val; omega
  have h0 : ((cfg1.win 0).blk t).view.emb j
      = ix4 (⟨t.val * 20 + (j 0).val, by omega⟩ : Fin 600) (⟨(j 1).val, hj1⟩ : Fin 8) (⟨(j 2).val, hj2⟩ : Fin 64) (⟨(j 3).val, hj3⟩ : Fin 16) := by
    funext a; apply Fin.ext
    match a with
    | ⟨0, _⟩ => show win1_0.index t (0 : Fin 4) * 20 + 1 * (j 0).val = t.val * 20 + (j 0).val; omega
    | ⟨1, _⟩ => show win1_0.index t (1 : Fin 4) * 8 + 1 * (j 1).val = (j 1).val; omega
    | ⟨2, _⟩ => show win1_0.index t (2 : Fin 4) * 64 + 1 * (j 2).val = (j 2).val; omega
    | ⟨3, _⟩ => show win1_0.index t (3 : Fin 4) * 16 + 1 * (j 3).val = (j 3).val; omega
  have h1 : ((cfg1.win 1).blk t).view.emb j
      = ix4 (⟨t.val * 20 + (j 0).val, by omega⟩ : Fin 600) (⟨(j 1).val, hj1⟩ : Fin 8) (⟨(j 2).val, hj2⟩ : Fin 64) (⟨(j 3).val, hj3⟩ : Fin 16) := by
    funext a; apply Fin.ext
    match a with
    | ⟨0, _⟩ => show win1_1.index t (0 : Fin 4) * 20 + 1 * (j 0).val = t.val * 20 + (j 0).val; omega
    | ⟨1, _⟩ => show win1_1.index t (1 : Fin 4) * 8 + 1 * (j 1).val = (j 1).val; omega
    | ⟨2, _⟩ => show win1_1.index t (2 : Fin 4) * 64 + 1 * (j 2).val = (j 2).val; omega
    | ⟨3, _⟩ => show win1_1.index t (3 : Fin 4) * 16 + 1 * (j 3).val = (j 3).val; omega
  have h2 : ((cfg1.win 2).blk t).view.emb (ix4 (j 0) 0 0 (j 3))
      = ix4 (⟨t.val * 20 + (j 0).val, by omega⟩ : Fin 600) (0 : Fin 1) (0 : Fin 1) (⟨(j 3).val, hj3⟩ : Fin 16) := by
    funext a; apply Fin.ext
    match a with
    | ⟨0, _⟩ => show win1_2.index t (0 : Fin 4) * 20 + 1 * (j 0).val = t.val * 20 + (j 0).val; omega
    | ⟨1, _⟩ => show win1_2.index t (1 : Fin 4) * 1 + 1 * 0 = 0; omega
    | ⟨2, _⟩ => show win1_2.index t (2 : Fin 4) * 1 + 1 * 0 = 0; omega
    | ⟨3, _⟩ => show win1_2.index t (3 : Fin 4) * 16 + 1 * (j 3).val = (j 3).val; omega
  show k1_pay1 (F := Ideal) (fun y => V c main_v15 (((cfg1.win 0).blk t).view.emb y)) (fun y => V c main_v31 (((cfg1.win 2).blk t).view.emb y))
      (fun y => V c main_v38 (((cfg1.win 1).blk t).view.emb y)) j = G (((cfg1.win 3).blk t).view.emb j)
  rw [hI, hG]
  refine (Blocks.combine_point _ _ _ j).trans ?_
  refine congrArg₂ (· + ·) (congrArg₂ (· * ·) ?_ ?_) ?_
  · exact congrArg (V c main_v15) h0
  · exact congrArg (V c main_v31) h2
  · exact congrArg (V c main_v38) h1

/-- Every row lies in some block: row r in block r / 20. -/
theorem cover (i : S600x8x64x16.Idx) :
    ∃ t : Fin cfg1.N, (cfg1.win 3).flush t = true ∧ i ∈ ((cfg1.win 3).blk t).view.set := by
  have hi0 : (i 0).val < 600 := (i 0).isLt
  have hi1 : (i 1).val < 8 := (i 1).isLt
  have hi2 : (i 2).val < 64 := (i 2).isLt
  have hi3 : (i 3).val < 16 := (i 3).isLt
  have hN : grid1.N = 30 := N_1
  let t : Fin cfg1.N := ⟨(i 0).val / 20, by show (i 0).val / 20 < grid1.N; rw [hN]; omega⟩
  obtain ⟨-, -, -, -, -, -, -, -, -, -, -, -, o0, o1, o2, o3⟩ := idx_facts t
  have ht : t.val = (i 0).val / 20 := rfl
  refine ⟨t, flush1_3 t, ?_⟩
  show i ∈ ((View.whole main_v39).slice (win1_3.rect t)).set
  rw [View.set_slice_whole, Rect.mem_set_unit]
  intro a
  match a with
  | ⟨0, _⟩ => show win1_3.index t (0 : Fin 4) * 20 ≤ (i 0).val ∧ (i 0).val < win1_3.index t (0 : Fin 4) * 20 + 20; omega
  | ⟨1, _⟩ => show win1_3.index t (1 : Fin 4) * 8 ≤ (i 1).val ∧ (i 1).val < win1_3.index t (1 : Fin 4) * 8 + 8; omega
  | ⟨2, _⟩ => show win1_3.index t (2 : Fin 4) * 64 ≤ (i 2).val ∧ (i 2).val < win1_3.index t (2 : Fin 4) * 64 + 64; omega
  | ⟨3, _⟩ => show win1_3.index t (3 : Fin 4) * 16 ≤ (i 3).val ∧ (i 3).val < win1_3.index t (3 : Fin 4) * 16 + 16; omega

/-- The output array after the region. -/
theorem out_eq (c : Dev nD) (G : S600x8x64x16.Idx → EReal)
    (gg : S600x8x64x16.Idx → EReal) (ss : S600x1x1x16.Idx → EReal) (xx : S600x8x64x16.Idx → EReal)
    (hg : V c main_v15 = gg) (hs : V c main_v31 = ss) (hx : V c main_v38 = xx)
    (hG : ∀ (r : Fin 600) (b : Fin 8) (u : Fin 64) (f : Fin 16), G (ix4 r b u f)
      = gg (ix4 r b u f) * ss (ix4 r 0 0 f) + xx (ix4 r b u f)) :
    (dat1 V c).arrAt 3 cfg1.N = G :=
  (dat1 V c).arrAt_eq_of_cover 3 G (fun t _ => flushed_eq V c G gg ss xx hg hs hx hG t) cover

end Cert.KernelIdeal.Region1

end
-- ==== Proof.Region2.lean ====
/-
  Region 2: the dense layer over 600 rows of [8,64,16] entries, 30 blocks of 20 rows.

  Point t of the grid takes rows 20t .. 20t+19 of the input array, the whole weight matrix and the whole bias row, and
  writes rows 20t .. 20t+19 of the output.  So the output array after the region is, entry by entry,
  out(r,b,u,f) = sum over d of in(r,b,u,d) * W(f,d) + bias(0,f): every row r lies in block r / 20.
-/
import proofs.«131250_j59665685676269_2_alg».proof.Proof.Gen.KernelIdeal.Frame
import proofs.«131250_j59665685676269_2_alg».proof.Proof.Blocks

set_option maxRecDepth 16384

noncomputable section

open scoped BigOperators

namespace Cert.KernelIdeal.Region2

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps over the grid: the row windows sit at block t, the weight and bias windows at block 0. -/
theorem idx_facts : ∀ t : Fin cfg2.N,
      win2_0.index t (0 : Fin 4) = t.val ∧ win2_0.index t (1 : Fin 4) = 0 ∧ win2_0.index t (2 : Fin 4) = 0 ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 4) = t.val ∧ win2_3.index t (1 : Fin 4) = 0 ∧ win2_3.index t (2 : Fin 4) = 0 ∧ win2_3.index t (3 : Fin 4) = 0 :=
  (by decide +kernel : ∀ t : Fin grid2.N, _)

/-- What point t writes back is block t of any array G that is the dense layer of the region's entry arrays. -/
theorem flushed_eq (c : Dev nD) (G : S600x8x64x16.Idx → EReal)
    (h : S600x8x64x16.Idx → EReal) (w : S16x16.Idx → EReal) (bb : S1x16.Idx → EReal)
    (hh : V c main_v39 = h) (hw : V c main_arg2 = w) (hb : V c main_v0 = bb)
    (hG : ∀ (r : Fin 600) (b : Fin 8) (u : Fin 64) (f : Fin 16), G (ix4 r b u f)
      = (∑ d : Fin 16, h (ix4 r b u d) * w (ix2 f d)) + bb (ix2 0 f))
    (t : Fin cfg2.N) :
    (dat2 V c).flushed 3 t = ((cfg2.win 3).blk t).view.read (Elt Ideal) G := by
  subst hh hw hb
  show (cfg2.win 3).cut (grid2.coords t) ((dat2 V c).after 3 t) = _
  rw [after2_3]
  unfold out2_3
  rw [View.canon_unit_zero hz4]
  simp only [View.ld_unit_zero (S := S20x8x64x16) hz4, View.ld_unit_zero (S := S16x16) hz2, View.ld_unit_zero (S := S1x16) hz2]
  obtain ⟨a0, a1, a2, a3, b0, b1, c0, c1, o0, o1, o2, o3⟩ := idx_facts t
  have hN : t.val < 30 := t.isLt
  funext j
  have hj0 : (j 0).val < 20 := (j 0).isLt
  have hj1 : (j 1).val < 8 := (j 1).isLt
  have hj2 : (j 2).val < 64 := (j 2).isLt
  have hj3 : (j 3).val < 16 := (j 3).isLt
  have hI : ((cfg2.win 3).blk t).view.emb j
      = ix4 (⟨t.val * 20 + (j 0).val, by omega⟩ : Fin 600) (⟨(j 1).val, hj1⟩ : Fin 8) (⟨(j 2).val, hj2⟩ : Fin 64) (⟨(j 3).val, hj3⟩ : Fin 16) := by
    funext a; apply Fin.ext
    match a with
    | ⟨0, _⟩ => show win2_3.index t (0 : Fin 4) * 20 + 1 * (j 0).val = t.val * 20 + (j 0).val; omega
    | ⟨1, _⟩ => show win2_3.index t (1 : Fin 4) * 8 + 1 * (j 1).val = (j 1).val; omega
    | ⟨2, _⟩ => show win2_3.index t (2 : Fin 4) * 64 + 1 * (j 2).val = (j 2).val; omega
    | ⟨3, _⟩ => show win2_3.index t (3 : Fin 4) * 16 + 1 * (j 3).val = (j 3).val; omega
  have h0 : ∀ d : Fin 16, ((cfg2.win 0).blk t).view.emb (ix4 (j 0) (j 1) (j 2) d)
      = ix4 (⟨t.val * 20 + (j 0).val, by omega⟩ : Fin 600) (⟨(j 1).val, hj1⟩ : Fin 8) (⟨(j 2).val, hj2⟩ : Fin 64) d := by
    intro d; funext a; apply Fin.ext
    match a with
    | ⟨0, _⟩ => show win2_0.index t (0 : Fin 4) * 20 + 1 * (j 0).val = t.val * 20 + (j 0).val; omega
    | ⟨1, _⟩ => show win2_0.index t (1 : Fin 4) * 8 + 1 * (j 1).val = (j 1).val; omega
    | ⟨2, _⟩ => show win2_0.index t (2 : Fin 4) * 64 + 1 * (j 2).val = (j 2).val; omega
    | ⟨3, _⟩ => show win2_0.index t (3 : Fin 4) * 16 + 1 * d.val = d.val; omega
  have h1 : ∀ d : Fin 16, ((cfg2.win 1).blk t).view.emb (ix2 (j 3) d) = ix2 (⟨(j 3).val, hj3⟩ : Fin 16) d := by
    intro d; funext a; apply Fin.ext
    match a with
    | ⟨0, _⟩ => show win2_1.index t (0 : Fin 2) * 16 + 1 * (j 3).val = (j 3).val; omega
    | ⟨1, _⟩ => show win2_1.index t (1 : Fin 2) * 16 + 1 * d.val = d.val; omega
  have h2 : ((cfg2.win 2).blk t).view.emb (ix2 0 (j 3)) = ix2 (0 : Fin 1) (⟨(j 3).val, hj3⟩ : Fin 16) := by
    funext a; apply Fin.ext
    match a with
    | ⟨0, _⟩ => show win2_2.index t (0 : Fin 2) * 1 + 1 * 0 = 0; omega
    | ⟨1, _⟩ => show win2_2.index t (1 : Fin 2) * 16 + 1 * (j 3).val = (j 3).val; omega
  show k2_pay1 (F := Ideal) (fun y => V c main_v39 (((cfg2.win 0).blk t).view.emb y)) (fun y => V c main_arg2 (((cfg2.win 1).blk t).view.emb y))
      (fun y => V c main_v0 (((cfg2.win 2).blk t).view.emb y)) j = G (((cfg2.win 3).blk t).view.emb j)
  rw [hI, hG, Blocks.k2_eq]
  refine (Blocks.fc_point _ _ _ j).trans ?_
  refine congrArg₂ (· + ·) (Finset.sum_congr rfl fun d _ => congrArg₂ (· * ·) ?_ ?_) ?_
  · exact congrArg (V c main_v39) (h0 d)
  · exact congrArg (V c main_arg2) (h1 d)
  · exact congrArg (V c main_v0) h2

/-- Every row lies in some block: row r in block r / 20. -/
theorem cover (i : S600x8x64x16.Idx) :
    ∃ t : Fin cfg2.N, (cfg2.win 3).flush t = true ∧ i ∈ ((cfg2.win 3).blk t).view.set := by
  have hi0 : (i 0).val < 600 := (i 0).isLt
  have hi1 : (i 1).val < 8 := (i 1).isLt
  have hi2 : (i 2).val < 64 := (i 2).isLt
  have hi3 : (i 3).val < 16 := (i 3).isLt
  have hN : grid2.N = 30 := N_2
  let t : Fin cfg2.N := ⟨(i 0).val / 20, by show (i 0).val / 20 < grid2.N; rw [hN]; omega⟩
  obtain ⟨a0, a1, a2, a3, b0, b1, c0, c1, o0, o1, o2, o3⟩ := idx_facts t
  have ht : t.val = (i 0).val / 20 := rfl
  refine ⟨t, flush2_3 t, ?_⟩
  show i ∈ ((View.whole main_v40).slice (win2_3.rect t)).set
  rw [View.set_slice_whole, Rect.mem_set_unit]
  intro a
  match a with
  | ⟨0, _⟩ => show win2_3.index t (0 : Fin 4) * 20 ≤ (i 0).val ∧ (i 0).val < win2_3.index t (0 : Fin 4) * 20 + 20; omega
  | ⟨1, _⟩ => show win2_3.index t (1 : Fin 4) * 8 ≤ (i 1).val ∧ (i 1).val < win2_3.index t (1 : Fin 4) * 8 + 8; omega
  | ⟨2, _⟩ => show win2_3.index t (2 : Fin 4) * 64 ≤ (i 2).val ∧ (i 2).val < win2_3.index t (2 : Fin 4) * 64 + 64; omega
  | ⟨3, _⟩ => show win2_3.index t (3 : Fin 4) * 16 ≤ (i 3).val ∧ (i 3).val < win2_3.index t (3 : Fin 4) * 16 + 16; omega

/-- The output array after the region. -/
theorem out_eq (c : Dev nD) (G : S600x8x64x16.Idx → EReal)
    (h : S600x8x64x16.Idx → EReal) (w : S16x16.Idx → EReal) (bb : S1x16.Idx → EReal)
    (hh : V c main_v39 = h) (hw : V c main_arg2 = w) (hb : V c main_v0 = bb)
    (hG : ∀ (r : Fin 600) (b : Fin 8) (u : Fin 64) (f : Fin 16), G (ix4 r b u f)
      = (∑ d : Fin 16, h (ix4 r b u d) * w (ix2 f d)) + bb (ix2 0 f)) :
    (dat2 V c).arrAt 3 cfg2.N = G :=
  (dat2 V c).arrAt_eq_of_cover 3 G (fun t _ => flushed_eq V c G h w bb hh hw hb hG t) cover

end Cert.KernelIdeal.Region2

end
-- ==== Proof.Region3.lean ====
/-
  Region 3: the combining step over 1800 rows of [8,64,16] entries, 90 blocks of 20 rows.

  Point t of the grid takes rows 20t .. 20t+19 of the gathered array, of the node features and of the per-row scales,
  and writes the same rows of the output: out(r,b,u,f) = g(r,b,u,f) * scale(r,0,0,f) + xc(r,b,u,f).
-/
import proofs.«131250_j59665685676269_2_alg».proof.Proof.Gen.KernelIdeal.Frame
import proofs.«131250_j59665685676269_2_alg».proof.Proof.Blocks

set_option maxRecDepth 16384

noncomputable section

open scoped BigOperators

namespace Cert.KernelIdeal.Region3

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The index maps over the grid: every window sits at block t of its leading axis. -/
theorem idx_facts : ∀ t : Fin cfg3.N,
      win3_0.index t (0 : Fin 4) = t.val ∧ win3_0.index t (1 : Fin 4) = 0 ∧ win3_0.index t (2 : Fin 4) = 0 ∧ win3_0.index t (3 : Fin 4) = 0
    ∧ win3_1.index t (0 : Fin 4) = t.val ∧ win3_1.index t (1 : Fin 4) = 0 ∧ win3_1.index t (2 : Fin 4) = 0 ∧ win3_1.index t (3 : Fin 4) = 0
    ∧ win3_2.index t (0 : Fin 4) = t.val ∧ win3_2.index t (1 : Fin 4) = 0 ∧ win3_2.index t (2 : Fin 4) = 0 ∧ win3_2.index t (3 : Fin 4) = 0
    ∧ win3_3.index t (0 : Fin 4) = t.val ∧ win3_3.index t (1 : Fin 4) = 0 ∧ win3_3.index t (2 : Fin 4) = 0 ∧ win3_3.index t (3 : Fin 4) = 0 :=
  (by decide +kernel : ∀ t : Fin grid3.N, _)

/-- What point t writes back is block t of any array G that is the combination of the region's entry arrays. -/
theorem flushed_eq (c : Dev nD) (G : S1800x8x64x16.Idx → EReal)
    (gg : S1800x8x64x16.Idx → EReal) (ss : S1800x1x1x16.Idx → EReal) (xx : S1800x8x64x16.Idx → EReal)
    (hg : V c main_v47 = gg) (hs : V c main_v63 = ss) (hx : V c main_v70 = xx)
    (hG : ∀ (r : Fin 1800) (b : Fin 8) (u : Fin 64) (f : Fin 16), G (ix4 r b u f)
      = gg (ix4 r b u f) * ss (ix4 r 0 0 f) + xx (ix4 r b u f))
    (t : Fin cfg3.N) :
    (dat3 V c).flushed 3 t = ((cfg3.win 3).blk t).view.read (Elt Ideal) G := by
  subst hg hs hx
  show (cfg3.win 3).cut (grid3.coords t) ((dat3 V c).after 3 t) = _
  rw [after3_3]
  unfold out3_3
  rw [View.canon_unit_zero hz4]
  simp only [View.ld_unit_zero (S := S20x8x64x16) hz4, View.ld_unit_zero (S := S20x1x1x16) hz4]
  obtain ⟨a0, a1, a2, a3, b0, b1, b2, b3, c0, c1, c2, c3, o0, o1, o2, o3⟩ := idx_facts t
  have hN : t.val < 90 := t.isLt
  funext j
  have hj0 : (j 0).val < 20 := (j 0).isLt
  have hj1 : (j 1).val < 8 := (j 1).isLt
  have hj2 : (j 2).val < 64 := (j 2).isLt
  have hj3 : (j 3).val < 16 := (j 3).isLt
  have hI : ((cfg3.win 3).blk t).view.emb j
      = ix4 (⟨t.val * 20 + (j 0).val, by omega⟩ : Fin 1800) (⟨(j 1).val, hj1⟩ : Fin 8) (⟨(j 2).val, hj2⟩ : Fin 64) (⟨(j 3).val, hj3⟩ : Fin 16) := by
    funext a; apply Fin.ext
    match a with
    | ⟨0, _⟩ => show win3_3.index t (0 : Fin 4) * 20 + 1 * (j 0).val = t.val * 20 + (j 0).val; omega
    | ⟨1, _⟩ => show win3_3.index t (1 : Fin 4) * 8 + 1 * (j 1).val = (j 1).val; omega
    | ⟨2, _⟩ => show win3_3.index t (2 : Fin 4) * 64 + 1 * (j 2).val = (j 2).val; omega
    | ⟨3, _⟩ => show win3_3.index t (3 : Fin 4) * 16 + 1 * (j 3).val = (j 3).val; omega
  have h0 : ((cfg3.win 0).blk t).view.emb j
      = ix4 (⟨t.val * 20 + (j 0).val, by omega⟩ : Fin 1800) (⟨(j 1).val, hj1⟩ : Fin 8) (⟨(j 2).val, hj2⟩ : Fin 64) (⟨(j 3).val, hj3⟩ : Fin 16) := by
    funext a; apply Fin.ext
    match a with
    | ⟨0, _⟩ => show win3_0.index t (0 : Fin 4) * 20 + 1 * (j 0).val = t.val * 20 + (j 0).val; omega
    | ⟨1, _⟩ => show win3_0.index t (1 : Fin 4) * 8 + 1 * (j 1).val = (j 1).val; omega
    | ⟨2, _⟩ => show win3_0.index t (2 : Fin 4) * 64 + 1 * (j 2).val = (j 2).val; omega
    | ⟨3, _⟩ => show win3_0.index t (3 : Fin 4) * 16 + 1 * (j 3).val = (j 3).val; omega
  have h1 : ((cfg3.win 1).blk t).view.emb j
      = ix4 (⟨t.val * 20 + (j 0).val, by omega⟩ : Fin 1800) (⟨(j 1).val, hj1⟩ : Fin 8) (⟨(j 2).val, hj2⟩ : Fin 64) (⟨(j 3).val, hj3⟩ : Fin 16) := by
    funext a; apply Fin.ext
    match a with
    | ⟨0, _⟩ => show win3_1.index t (0 : Fin 4) * 20 + 1 * (j 0).val = t.val * 20 + (j 0).val; omega
    | ⟨1, _⟩ => show win3_1.index t (1 : Fin 4) * 8 + 1 * (j 1).val = (j 1).val; omega
    | ⟨2, _⟩ => show win3_1.index t (2 : Fin 4) * 64 + 1 * (j 2).val = (j 2).val; omega
    | ⟨3, _⟩ => show win3_1.index t (3 : Fin 4) * 16 + 1 * (j 3).val = (j 3).val; omega
  have h2 : ((cfg3.win 2).blk t).view.emb (ix4 (j 0) 0 0 (j 3))
      = ix4 (⟨t.val * 20 + (j 0).val, by omega⟩ : Fin 1800) (0 : Fin 1) (0 : Fin 1) (⟨(j 3).val, hj3⟩ : Fin 16) := by
    funext a; apply Fin.ext
    match a with
    | ⟨0, _⟩ => show win3_2.index t (0 : Fin 4) * 20 + 1 * (j 0).val = t.val * 20 + (j 0).val; omega
    | ⟨1, _⟩ => show win3_2.index t (1 : Fin 4) * 1 + 1 * 0 = 0; omega
    | ⟨2, _⟩ => show win3_2.index t (2 : Fin 4) * 1 + 1 * 0 = 0; omega
    | ⟨3, _⟩ => show win3_2.index t (3 : Fin 4) * 16 + 1 * (j 3).val = (j 3).val; omega
  show k3_pay1 (F := Ideal) (fun y => V c main_v47 (((cfg3.win 0).blk t).view.emb y)) (fun y => V c main_v63 (((cfg3.win 2).blk t).view.emb y))
      (fun y => V c main_v70 (((cfg3.win 1).blk t).view.emb y)) j = G (((cfg3.win 3).blk t).view.emb j)
  rw [hI, hG, Blocks.k3_eq]
  refine (Blocks.combine_point _ _ _ j).trans ?_
  refine congrArg₂ (· + ·) (congrArg₂ (· * ·) ?_ ?_) ?_
  · exact congrArg (V c main_v47) h0
  · exact congrArg (V c main_v63) h2
  · exact congrArg (V c main_v70) h1

/-- Every row lies in some block: row r in block r / 20. -/
theorem cover (i : S1800x8x64x16.Idx) :
    ∃ t : Fin cfg3.N, (cfg3.win 3).flush t = true ∧ i ∈ ((cfg3.win 3).blk t).view.set := by
  have hi0 : (i 0).val < 1800 := (i 0).isLt
  have hi1 : (i 1).val < 8 := (i 1).isLt
  have hi2 : (i 2).val < 64 := (i 2).isLt
  have hi3 : (i 3).val < 16 := (i 3).isLt
  have hN : grid3.N = 90 := N_3
  let t : Fin cfg3.N := ⟨(i 0).val / 20, by show (i 0).val / 20 < grid3.N; rw [hN]; omega⟩
  obtain ⟨-, -, -, -, -, -, -, -, -, -, -, -, o0, o1, o2, o3⟩ := idx_facts t
  have ht : t.val = (i 0).val / 20 := rfl
  refine ⟨t, flush3_3 t, ?_⟩
  show i ∈ ((View.whole main_v71).slice (win3_3.rect t)).set
  rw [View.set_slice_whole, Rect.mem_set_unit]
  intro a
  match a with
  | ⟨0, _⟩ => show win3_3.index t (0 : Fin 4) * 20 ≤ (i 0).val ∧ (i 0).val < win3_3.index t (0 : Fin 4) * 20 + 20; omega
  | ⟨1, _⟩ => show win3_3.index t (1 : Fin 4) * 8 ≤ (i 1).val ∧ (i 1).val < win3_3.index t (1 : Fin 4) * 8 + 8; omega
  | ⟨2, _⟩ => show win3_3.index t (2 : Fin 4) * 64 ≤ (i 2).val ∧ (i 2).val < win3_3.index t (2 : Fin 4) * 64 + 64; omega
  | ⟨3, _⟩ => show win3_3.index t (3 : Fin 4) * 16 ≤ (i 3).val ∧ (i 3).val < win3_3.index t (3 : Fin 4) * 16 + 16; omega

/-- The output array after the region. -/
theorem out_eq (c : Dev nD) (G : S1800x8x64x16.Idx → EReal)
    (gg : S1800x8x64x16.Idx → EReal) (ss : S1800x1x1x16.Idx → EReal) (xx : S1800x8x64x16.Idx → EReal)
    (hg : V c main_v47 = gg) (hs : V c main_v63 = ss) (hx : V c main_v70 = xx)
    (hG : ∀ (r : Fin 1800) (b : Fin 8) (u : Fin 64) (f : Fin 16), G (ix4 r b u f)
      = gg (ix4 r b u f) * ss (ix4 r 0 0 f) + xx (ix4 r b u f)) :
    (dat3 V c).arrAt 3 cfg3.N = G :=
  (dat3 V c).arrAt_eq_of_cover 3 G (fun t _ => flushed_eq V c G gg ss xx hg hs hx hG t) cover

end Cert.KernelIdeal.Region3

end
-- ==== Proof.Region4.lean ====
/-
  Region 4: the dense layer over 1800 rows of [8,64,16] entries, 90 blocks of 20 rows.

  Point t of the grid takes rows 20t .. 20t+19 of the input array, the whole weight matrix and the whole bias row, and
  writes rows 20t .. 20t+19 of the output.  So the output array after the region is, entry by entry,
  out(r,b,u,f) = sum over d of in(r,b,u,d) * W(f,d) + bias(0,f): every row r lies in block r / 20.
-/
import proofs.«131250_j59665685676269_2_alg».proof.Proof.Gen.KernelIdeal.Frame
import proofs.«131250_j59665685676269_2_alg».proof.Proof.Blocks

set_option maxRecDepth 16384

noncomputable section

open scoped BigOperators

namespace Cert.KernelIdeal.Region4

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps over the grid: the row windows sit at block t, the weight and bias windows at block 0. -/
theorem idx_facts : ∀ t : Fin cfg4.N,
      win4_0.index t (0 : Fin 4) = t.val ∧ win4_0.index t (1 : Fin 4) = 0 ∧ win4_0.index t (2 : Fin 4) = 0 ∧ win4_0.index t (3 : Fin 4) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 4) = t.val ∧ win4_3.index t (1 : Fin 4) = 0 ∧ win4_3.index t (2 : Fin 4) = 0 ∧ win4_3.index t (3 : Fin 4) = 0 :=
  (by decide +kernel : ∀ t : Fin grid4.N, _)

/-- What point t writes back is block t of any array G that is the dense layer of the region's entry arrays. -/
theorem flushed_eq (c : Dev nD) (G : S1800x8x64x16.Idx → EReal)
    (h : S1800x8x64x16.Idx → EReal) (w : S16x16.Idx → EReal) (bb : S1x16.Idx → EReal)
    (hh : V c main_v71 = h) (hw : V c main_arg2 = w) (hb : V c main_v0 = bb)
    (hG : ∀ (r : Fin 1800) (b : Fin 8) (u : Fin 64) (f : Fin 16), G (ix4 r b u f)
      = (∑ d : Fin 16, h (ix4 r b u d) * w (ix2 f d)) + bb (ix2 0 f))
    (t : Fin cfg4.N) :
    (dat4 V c).flushed 3 t = ((cfg4.win 3).blk t).view.read (Elt Ideal) G := by
  subst hh hw hb
  show (cfg4.win 3).cut (grid4.coords t) ((dat4 V c).after 3 t) = _
  rw [after4_3]
  unfold out4_3
  rw [View.canon_unit_zero hz4]
  simp only [View.ld_unit_zero (S := S20x8x64x16) hz4, View.ld_unit_zero (S := S16x16) hz2, View.ld_unit_zero (S := S1x16) hz2]
  obtain ⟨a0, a1, a2, a3, b0, b1, c0, c1, o0, o1, o2, o3⟩ := idx_facts t
  have hN : t.val < 90 := t.isLt
  funext j
  have hj0 : (j 0).val < 20 := (j 0).isLt
  have hj1 : (j 1).val < 8 := (j 1).isLt
  have hj2 : (j 2).val < 64 := (j 2).isLt
  have hj3 : (j 3).val < 16 := (j 3).isLt
  have hI : ((cfg4.win 3).blk t).view.emb j
      = ix4 (⟨t.val * 20 + (j 0).val, by omega⟩ : Fin 1800) (⟨(j 1).val, hj1⟩ : Fin 8) (⟨(j 2).val, hj2⟩ : Fin 64) (⟨(j 3).val, hj3⟩ : Fin 16) := by
    funext a; apply Fin.ext
    match a with
    | ⟨0, _⟩ => show win4_3.index t (0 : Fin 4) * 20 + 1 * (j 0).val = t.val * 20 + (j 0).val; omega
    | ⟨1, _⟩ => show win4_3.index t (1 : Fin 4) * 8 + 1 * (j 1).val = (j 1).val; omega
    | ⟨2, _⟩ => show win4_3.index t (2 : Fin 4) * 64 + 1 * (j 2).val = (j 2).val; omega
    | ⟨3, _⟩ => show win4_3.index t (3 : Fin 4) * 16 + 1 * (j 3).val = (j 3).val; omega
  have h0 : ∀ d : Fin 16, ((cfg4.win 0).blk t).view.emb (ix4 (j 0) (j 1) (j 2) d)
      = ix4 (⟨t.val * 20 + (j 0).val, by omega⟩ : Fin 1800) (⟨(j 1).val, hj1⟩ : Fin 8) (⟨(j 2).val, hj2⟩ : Fin 64) d := by
    intro d; funext a; apply Fin.ext
    match a with
    | ⟨0, _⟩ => show win4_0.index t (0 : Fin 4) * 20 + 1 * (j 0).val = t.val * 20 + (j 0).val; omega
    | ⟨1, _⟩ => show win4_0.index t (1 : Fin 4) * 8 + 1 * (j 1).val = (j 1).val; omega
    | ⟨2, _⟩ => show win4_0.index t (2 : Fin 4) * 64 + 1 * (j 2).val = (j 2).val; omega
    | ⟨3, _⟩ => show win4_0.index t (3 : Fin 4) * 16 + 1 * d.val = d.val; omega
  have h1 : ∀ d : Fin 16, ((cfg4.win 1).blk t).view.emb (ix2 (j 3) d) = ix2 (⟨(j 3).val, hj3⟩ : Fin 16) d := by
    intro d; funext a; apply Fin.ext
    match a with
    | ⟨0, _⟩ => show win4_1.index t (0 : Fin 2) * 16 + 1 * (j 3).val = (j 3).val; omega
    | ⟨1, _⟩ => show win4_1.index t (1 : Fin 2) * 16 + 1 * d.val = d.val; omega
  have h2 : ((cfg4.win 2).blk t).view.emb (ix2 0 (j 3)) = ix2 (0 : Fin 1) (⟨(j 3).val, hj3⟩ : Fin 16) := by
    funext a; apply Fin.ext
    match a with
    | ⟨0, _⟩ => show win4_2.index t (0 : Fin 2) * 1 + 1 * 0 = 0; omega
    | ⟨1, _⟩ => show win4_2.index t (1 : Fin 2) * 16 + 1 * (j 3).val = (j 3).val; omega
  show k4_pay1 (F := Ideal) (fun y => V c main_v71 (((cfg4.win 0).blk t).view.emb y)) (fun y => V c main_arg2 (((cfg4.win 1).blk t).view.emb y))
      (fun y => V c main_v0 (((cfg4.win 2).blk t).view.emb y)) j = G (((cfg4.win 3).blk t).view.emb j)
  rw [hI, hG, Blocks.k4_eq]
  refine (Blocks.fc_point _ _ _ j).trans ?_
  refine congrArg₂ (· + ·) (Finset.sum_congr rfl fun d _ => congrArg₂ (· * ·) ?_ ?_) ?_
  · exact congrArg (V c main_v71) (h0 d)
  · exact congrArg (V c main_arg2) (h1 d)
  · exact congrArg (V c main_v0) h2

/-- Every row lies in some block: row r in block r / 20. -/
theorem cover (i : S1800x8x64x16.Idx) :
    ∃ t : Fin cfg4.N, (cfg4.win 3).flush t = true ∧ i ∈ ((cfg4.win 3).blk t).view.set := by
  have hi0 : (i 0).val < 1800 := (i 0).isLt
  have hi1 : (i 1).val < 8 := (i 1).isLt
  have hi2 : (i 2).val < 64 := (i 2).isLt
  have hi3 : (i 3).val < 16 := (i 3).isLt
  have hN : grid4.N = 90 := N_4
  let t : Fin cfg4.N := ⟨(i 0).val / 20, by show (i 0).val / 20 < grid4.N; rw [hN]; omega⟩
  obtain ⟨a0, a1, a2, a3, b0, b1, c0, c1, o0, o1, o2, o3⟩ := idx_facts t
  have ht : t.val = (i 0).val / 20 := rfl
  refine ⟨t, flush4_3 t, ?_⟩
  show i ∈ ((View.whole main_v72).slice (win4_3.rect t)).set
  rw [View.set_slice_whole, Rect.mem_set_unit]
  intro a
  match a with
  | ⟨0, _⟩ => show win4_3.index t (0 : Fin 4) * 20 ≤ (i 0).val ∧ (i 0).val < win4_3.index t (0 : Fin 4) * 20 + 20; omega
  | ⟨1, _⟩ => show win4_3.index t (1 : Fin 4) * 8 ≤ (i 1).val ∧ (i 1).val < win4_3.index t (1 : Fin 4) * 8 + 8; omega
  | ⟨2, _⟩ => show win4_3.index t (2 : Fin 4) * 64 ≤ (i 2).val ∧ (i 2).val < win4_3.index t (2 : Fin 4) * 64 + 64; omega
  | ⟨3, _⟩ => show win4_3.index t (3 : Fin 4) * 16 ≤ (i 3).val ∧ (i 3).val < win4_3.index t (3 : Fin 4) * 16 + 16; omega

/-- The output array after the region. -/
theorem out_eq (c : Dev nD) (G : S1800x8x64x16.Idx → EReal)
    (h : S1800x8x64x16.Idx → EReal) (w : S16x16.Idx → EReal) (bb : S1x16.Idx → EReal)
    (hh : V c main_v71 = h) (hw : V c main_arg2 = w) (hb : V c main_v0 = bb)
    (hG : ∀ (r : Fin 1800) (b : Fin 8) (u : Fin 64) (f : Fin 16), G (ix4 r b u f)
      = (∑ d : Fin 16, h (ix4 r b u d) * w (ix2 f d)) + bb (ix2 0 f)) :
    (dat4 V c).arrAt 3 cfg4.N = G :=
  (dat4 V c).arrAt_eq_of_cover 3 G (fun t _ => flushed_eq V c G h w bb hh hw hb hG t) cover

end Cert.KernelIdeal.Region4

end
-- ==== Proof.Region5.lean ====
/-
  Region 5: the combining step over 5400 rows of [8,64,16] entries, 270 blocks of 20 rows.

  Point t of the grid takes rows 20t .. 20t+19 of the gathered array, of the node features and of the per-row scales,
  and writes the same rows of the output: out(r,b,u,f) = g(r,b,u,f) * scale(r,0,0,f) + xc(r,b,u,f).
-/
import proofs.«131250_j59665685676269_2_alg».proof.Proof.Gen.KernelIdeal.Frame
import proofs.«131250_j59665685676269_2_alg».proof.Proof.Blocks

set_option maxRecDepth 16384

noncomputable section

open scoped BigOperators

namespace Cert.KernelIdeal.Region5

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The index maps over the grid: every window sits at block t of its leading axis. -/
theorem idx_facts : ∀ t : Fin cfg5.N,
      win5_0.index t (0 : Fin 4) = t.val ∧ win5_0.index t (1 : Fin 4) = 0 ∧ win5_0.index t (2 : Fin 4) = 0 ∧ win5_0.index t (3 : Fin 4) = 0
    ∧ win5_1.index t (0 : Fin 4) = t.val ∧ win5_1.index t (1 : Fin 4) = 0 ∧ win5_1.index t (2 : Fin 4) = 0 ∧ win5_1.index t (3 : Fin 4) = 0
    ∧ win5_2.index t (0 : Fin 4) = t.val ∧ win5_2.index t (1 : Fin 4) = 0 ∧ win5_2.index t (2 : Fin 4) = 0 ∧ win5_2.index t (3 : Fin 4) = 0
    ∧ win5_3.index t (0 : Fin 4) = t.val ∧ win5_3.index t (1 : Fin 4) = 0 ∧ win5_3.index t (2 : Fin 4) = 0 ∧ win5_3.index t (3 : Fin 4) = 0 :=
  (by decide +kernel : ∀ t : Fin grid5.N, _)

/-- What point t writes back is block t of any array G that is the combination of the region's entry arrays. -/
theorem flushed_eq (c : Dev nD) (G : S5400x8x64x16.Idx → EReal)
    (gg : S5400x8x64x16.Idx → EReal) (ss : S5400x1x1x16.Idx → EReal) (xx : S5400x8x64x16.Idx → EReal)
    (hg : V c main_v79 = gg) (hs : V c main_v95 = ss) (hx : V c main_v102 = xx)
    (hG : ∀ (r : Fin 5400) (b : Fin 8) (u : Fin 64) (f : Fin 16), G (ix4 r b u f)
      = gg (ix4 r b u f) * ss (ix4 r 0 0 f) + xx (ix4 r b u f))
    (t : Fin cfg5.N) :
    (dat5 V c).flushed 3 t = ((cfg5.win 3).blk t).view.read (Elt Ideal) G := by
  subst hg hs hx
  show (cfg5.win 3).cut (grid5.coords t) ((dat5 V c).after 3 t) = _
  rw [after5_3]
  unfold out5_3
  rw [View.canon_unit_zero hz4]
  simp only [View.ld_unit_zero (S := S20x8x64x16) hz4, View.ld_unit_zero (S := S20x1x1x16) hz4]
  obtain ⟨a0, a1, a2, a3, b0, b1, b2, b3, c0, c1, c2, c3, o0, o1, o2, o3⟩ := idx_facts t
  have hN : t.val < 270 := t.isLt
  funext j
  have hj0 : (j 0).val < 20 := (j 0).isLt
  have hj1 : (j 1).val < 8 := (j 1).isLt
  have hj2 : (j 2).val < 64 := (j 2).isLt
  have hj3 : (j 3).val < 16 := (j 3).isLt
  have hI : ((cfg5.win 3).blk t).view.emb j
      = ix4 (⟨t.val * 20 + (j 0).val, by omega⟩ : Fin 5400) (⟨(j 1).val, hj1⟩ : Fin 8) (⟨(j 2).val, hj2⟩ : Fin 64) (⟨(j 3).val, hj3⟩ : Fin 16) := by
    funext a; apply Fin.ext
    match a with
    | ⟨0, _⟩ => show win5_3.index t (0 : Fin 4) * 20 + 1 * (j 0).val = t.val * 20 + (j 0).val; omega
    | ⟨1, _⟩ => show win5_3.index t (1 : Fin 4) * 8 + 1 * (j 1).val = (j 1).val; omega
    | ⟨2, _⟩ => show win5_3.index t (2 : Fin 4) * 64 + 1 * (j 2).val = (j 2).val; omega
    | ⟨3, _⟩ => show win5_3.index t (3 : Fin 4) * 16 + 1 * (j 3).val = (j 3).val; omega
  have h0 : ((cfg5.win 0).blk t).view.emb j
      = ix4 (⟨t.val * 20 + (j 0).val, by omega⟩ : Fin 5400) (⟨(j 1).val, hj1⟩ : Fin 8) (⟨(j 2).val, hj2⟩ : Fin 64) (⟨(j 3).val, hj3⟩ : Fin 16) := by
    funext a; apply Fin.ext
    match a with
    | ⟨0, _⟩ => show win5_0.index t (0 : Fin 4) * 20 + 1 * (j 0).val = t.val * 20 + (j 0).val; omega
    | ⟨1, _⟩ => show win5_0.index t (1 : Fin 4) * 8 + 1 * (j 1).val = (j 1).val; omega
    | ⟨2, _⟩ => show win5_0.index t (2 : Fin 4) * 64 + 1 * (j 2).val = (j 2).val; omega
    | ⟨3, _⟩ => show win5_0.index t (3 : Fin 4) * 16 + 1 * (j 3).val = (j 3).val; omega
  have h1 : ((cfg5.win 1).blk t).view.emb j
      = ix4 (⟨t.val * 20 + (j 0).val, by omega⟩ : Fin 5400) (⟨(j 1).val, hj1⟩ : Fin 8) (⟨(j 2).val, hj2⟩ : Fin 64) (⟨(j 3).val, hj3⟩ : Fin 16) := by
    funext a; apply Fin.ext
    match a with
    | ⟨0, _⟩ => show win5_1.index t (0 : Fin 4) * 20 + 1 * (j 0).val = t.val * 20 + (j 0).val; omega
    | ⟨1, _⟩ => show win5_1.index t (1 : Fin 4) * 8 + 1 * (j 1).val = (j 1).val; omega
    | ⟨2, _⟩ => show win5_1.index t (2 : Fin 4) * 64 + 1 * (j 2).val = (j 2).val; omega
    | ⟨3, _⟩ => show win5_1.index t (3 : Fin 4) * 16 + 1 * (j 3).val = (j 3).val; omega
  have h2 : ((cfg5.win 2).blk t).view.emb (ix4 (j 0) 0 0 (j 3))
      = ix4 (⟨t.val * 20 + (j 0).val, by omega⟩ : Fin 5400) (0 : Fin 1) (0 : Fin 1) (⟨(j 3).val, hj3⟩ : Fin 16) := by
    funext a; apply Fin.ext
    match a with
    | ⟨0, _⟩ => show win5_2.index t (0 : Fin 4) * 20 + 1 * (j 0).val = t.val * 20 + (j 0).val; omega
    | ⟨1, _⟩ => show win5_2.index t (1 : Fin 4) * 1 + 1 * 0 = 0; omega
    | ⟨2, _⟩ => show win5_2.index t (2 : Fin 4) * 1 + 1 * 0 = 0; omega
    | ⟨3, _⟩ => show win5_2.index t (3 : Fin 4) * 16 + 1 * (j 3).val = (j 3).val; omega
  show k5_pay1 (F := Ideal) (fun y => V c main_v79 (((cfg5.win 0).blk t).view.emb y)) (fun y => V c main_v95 (((cfg5.win 2).blk t).view.emb y))
      (fun y => V c main_v102 (((cfg5.win 1).blk t).view.emb y)) j = G (((cfg5.win 3).blk t).view.emb j)
  rw [hI, hG, Blocks.k5_eq]
  refine (Blocks.combine_point _ _ _ j).trans ?_
  refine congrArg₂ (· + ·) (congrArg₂ (· * ·) ?_ ?_) ?_
  · exact congrArg (V c main_v79) h0
  · exact congrArg (V c main_v95) h2
  · exact congrArg (V c main_v102) h1

/-- Every row lies in some block: row r in block r / 20. -/
theorem cover (i : S5400x8x64x16.Idx) :
    ∃ t : Fin cfg5.N, (cfg5.win 3).flush t = true ∧ i ∈ ((cfg5.win 3).blk t).view.set := by
  have hi0 : (i 0).val < 5400 := (i 0).isLt
  have hi1 : (i 1).val < 8 := (i 1).isLt
  have hi2 : (i 2).val < 64 := (i 2).isLt
  have hi3 : (i 3).val < 16 := (i 3).isLt
  have hN : grid5.N = 270 := N_5
  let t : Fin cfg5.N := ⟨(i 0).val / 20, by show (i 0).val / 20 < grid5.N; rw [hN]; omega⟩
  obtain ⟨-, -, -, -, -, -, -, -, -, -, -, -, o0, o1, o2, o3⟩ := idx_facts t
  have ht : t.val = (i 0).val / 20 := rfl
  refine ⟨t, flush5_3 t, ?_⟩
  show i ∈ ((View.whole main_v103).slice (win5_3.rect t)).set
  rw [View.set_slice_whole, Rect.mem_set_unit]
  intro a
  match a with
  | ⟨0, _⟩ => show win5_3.index t (0 : Fin 4) * 20 ≤ (i 0).val ∧ (i 0).val < win5_3.index t (0 : Fin 4) * 20 + 20; omega
  | ⟨1, _⟩ => show win5_3.index t (1 : Fin 4) * 8 ≤ (i 1).val ∧ (i 1).val < win5_3.index t (1 : Fin 4) * 8 + 8; omega
  | ⟨2, _⟩ => show win5_3.index t (2 : Fin 4) * 64 ≤ (i 2).val ∧ (i 2).val < win5_3.index t (2 : Fin 4) * 64 + 64; omega
  | ⟨3, _⟩ => show win5_3.index t (3 : Fin 4) * 16 ≤ (i 3).val ∧ (i 3).val < win5_3.index t (3 : Fin 4) * 16 + 16; omega

/-- The output array after the region. -/
theorem out_eq (c : Dev nD) (G : S5400x8x64x16.Idx → EReal)
    (gg : S5400x8x64x16.Idx → EReal) (ss : S5400x1x1x16.Idx → EReal) (xx : S5400x8x64x16.Idx → EReal)
    (hg : V c main_v79 = gg) (hs : V c main_v95 = ss) (hx : V c main_v102 = xx)
    (hG : ∀ (r : Fin 5400) (b : Fin 8) (u : Fin 64) (f : Fin 16), G (ix4 r b u f)
      = gg (ix4 r b u f) * ss (ix4 r 0 0 f) + xx (ix4 r b u f)) :
    (dat5 V c).arrAt 3 cfg5.N = G :=
  (dat5 V c).arrAt_eq_of_cover 3 G (fun t _ => flushed_eq V c G gg ss xx hg hs hx hG t) cover

end Cert.KernelIdeal.Region5

end
-- ==== Proof.Region6.lean ====
/-
  Region 6: the closing step over the 2000 node rows, 100 blocks of 20 rows.

  Point t takes rows 20t .. 20t+19 of the segment sums, of the segment counts and of the node features, and writes the
  same rows of the output: with c the count of row r, out(r,b,u,f) is sums(r,b,u,f) / max(c,1) where c > 0, and
  x(r,b,u,f) elsewhere.
-/
import proofs.«131250_j59665685676269_2_alg».proof.Proof.Gen.KernelIdeal.Frame
import proofs.«131250_j59665685676269_2_alg».proof.Proof.Blocks

set_option maxRecDepth 16384

noncomputable section

open scoped BigOperators

namespace Cert.KernelIdeal.Region6

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The index maps over the grid: every window sits at block t of its leading axis. -/
theorem idx_facts : ∀ t : Fin cfg6.N,
      win6_0.index t (0 : Fin 4) = t.val ∧ win6_0.index t (1 : Fin 4) = 0 ∧ win6_0.index t (2 : Fin 4) = 0 ∧ win6_0.index t (3 : Fin 4) = 0
    ∧ win6_1.index t (0 : Fin 4) = t.val ∧ win6_1.index t (1 : Fin 4) = 0 ∧ win6_1.index t (2 : Fin 4) = 0 ∧ win6_1.index t (3 : Fin 4) = 0
    ∧ win6_2.index t (0 : Fin 4) = t.val ∧ win6_2.index t (1 : Fin 4) = 0 ∧ win6_2.index t (2 : Fin 4) = 0 ∧ win6_2.index t (3 : Fin 4) = 0
    ∧ win6_3.index t (0 : Fin 4) = t.val ∧ win6_3.index t (1 : Fin 4) = 0 ∧ win6_3.index t (2 : Fin 4) = 0 ∧ win6_3.index t (3 : Fin 4) = 0 :=
  (by decide +kernel : ∀ t : Fin grid6.N, _)

/-- What point t writes back is block t of any array G that is the closing step of the region's entry arrays. -/
theorem flushed_eq (c : Dev nD) (G : S2000x8x64x16.Idx → EReal)
    (hG : ∀ (r : Fin 2000) (b : Fin 8) (u : Fin 64) (f : Fin 16), G (ix4 r b u f)
      = Scalar.select (FloatOps.cmpf (F := Ideal) .ogt (V c main_v111 (ix4 r 0 0 0)) (Ideal.ofBits .f32 0x00000000#32))
          (Ideal.div (V c main_v106 (ix4 r b u f)) (max (V c main_v111 (ix4 r 0 0 0)) (Ideal.ofBits .f32 0x3F800000#32)))
          (V c main_arg0 (ix4 r b u f)))
    (t : Fin cfg6.N) :
    (dat6 V c).flushed 3 t = ((cfg6.win 3).blk t).view.read (Elt Ideal) G := by
  show (cfg6.win 3).cut (grid6.coords t) ((dat6 V c).after 3 t) = _
  rw [after6_3]
  unfold out6_3
  rw [View.canon_unit_zero hz4]
  simp only [View.ld_unit_zero (S := S20x8x64x16) hz4, View.ld_unit_zero (S := S20x1x1x1) hz4]
  obtain ⟨a0, a1, a2, a3, b0, b1, b2, b3, c0, c1, c2, c3, o0, o1, o2, o3⟩ := idx_facts t
  have hN : t.val < 100 := t.isLt
  funext j
  have hj0 : (j 0).val < 20 := (j 0).isLt
  have hj1 : (j 1).val < 8 := (j 1).isLt
  have hj2 : (j 2).val < 64 := (j 2).isLt
  have hj3 : (j 3).val < 16 := (j 3).isLt
  have hI : ((cfg6.win 3).blk t).view.emb j
      = ix4 (⟨t.val * 20 + (j 0).val, by omega⟩ : Fin 2000) (⟨(j 1).val, hj1⟩ : Fin 8) (⟨(j 2).val, hj2⟩ : Fin 64) (⟨(j 3).val, hj3⟩ : Fin 16) := by
    funext a; apply Fin.ext
    match a with
    | ⟨0, _⟩ => show win6_3.index t (0 : Fin 4) * 20 + 1 * (j 0).val = t.val * 20 + (j 0).val; omega
    | ⟨1, _⟩ => show win6_3.index t (1 : Fin 4) * 8 + 1 * (j 1).val = (j 1).val; omega
    | ⟨2, _⟩ => show win6_3.index t (2 : Fin 4) * 64 + 1 * (j 2).val = (j 2).val; omega
    | ⟨3, _⟩ => show win6_3.index t (3 : Fin 4) * 16 + 1 * (j 3).val = (j 3).val; omega
  have h0 : ((cfg6.win 0).blk t).view.emb j
      = ix4 (⟨t.val * 20 + (j 0).val, by omega⟩ : Fin 2000) (⟨(j 1).val, hj1⟩ : Fin 8) (⟨(j 2).val, hj2⟩ : Fin 64) (⟨(j 3).val, hj3⟩ : Fin 16) := by
    funext a; apply Fin.ext
    match a with
    | ⟨0, _⟩ => show win6_0.index t (0 : Fin 4) * 20 + 1 * (j 0).val = t.val * 20 + (j 0).val; omega
    | ⟨1, _⟩ => show win6_0.index t (1 : Fin 4) * 8 + 1 * (j 1).val = (j 1).val; omega
    | ⟨2, _⟩ => show win6_0.index t (2 : Fin 4) * 64 + 1 * (j 2).val = (j 2).val; omega
    | ⟨3, _⟩ => show win6_0.index t (3 : Fin 4) * 16 + 1 * (j 3).val = (j 3).val; omega
  have h2 : ((cfg6.win 2).blk t).view.emb j
      = ix4 (⟨t.val * 20 + (j 0).val, by omega⟩ : Fin 2000) (⟨(j 1).val, hj1⟩ : Fin 8) (⟨(j 2).val, hj2⟩ : Fin 64) (⟨(j 3).val, hj3⟩ : Fin 16) := by
    funext a; apply Fin.ext
    match a with
    | ⟨0, _⟩ => show win6_2.index t (0 : Fin 4) * 20 + 1 * (j 0).val = t.val * 20 + (j 0).val; omega
    | ⟨1, _⟩ => show win6_2.index t (1 : Fin 4) * 8 + 1 * (j 1).val = (j 1).val; omega
    | ⟨2, _⟩ => show win6_2.index t (2 : Fin 4) * 64 + 1 * (j 2).val = (j 2).val; omega
    | ⟨3, _⟩ => show win6_2.index t (3 : Fin 4) * 16 + 1 * (j 3).val = (j 3).val; omega
  have h1 : ((cfg6.win 1).blk t).view.emb (ix4 (j 0) 0 0 0)
      = ix4 (⟨t.val * 20 + (j 0).val, by omega⟩ : Fin 2000) (0 : Fin 1) (0 : Fin 1) (0 : Fin 1) := by
    funext a; apply Fin.ext
    match a with
    | ⟨0, _⟩ => show win6_1.index t (0 : Fin 4) * 20 + 1 * (j 0).val = t.val * 20 + (j 0).val; omega
    | ⟨1, _⟩ => show win6_1.index t (1 : Fin 4) * 1 + 1 * 0 = 0; omega
    | ⟨2, _⟩ => show win6_1.index t (2 : Fin 4) * 1 + 1 * 0 = 0; omega
    | ⟨3, _⟩ => show win6_1.index t (3 : Fin 4) * 1 + 1 * 0 = 0; omega
  show k6_pay1 (F := Ideal) (fun y => V c main_v106 (((cfg6.win 0).blk t).view.emb y)) (fun y => V c main_v111 (((cfg6.win 1).blk t).view.emb y))
      (fun y => V c main_arg0 (((cfg6.win 2).blk t).view.emb y)) j = G (((cfg6.win 3).blk t).view.emb j)
  rw [hI, hG]
  refine (Blocks.finalize_point _ _ _ j).trans ?_
  have e1 : V c main_v111 (((cfg6.win 1).blk t).view.emb (ix4 (j 0) 0 0 0))
      = V c main_v111 (ix4 (⟨t.val * 20 + (j 0).val, by omega⟩ : Fin 2000) (0 : Fin 1) (0 : Fin 1) (0 : Fin 1)) := congrArg (V c main_v111) h1
  have e0 : V c main_v106 (((cfg6.win 0).blk t).view.emb j) = V c main_v106 (ix4 (⟨t.val * 20 + (j 0).val, by omega⟩ : Fin 2000) (⟨(j 1).val, hj1⟩ : Fin 8) (⟨(j 2).val, hj2⟩ : Fin 64) (⟨(j 3).val, hj3⟩ : Fin 16)) :=
    congrArg (V c main_v106) h0
  have e2 : V c main_arg0 (((cfg6.win 2).blk t).view.emb j) = V c main_arg0 (ix4 (⟨t.val * 20 + (j 0).val, by omega⟩ : Fin 2000) (⟨(j 1).val, hj1⟩ : Fin 8) (⟨(j 2).val, hj2⟩ : Fin 64) (⟨(j 3).val, hj3⟩ : Fin 16)) :=
    congrArg (V c main_arg0) h2
  show Scalar.select (FloatOps.cmpf (F := Ideal) .ogt (V c main_v111 (((cfg6.win 1).blk t).view.emb (ix4 (j 0) 0 0 0))) (Ideal.ofBits .f32 0x00000000#32))
      (Ideal.div (V c main_v106 (((cfg6.win 0).blk t).view.emb j)) (max (V c main_v111 (((cfg6.win 1).blk t).view.emb (ix4 (j 0) 0 0 0))) (Ideal.ofBits .f32 0x3F800000#32)))
      (V c main_arg0 (((cfg6.win 2).blk t).view.emb j)) = _
  rw [e0, e1, e2]

/-- Every row lies in some block: row r in block r / 20. -/
theorem cover (i : S2000x8x64x16.Idx) :
    ∃ t : Fin cfg6.N, (cfg6.win 3).flush t = true ∧ i ∈ ((cfg6.win 3).blk t).view.set := by
  have hi0 : (i 0).val < 2000 := (i 0).isLt
  have hi1 : (i 1).val < 8 := (i 1).isLt
  have hi2 : (i 2).val < 64 := (i 2).isLt
  have hi3 : (i 3).val < 16 := (i 3).isLt
  have hN : grid6.N = 100 := N_6
  let t : Fin cfg6.N := ⟨(i 0).val / 20, by show (i 0).val / 20 < grid6.N; rw [hN]; omega⟩
  obtain ⟨-, -, -, -, -, -, -, -, -, -, -, -, o0, o1, o2, o3⟩ := idx_facts t
  have ht : t.val = (i 0).val / 20 := rfl
  refine ⟨t, flush6_3 t, ?_⟩
  show i ∈ ((View.whole main_v112).slice (win6_3.rect t)).set
  rw [View.set_slice_whole, Rect.mem_set_unit]
  intro a
  match a with
  | ⟨0, _⟩ => show win6_3.index t (0 : Fin 4) * 20 ≤ (i 0).val ∧ (i 0).val < win6_3.index t (0 : Fin 4) * 20 + 20; omega
  | ⟨1, _⟩ => show win6_3.index t (1 : Fin 4) * 8 ≤ (i 1).val ∧ (i 1).val < win6_3.index t (1 : Fin 4) * 8 + 8; omega
  | ⟨2, _⟩ => show win6_3.index t (2 : Fin 4) * 64 ≤ (i 2).val ∧ (i 2).val < win6_3.index t (2 : Fin 4) * 64 + 64; omega
  | ⟨3, _⟩ => show win6_3.index t (3 : Fin 4) * 16 ≤ (i 3).val ∧ (i 3).val < win6_3.index t (3 : Fin 4) * 16 + 16; omega

/-- The output array after the region. -/
theorem out_eq (c : Dev nD) (G : S2000x8x64x16.Idx → EReal)
    (hG : ∀ (r : Fin 2000) (b : Fin 8) (u : Fin 64) (f : Fin 16), G (ix4 r b u f)
      = Scalar.select (FloatOps.cmpf (F := Ideal) .ogt (V c main_v111 (ix4 r 0 0 0)) (Ideal.ofBits .f32 0x00000000#32))
          (Ideal.div (V c main_v106 (ix4 r b u f)) (max (V c main_v111 (ix4 r 0 0 0)) (Ideal.ofBits .f32 0x3F800000#32)))
          (V c main_arg0 (ix4 r b u f))) :
    (dat6 V c).arrAt 3 cfg6.N = G :=
  (dat6 V c).arrAt_eq_of_cover 3 G (fun t _ => flushed_eq V c G hG t) cover

end Cert.KernelIdeal.Region6

end
-- ==== Proof.RefStages.lean ====
/-
  The reference's stages read at an entry, on the extended reals.

  * A dense layer: out(r,b,u,f) = sum over d of in(r,b,u,d) * W(f,d) + bias(f).
  * A combining step: out(r,b,u,f) = g(r,b,u,f) * scale(r,0,0,f) + xc(r,b,u,f).
  * The closing step: with c the count of row r, out(r,b,u,f) = sums(r,b,u,f) / max(c,1) where c > 0, x(r,b,u,f) elsewhere.
-/
import proofs.«131250_j59665685676269_2_alg».proof.Proof.ReferenceRead
import Idealize.ShloMosaic.Lib.ValueIdx

noncomputable section

open scoped BigOperators

namespace Cert.RefStages

open Idealize.ShloMosaic Idealize.ShloMosaic.ValueIdx Cert.ReferenceIdeal Cert.ReferenceIdeal.ReadP

/-- The reference's dense layer over 200 rows, at an entry. -/
theorem fc200 (x0 : (⟨S2000x8x64x16, .f32⟩ : BufTy).Contents (Elt Ideal)) (x2 : (⟨S16x16, .f32⟩ : BufTy).Contents (Elt Ideal)) (x3 : (⟨S16, .f32⟩ : BufTy).Contents (Elt Ideal)) (x4 : (⟨S200, .i32⟩ : BufTy).Contents (Elt Ideal)) (r : Fin 200) (b : Fin 8) (u : Fin 64) (f : Fin 16) :
    val_main_v25 (F := Ideal) x0 x2 x3 x4 (ix4 r b u f)
      = (∑ d : Fin 16, val_main_v6 (F := Ideal) x0 x4 (ix4 r b u d) * x2 (ix2 f d)) + x3 (ix1 f) := by
  rw [val_main_v25_apply]
  show val_main_v22 (F := Ideal) x0 x2 x4 (ix4 r b u f) + val_main_v24 (F := Ideal) x3 (ix4 r b u f) = _
  rw [val_main_v22_apply, val_main_v24_apply, val_main_v23_apply]
  refine congrArg₂ (· + ·) (Finset.sum_congr rfl fun d _ => congrArg₂ (· * ·) (congrArg _ ?_) (congrArg _ ?_)) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl
  · funext a; match a with | ⟨0, _⟩ => rfl

/-- The reference's combining step over 600 rows, at an entry. -/
theorem comb600 (x0 : (⟨S2000x8x64x16, .f32⟩ : BufTy).Contents (Elt Ideal)) (x1 : (⟨S16x2000x2000, .f32⟩ : BufTy).Contents (Elt Ideal)) (x2 : (⟨S16x16, .f32⟩ : BufTy).Contents (Elt Ideal)) (x3 : (⟨S16, .f32⟩ : BufTy).Contents (Elt Ideal)) (x4 : (⟨S200, .i32⟩ : BufTy).Contents (Elt Ideal)) (x5 : (⟨S600, .i32⟩ : BufTy).Contents (Elt Ideal)) (x6 : (⟨S600, .i32⟩ : BufTy).Contents (Elt Ideal)) (x7 : (⟨S600, .i32⟩ : BufTy).Contents (Elt Ideal)) (r : Fin 600) (b : Fin 8) (u : Fin 64) (f : Fin 16) :
    val_main_v43 (F := Ideal) x0 x1 x2 x3 x4 x5 x6 x7 (ix4 r b u f)
      = val_main_v32 (F := Ideal) x0 x2 x3 x4 x5 (ix4 r b u f) * val_main_v33 (F := Ideal) x1 x6 x7 (ix4 r 0 0 f) + val_main_v42 (F := Ideal) x0 x7 (ix4 r b u f) := by
  rw [val_main_v43_apply, val_main_v35_apply]
  show val_main_v32 (F := Ideal) x0 x2 x3 x4 x5 (ix4 r b u f) * val_main_v34 (F := Ideal) x1 x6 x7 (ix4 r b u f) + val_main_v42 (F := Ideal) x0 x7 (ix4 r b u f) = _
  rw [val_main_v34_apply]
  refine congrArg₂ (· + ·) (congrArg₂ (· * ·) rfl (congrArg _ ?_)) rfl
  funext a; match a with | ⟨0, _⟩ => rfl | ⟨1, _⟩ => rfl | ⟨2, _⟩ => rfl | ⟨3, _⟩ => rfl

/-- The reference's dense layer over 600 rows, at an entry. -/
theorem fc600 (x0 : (⟨S2000x8x64x16, .f32⟩ : BufTy).Contents (Elt Ideal)) (x1 : (⟨S16x2000x2000, .f32⟩ : BufTy).Contents (Elt Ideal)) (x2 : (⟨S16x16, .f32⟩ : BufTy).Contents (Elt Ideal)) (x3 : (⟨S16, .f32⟩ : BufTy).Contents (Elt Ideal)) (x4 : (⟨S200, .i32⟩ : BufTy).Contents (Elt Ideal)) (x5 : (⟨S600, .i32⟩ : BufTy).Contents (Elt Ideal)) (x6 : (⟨S600, .i32⟩ : BufTy).Contents (Elt Ideal)) (x7 : (⟨S600, .i32⟩ : BufTy).Contents (Elt Ideal)) (r : Fin 600) (b : Fin 8) (u : Fin 64) (f : Fin 16) :
    val_main_v62 (F := Ideal) x0 x1 x2 x3 x4 x5 x6 x7 (ix4 r b u f)
      = (∑ d : Fin 16, val_main_v43 (F := Ideal) x0 x1 x2 x3 x4 x5 x6 x7 (ix4 r b u d) * x2 (ix2 f d)) + x3 (ix1 f) := by
  rw [val_main_v62_apply]
  show val_main_v59 (F := Ideal) x0 x1 x2 x3 x4 x5 x6 x7 (ix4 r b u f) + val_main_v61 (F := Ideal) x3 (ix4 r b u f) = _
  rw [val_main_v59_apply, val_main_v61_apply, val_main_v60_apply]
  refine congrArg₂ (· + ·) (Finset.sum_congr rfl fun d _ => congrArg₂ (· * ·) (congrArg _ ?_) (congrArg _ ?_)) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl
  · funext a; match a with | ⟨0, _⟩ => rfl

/-- The reference's combining step over 1800 rows, at an entry. -/
theorem comb1800 (x0 : (⟨S2000x8x64x16, .f32⟩ : BufTy).Contents (Elt Ideal)) (x1 : (⟨S16x2000x2000, .f32⟩ : BufTy).Contents (Elt Ideal)) (x2 : (⟨S16x16, .f32⟩ : BufTy).Contents (Elt Ideal)) (x3 : (⟨S16, .f32⟩ : BufTy).Contents (Elt Ideal)) (x4 : (⟨S200, .i32⟩ : BufTy).Contents (Elt Ideal)) (x5 : (⟨S600, .i32⟩ : BufTy).Contents (Elt Ideal)) (x6 : (⟨S600, .i32⟩ : BufTy).Contents (Elt Ideal)) (x7 : (⟨S600, .i32⟩ : BufTy).Contents (Elt Ideal)) (x8 : (⟨S1800, .i32⟩ : BufTy).Contents (Elt Ideal)) (x9 : (⟨S1800, .i32⟩ : BufTy).Contents (Elt Ideal)) (x10 : (⟨S1800, .i32⟩ : BufTy).Contents (Elt Ideal)) (r : Fin 1800) (b : Fin 8) (u : Fin 64) (f : Fin 16) :
    val_main_v80 (F := Ideal) x0 x1 x2 x3 x4 x5 x6 x7 x8 x9 x10 (ix4 r b u f)
      = val_main_v69 (F := Ideal) x0 x1 x2 x3 x4 x5 x6 x7 x8 (ix4 r b u f) * val_main_v70 (F := Ideal) x1 x9 x10 (ix4 r 0 0 f) + val_main_v79 (F := Ideal) x0 x10 (ix4 r b u f) := by
  rw [val_main_v80_apply, val_main_v72_apply]
  show val_main_v69 (F := Ideal) x0 x1 x2 x3 x4 x5 x6 x7 x8 (ix4 r b u f) * val_main_v71 (F := Ideal) x1 x9 x10 (ix4 r b u f) + val_main_v79 (F := Ideal) x0 x10 (ix4 r b u f) = _
  rw [val_main_v71_apply]
  refine congrArg₂ (· + ·) (congrArg₂ (· * ·) rfl (congrArg _ ?_)) rfl
  funext a; match a with | ⟨0, _⟩ => rfl | ⟨1, _⟩ => rfl | ⟨2, _⟩ => rfl | ⟨3, _⟩ => rfl

/-- The reference's dense layer over 1800 rows, at an entry. -/
theorem fc1800 (x0 : (⟨S2000x8x64x16, .f32⟩ : BufTy).Contents (Elt Ideal)) (x1 : (⟨S16x2000x2000, .f32⟩ : BufTy).Contents (Elt Ideal)) (x2 : (⟨S16x16, .f32⟩ : BufTy).Contents (Elt Ideal)) (x3 : (⟨S16, .f32⟩ : BufTy).Contents (Elt Ideal)) (x4 : (⟨S200, .i32⟩ : BufTy).Contents (Elt Ideal)) (x5 : (⟨S600, .i32⟩ : BufTy).Contents (Elt Ideal)) (x6 : (⟨S600, .i32⟩ : BufTy).Contents (Elt Ideal)) (x7 : (⟨S600, .i32⟩ : BufTy).Contents (Elt Ideal)) (x8 : (⟨S1800, .i32⟩ : BufTy).Contents (Elt Ideal)) (x9 : (⟨S1800, .i32⟩ : BufTy).Contents (Elt Ideal)) (x10 : (⟨S1800, .i32⟩ : BufTy).Contents (Elt Ideal)) (r : Fin 1800) (b : Fin 8) (u : Fin 64) (f : Fin 16) :
    val_main_v99 (F := Ideal) x0 x1 x2 x3 x4 x5 x6 x7 x8 x9 x10 (ix4 r b u f)
      = (∑ d : Fin 16, val_main_v80 (F := Ideal) x0 x1 x2 x3 x4 x5 x6 x7 x8 x9 x10 (ix4 r b u d) * x2 (ix2 f d)) + x3 (ix1 f) := by
  rw [val_main_v99_apply]
  show val_main_v96 (F := Ideal) x0 x1 x2 x3 x4 x5 x6 x7 x8 x9 x10 (ix4 r b u f) + val_main_v98 (F := Ideal) x3 (ix4 r b u f) = _
  rw [val_main_v96_apply, val_main_v98_apply, val_main_v97_apply]
  refine congrArg₂ (· + ·) (Finset.sum_congr rfl fun d _ => congrArg₂ (· * ·) (congrArg _ ?_) (congrArg _ ?_)) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl
  · funext a; match a with | ⟨0, _⟩ => rfl

/-- The reference's combining step over 5400 rows, at an entry. -/
theorem comb5400 (x0 : (⟨S2000x8x64x16, .f32⟩ : BufTy).Contents (Elt Ideal)) (x1 : (⟨S16x2000x2000, .f32⟩ : BufTy).Contents (Elt Ideal)) (x2 : (⟨S16x16, .f32⟩ : BufTy).Contents (Elt Ideal)) (x3 : (⟨S16, .f32⟩ : BufTy).Contents (Elt Ideal)) (x4 : (⟨S200, .i32⟩ : BufTy).Contents (Elt Ideal)) (x5 : (⟨S600, .i32⟩ : BufTy).Contents (Elt Ideal)) (x6 : (⟨S600, .i32⟩ : BufTy).Contents (Elt Ideal)) (x7 : (⟨S600, .i32⟩ : BufTy).Contents (Elt Ideal)) (x8 : (⟨S1800, .i32⟩ : BufTy).Contents (Elt Ideal)) (x9 : (⟨S1800, .i32⟩ : BufTy).Contents (Elt Ideal)) (x10 : (⟨S1800, .i32⟩ : BufTy).Contents (Elt Ideal)) (x11 : (⟨S5400, .i32⟩ : BufTy).Contents (Elt Ideal)) (x12 : (⟨S5400, .i32⟩ : BufTy).Contents (Elt Ideal)) (x13 : (⟨S5400, .i32⟩ : BufTy).Contents (Elt Ideal)) (r : Fin 5400) (b : Fin 8) (u : Fin 64) (f : Fin 16) :
    val_main_v117 (F := Ideal) x0 x1 x2 x3 x4 x5 x6 x7 x8 x9 x10 x11 x12 x13 (ix4 r b u f)
      = val_main_v106 (F := Ideal) x0 x1 x2 x3 x4 x5 x6 x7 x8 x9 x10 x11 (ix4 r b u f) * val_main_v107 (F := Ideal) x1 x12 x13 (ix4 r 0 0 f) + val_main_v116 (F := Ideal) x0 x13 (ix4 r b u f) := by
  rw [val_main_v117_apply, val_main_v109_apply]
  show val_main_v106 (F := Ideal) x0 x1 x2 x3 x4 x5 x6 x7 x8 x9 x10 x11 (ix4 r b u f) * val_main_v108 (F := Ideal) x1 x12 x13 (ix4 r b u f) + val_main_v116 (F := Ideal) x0 x13 (ix4 r b u f) = _
  rw [val_main_v108_apply]
  refine congrArg₂ (· + ·) (congrArg₂ (· * ·) rfl (congrArg _ ?_)) rfl
  funext a; match a with | ⟨0, _⟩ => rfl | ⟨1, _⟩ => rfl | ⟨2, _⟩ => rfl | ⟨3, _⟩ => rfl

/-- The reference's closing step, at an entry. -/
theorem closing (x0 : (⟨S2000x8x64x16, .f32⟩ : BufTy).Contents (Elt Ideal)) (x1 : (⟨S16x2000x2000, .f32⟩ : BufTy).Contents (Elt Ideal)) (x2 : (⟨S16x16, .f32⟩ : BufTy).Contents (Elt Ideal)) (x3 : (⟨S16, .f32⟩ : BufTy).Contents (Elt Ideal)) (x4 : (⟨S200, .i32⟩ : BufTy).Contents (Elt Ideal)) (x5 : (⟨S600, .i32⟩ : BufTy).Contents (Elt Ideal)) (x6 : (⟨S600, .i32⟩ : BufTy).Contents (Elt Ideal)) (x7 : (⟨S600, .i32⟩ : BufTy).Contents (Elt Ideal)) (x8 : (⟨S1800, .i32⟩ : BufTy).Contents (Elt Ideal)) (x9 : (⟨S1800, .i32⟩ : BufTy).Contents (Elt Ideal)) (x10 : (⟨S1800, .i32⟩ : BufTy).Contents (Elt Ideal)) (x11 : (⟨S5400, .i32⟩ : BufTy).Contents (Elt Ideal)) (x12 : (⟨S5400, .i32⟩ : BufTy).Contents (Elt Ideal)) (x13 : (⟨S5400, .i32⟩ : BufTy).Contents (Elt Ideal)) (r : Fin 2000) (b : Fin 8) (u : Fin 64) (f : Fin 16) :
    val_main_v132 (F := Ideal) x0 x1 x2 x3 x4 x5 x6 x7 x8 x9 x10 x11 x12 x13 (ix4 r b u f)
      = Scalar.select (FloatOps.cmpf (F := Ideal) .ogt (val_main_v124 (F := Ideal) x13 (ix1 r)) (Ideal.ofBits .f32 0x00000000#32))
          (Ideal.div (val_main_v120 (F := Ideal) x0 x1 x2 x3 x4 x5 x6 x7 x8 x9 x10 x11 x12 x13 (ix4 r b u f)) (max (val_main_v124 (F := Ideal) x13 (ix1 r)) (Ideal.ofBits .f32 0x3F800000#32)))
          (x0 (ix4 r b u f)) := by
  rw [val_main_v132_apply, val_main_call0_v0_apply, val_main_v127_apply, val_main_v131_apply, val_main_v130_apply, val_main_v129_apply]
  simp only [val_main_v125_apply]
  refine congr (congr (congrArg Scalar.select (congrArg₂ (FloatOps.cmpf (F := Ideal) .ogt) (congrArg _ ?_) rfl))
    (congrArg₂ Ideal.div rfl (congrArg₂ max (congrArg _ ?_) rfl))) rfl
  · funext a; match a with | ⟨0, _⟩ => rfl
  · funext a; match a with | ⟨0, _⟩ => rfl

end Cert.RefStages

end
-- ==== Proof.Stages.lean ====
/-
  The kernel program's buffers at the boundaries between its segments, as the reference's stages of the arguments.

  Walking the program from the launch: the first stretch gathers the root rows; each dense-layer region turns its input
  rows into the reference's dense layer of them; each host stretch gathers rows, node features and edge scales exactly as
  the reference does; each combining region forms the reference's product-plus-features; the last stretch forms the
  segment sums and counts; the closing region forms the reference's result.
-/
import proofs.«131250_j59665685676269_2_alg».proof.Proof.Levels
import proofs.«131250_j59665685676269_2_alg».proof.Proof.Region0
import proofs.«131250_j59665685676269_2_alg».proof.Proof.Region1
import proofs.«131250_j59665685676269_2_alg».proof.Proof.Region2
import proofs.«131250_j59665685676269_2_alg».proof.Proof.Region3
import proofs.«131250_j59665685676269_2_alg».proof.Proof.Region4
import proofs.«131250_j59665685676269_2_alg».proof.Proof.Region5
import proofs.«131250_j59665685676269_2_alg».proof.Proof.Region6
import proofs.«131250_j59665685676269_2_alg».proof.Proof.RefStages
import Idealize.ShloMosaic.Lib.StableHlo.Run
import Idealize.ShloMosaic.Lib.Pipeline.Value
import Idealize.ShloMosaic.Lib.ValueIdx

set_option maxRecDepth 16384

noncomputable section

open scoped BigOperators

namespace Cert.Stages

open Idealize.ShloMosaic Idealize.ShloMosaic.ValueIdx Idealize.ShloMosaic.TcCoe Idealize.SL.Sem
open Cert.KernelIdeal Cert.KernelIdeal.Gen Cert.KernelIdeal.Levels
open Cert.ReferenceIdeal.ReadP (val_main_v6 val_main_v25 val_main_v32 val_main_v33 val_main_v42 val_main_v43 val_main_v62 val_main_v69 val_main_v70
  val_main_v79 val_main_v80 val_main_v99 val_main_v106 val_main_v107 val_main_v116 val_main_v117 val_main_v120 val_main_v124 val_main_v132)

/-- A vector of 16 reshaped to one row reads, at (0, f), its entry f. -/
theorem bias_entry (x : S16.Idx → EReal) (f : Fin 16) : shapeCast S1x16 x shapeCasts_S16_S1x16 (ix2 0 f) = x (ix1 f) :=
  shapeCast_apply x _ _ _ (by
    rw [Shape.rowMajor_val_one, Shape.rowMajor_val_two]
    show f.val = 0 * 16 + f.val
    omega)

/-- A vector of 2000 reshaped to [2000,1,1,1] reads, at (r,0,0,0), its entry r. -/
theorem count_entry (x : S2000.Idx → EReal) (r : Fin 2000) :
    shapeCast S2000x1x1x1 x shapeCasts_S2000_S2000x1x1x1 (ix4 r 0 0 0) = x (ix1 r) :=
  shapeCast_apply x _ _ _ (by
    rw [Shape.rowMajor_val_one, Shape.rowMajor_val_four]
    show r.val = ((r.val * 1 + 0) * 1 + 0) * 1 + 0
    omega)

variable (m : (ℓ : Loc nD τ sig) → Buf (Elt Ideal) ℓ) (ρ : Dev nD → PrngReg) (c : Dev nD)

/-! ## The root rows, and the first dense layer -/

theorem v7_V1 : V1 m ρ c main_v7 = val_main_v6 (F := Ideal) (m ((c : Thread nD τ).loc main_arg0)) (m ((c : Thread nD τ).loc main_arg4)) := by
  show StableHlo.after hostOps0 (W0 m ρ c) (Proc.devRef .tc main_v7) = _
  after_results
  rfl

theorem v8_W2 : W2 m ρ c (Proc.devRef .tc main_v8) = val_main_v25 (F := Ideal) (m ((c : Thread nD τ).loc main_arg0)) (m ((c : Thread nD τ).loc main_arg2)) (m ((c : Thread nD τ).loc main_arg3)) (m ((c : Thread nD τ).loc main_arg4)) :=
  (W2_arr m ρ c 3).trans (Region0.out_eq (V1 m ρ) c _ _ _ _ (v7_V1 m ρ c) (main_arg2_W1 m ρ c) (main_v0_W1 m ρ c) fun r b u f => by
    rw [bias_entry]
    exact RefStages.fc200 _ _ _ _ r b u f)

/-! ## Level one -/

set_option maxHeartbeats 4000000 in
theorem v15_V3 : V3 m ρ c main_v15 = val_main_v32 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v15) = _
  after_results_simp
  rw [v8_W2, main_arg5_W2]
  rfl

set_option maxHeartbeats 4000000 in
theorem v38_V3 : V3 m ρ c main_v38 = val_main_v42 (F := Ideal) (m ((c : Thread nD τ).loc main_arg0)) (m ((c : Thread nD τ).loc main_arg7)) := by
  show StableHlo.after hostOps1 (W2 m ρ c) (Proc.devRef .tc main_v38) = _
  after_results_simp
  rw [main_arg0_W2, main_arg7_W2]
  rfl

set_option maxHeartbeats 4000000 in
theorem v31_V3 : V3 m ρ c main_v31 = val_main_v33 (F := Ideal) (m ((c : Thread nD τ).loc main_arg1)) (m ((c : Thread nD τ).loc main_arg6)) (m ((c : Thread nD τ).loc main_arg7)) := by
  show StableHlo.after hostOps1 (W2 m ρ c) (Proc.devRef .tc main_v31) = _
  after_results
  rw [main_arg1_W2, main_arg6_W2, main_arg7_W2]
  rfl

theorem v39_W4 : W4 m ρ c (Proc.devRef .tc main_v39) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 3).trans (Region1.out_eq (V3 m ρ) c _ _ _ _ (v15_V3 m ρ c) (v31_V3 m ρ c) (v38_V3 m ρ c) fun r b u f =>
    RefStages.comb600 _ _ _ _ _ _ _ _ r b u f)

theorem v40_W5 : W5 m ρ c (Proc.devRef .tc main_v40) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W5_arr m ρ c 3).trans (Region2.out_eq (V4 m ρ) c _ _ _ _ (v39_W4 m ρ c) (main_arg2_W4 m ρ c) (main_v0_W4 m ρ c) fun r b u f => by
    rw [bias_entry]
    exact RefStages.fc600 _ _ _ _ _ _ _ _ r b u f)

/-! ## Level two -/

set_option maxHeartbeats 4000000 in
theorem v47_V6 : V6 m ρ c main_v47 = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W5 m ρ c) (Proc.devRef .tc main_v47) = _
  after_results_simp
  rw [v40_W5, main_arg8_W5]
  rfl

set_option maxHeartbeats 4000000 in
theorem v70_V6 : V6 m ρ c main_v70 = val_main_v79 (F := Ideal) (m ((c : Thread nD τ).loc main_arg0)) (m ((c : Thread nD τ).loc main_arg10)) := by
  show StableHlo.after hostOps3 (W5 m ρ c) (Proc.devRef .tc main_v70) = _
  after_results_simp
  rw [main_arg0_W5, main_arg10_W5]
  rfl

set_option maxHeartbeats 4000000 in
theorem v63_V6 : V6 m ρ c main_v63 = val_main_v70 (F := Ideal) (m ((c : Thread nD τ).loc main_arg1)) (m ((c : Thread nD τ).loc main_arg9)) (m ((c : Thread nD τ).loc main_arg10)) := by
  show StableHlo.after hostOps3 (W5 m ρ c) (Proc.devRef .tc main_v63) = _
  after_results
  rw [main_arg1_W5, main_arg9_W5, main_arg10_W5]
  rfl

theorem v71_W7 : W7 m ρ c (Proc.devRef .tc main_v71) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W7_arr m ρ c 3).trans (Region3.out_eq (V6 m ρ) c _ _ _ _ (v47_V6 m ρ c) (v63_V6 m ρ c) (v70_V6 m ρ c) fun r b u f =>
    RefStages.comb1800 _ _ _ _ _ _ _ _ _ _ _ r b u f)

theorem v72_W8 : W8 m ρ c (Proc.devRef .tc main_v72) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 3).trans (Region4.out_eq (V7 m ρ) c _ _ _ _ (v71_W7 m ρ c) (main_arg2_W7 m ρ c) (main_v0_W7 m ρ c) fun r b u f => by
    rw [bias_entry]
    exact RefStages.fc1800 _ _ _ _ _ _ _ _ _ _ _ r b u f)

/-! ## Level three -/

set_option maxHeartbeats 4000000 in
theorem v79_V9 : V9 m ρ c main_v79 = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps5 (W8 m ρ c) (Proc.devRef .tc main_v79) = _
  after_results_simp
  rw [v72_W8, main_arg11_W8]
  rfl

set_option maxHeartbeats 4000000 in
theorem v102_V9 : V9 m ρ c main_v102 = val_main_v116 (F := Ideal) (m ((c : Thread nD τ).loc main_arg0)) (m ((c : Thread nD τ).loc main_arg13)) := by
  show StableHlo.after hostOps5 (W8 m ρ c) (Proc.devRef .tc main_v102) = _
  after_results_simp
  rw [main_arg0_W8, main_arg13_W8]
  rfl

set_option maxHeartbeats 4000000 in
theorem v95_V9 : V9 m ρ c main_v95 = val_main_v107 (F := Ideal) (m ((c : Thread nD τ).loc main_arg1)) (m ((c : Thread nD τ).loc main_arg12)) (m ((c : Thread nD τ).loc main_arg13)) := by
  show StableHlo.after hostOps5 (W8 m ρ c) (Proc.devRef .tc main_v95) = _
  after_results
  rw [main_arg1_W8, main_arg12_W8, main_arg13_W8]
  rfl

theorem v103_W10 : W10 m ρ c (Proc.devRef .tc main_v103) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W10_arr m ρ c 3).trans (Region5.out_eq (V9 m ρ) c _ _ _ _ (v79_V9 m ρ c) (v95_V9 m ρ c) (v102_V9 m ρ c) fun r b u f =>
    RefStages.comb5400 _ _ _ _ _ _ _ _ _ _ _ _ _ _ r b u f)

/-! ## The segment sums and counts, and the closing step -/

theorem v106_V11 : V11 m ρ c main_v106 = val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps6 (W10 m ρ c) (Proc.devRef .tc main_v106) = _
  after_results
  rw [v103_W10, main_arg13_W10]
  rfl

theorem v111_V11 : V11 m ρ c main_v111 = shapeCast S2000x1x1x1 (val_main_v124 (F := Ideal) (m ((c : Thread nD τ).loc main_arg13))) shapeCasts_S2000_S2000x1x1x1 := by
  show StableHlo.after hostOps6 (W10 m ρ c) (Proc.devRef .tc main_v111) = _
  after_results
  rw [main_arg13_W10]
  rfl

theorem v112_W12 : W12 m ρ c (Proc.devRef .tc main_v112) = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W12_arr m ρ c 3).trans (Region6.out_eq (V11 m ρ) c _ fun r b u f => by
    rw [v106_V11, v111_V11, show V11 m ρ c main_arg0 = (m ((c : Thread nD τ).loc main_arg0)) from main_arg0_W11 m ρ c, count_entry]
    exact RefStages.closing _ _ _ _ _ _ _ _ _ _ _ _ _ _ r b u f)

end Cert.Stages

end
-- ==== Proof.lean ====
/-
  The certificate of a three-level tree propagation with a segment mean.

  Both programs take node features x [2000,8,64,16], edge weights A [16,2000,2000], a 16 x 16 weight matrix W, a bias
  b and index vectors describing a tree of depth three.  From the root rows h0 = x[roots], each level forms
  h_{k+1} = (h_k . W^T + b)[parent] * A[:, parent node, child node]^T + x[child]; the leaves are summed per node id
  (segment sums and counts), and the result is sums / max(count, 1) where count > 0 and x elsewhere.

  The kernel program runs the dense layers, the multiply-add steps and the closing step as seven pipelined regions over
  blocks of twenty rows, with the gathers and the scatter-adds as host operations between them; the reference runs
  everything as host operations.  On the extended reals the two compute the same operations in the same order on
  every entry: a block's matrix product is the contraction over the sixteen input channels, a change of float format is
  the identity, and tiling by rows changes nothing.  No law of arithmetic is needed, so the precondition is not used.

  The kernel's run and the value its result buffer ends at are read off the frame of the seven regions; the
  reference's run and its stages come from the patched copies of the generated run and read modules.
-/
import proofs.«131250_j59665685676269_2_alg».proof.Defs
import proofs.«131250_j59665685676269_2_alg».proof.Proof.Gen.Kernel
import proofs.«131250_j59665685676269_2_alg».proof.Proof.Gen.Kernel.Skeleton
import proofs.«131250_j59665685676269_2_alg».proof.Proof.Gen.Kernel.Launch
import proofs.«131250_j59665685676269_2_alg».proof.Proof.Gen.Kernel.Points
import proofs.«131250_j59665685676269_2_alg».proof.Proof.Gen.Kernel.Frame
import proofs.«131250_j59665685676269_2_alg».proof.Proof.Gen.KernelIdeal
import proofs.«131250_j59665685676269_2_alg».proof.Proof.Gen.KernelIdeal.Skeleton
import proofs.«131250_j59665685676269_2_alg».proof.Proof.Gen.KernelIdeal.Launch
import proofs.«131250_j59665685676269_2_alg».proof.Proof.Gen.KernelIdeal.Points
import proofs.«131250_j59665685676269_2_alg».proof.Proof.Gen.KernelIdeal.Frame
import proofs.«131250_j59665685676269_2_alg».proof.Proof.Gen.ReferenceIdeal
import proofs.«131250_j59665685676269_2_alg».proof.Proof.Gen.Pre_finite_inputs
import proofs.«131250_j59665685676269_2_alg».proof.Proof.ReferenceRun
import proofs.«131250_j59665685676269_2_alg».proof.Proof.ReferenceRead
import proofs.«131250_j59665685676269_2_alg».proof.Proof.KernelRun
import proofs.«131250_j59665685676269_2_alg».proof.Proof.Stages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at the reference's last stage of the arguments. -/
theorem algebraic : Cert.algebraic_KernelIdeal_ReferenceIdeal := by
  intro m ρ m' ρ' _ hagree
  refine ⟨_, (θ_run Cert.KernelIdeal.defs _ _).mono
      (fun r h c => ⟨(h c).1.trans (Cert.Stages.v112_W12 m ρ c), (h c).2⟩)
      (Cert.KernelIdeal.RunValue.run_result (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v132_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
